-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)) →
    ∃ (v0 : (c : Dev Cert.KernelIdeal.nD) → Buf (Elt Ideal) ((c.tc : Thread Cert.KernelIdeal.nD Cert.KernelIdeal.τ).loc Cert.KernelIdeal.main_v201)) (v1 : (c : Dev Cert.KernelIdeal.nD) → Buf (Elt Ideal) ((c.tc : Thread Cert.KernelIdeal.nD Cert.KernelIdeal.τ).loc Cert.KernelIdeal.main_v202)) (v2 : (c : Dev Cert.KernelIdeal.nD) → Buf (Elt Ideal) ((c.tc : Thread Cert.KernelIdeal.nD Cert.KernelIdeal.τ).loc Cert.KernelIdeal.main_v203)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v201) = v0 c
          ∧ r.2.mem ((c.tc : Thread Cert.KernelIdeal.nD Cert.KernelIdeal.τ).loc Cert.KernelIdeal.main_v202) = v1 c
          ∧ r.2.mem ((c.tc : Thread Cert.KernelIdeal.nD Cert.KernelIdeal.τ).loc Cert.KernelIdeal.main_v203) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_v293) = v1 c
          ∧ r.2.mem ((c.tc : Thread Cert.ReferenceIdeal.nD Cert.ReferenceIdeal.τ).loc Cert.ReferenceIdeal.main_v294) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S5000x128 : Shape := ⟨2, ![5000, 128]⟩
abbrev S5000 : Shape := ⟨1, ![5000]⟩
abbrev S800000 : Shape := ⟨1, ![800000]⟩
abbrev S250000 : Shape := ⟨1, ![250000]⟩
abbrev S160000 : Shape := ⟨1, ![160000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S5000x128 : S_.BroadcastsInDim S5000x128 (![] : Fin 0 → Fin S5000x128.rank)
  reducesTo_S5000x128_S_d0_1 : S5000x128.ReducesTo [0, 1] S_
  bcast_S_S5000 : S_.BroadcastsInDim S5000 (![] : Fin 0 → Fin S5000.rank)
  reducesTo_S5000_S_d0 : S5000.ReducesTo [0] S_
  bcast_S_S800000 : S_.BroadcastsInDim S800000 (![] : Fin 0 → Fin S800000.rank)
  reducesTo_S800000_S_d0 : S800000.ReducesTo [0] S_
  bcast_S_S250000 : S_.BroadcastsInDim S250000 (![] : Fin 0 → Fin S250000.rank)
  reducesTo_S250000_S_d0 : S250000.ReducesTo [0] S_
  bcast_S_S160000 : S_.BroadcastsInDim S160000 (![] : Fin 0 → Fin S160000.rank)
  reducesTo_S160000_S_d0 : S160000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part9 {F : FTy → Type} [FloatOps F] (main_arg41 : FVec F S128x128 .f32) (main_v153 : IVec S_ 1) : IVec S_ 1 :=
  let main_v154 : FVec F S128x128 .f32 := Host.absf main_arg41
  let main_cst_60 : FVec F S_ .f32 := constant S_ .f32 0x7F800000#32
  let main_v155 : FVec F S128x128 .f32 := broadcastInDim S128x128 ![] bcast_S_S128x128 main_cst_60
  let main_v156 : IVec S128x128 1 := cmpf .olt main_v154 main_v155
  let main_c_61 : IVec S_ 1 := constantI S_ 1 1#1
  let main_v157 : IVec S_ 1 := (fun x v => Host.reduce IntOp.andi x v reducesTo_S128x128_S_d0_1 h_S_) main_v156 main_c_61
  let main_v158 : IVec S_ 1 := andi main_v153 main_v157
  main_v158

def fn_part8 {F : FTy → Type} [FloatOps F] (main_arg38 : FVec F S128x128 .f32) (main_arg39 : FVec F S128 .f32) (main_arg40 : FVec F S128x128 .f32) (main_arg41 : FVec F S128x128 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x128 .f32 := Host.absf main_arg38
  let main_cst_54 : FVec F S_ .f32 := constant S_ .f32 0x7F800000#32
  let main_v140 : FVec F S128x128 .f32 := broadcastInDim S128x128 ![] bcast_S_S128x128 main_cst_54
  let main_v141 : IVec S128x128 1 := cmpf .olt main_v139 main_v140
  let main_c_55 : IVec S_ 1 := constantI S_ 1 1#1
  let main_v142 : IVec S_ 1 := (fun x v => Host.reduce IntOp.andi x v reducesTo_S128x128_S_d0_1 h_S_) main_v141 main_c_55
  let main_v143 : IVec S_ 1 := andi main_v138 main_v142
  let main_v144 : FVec F S128 .f32 := Host.absf main_arg39
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128x128 .f32 := Host.absf main_arg40
  let main_cst_58 : FVec F S_ .f32 := constant S_ .f32 0x7F800000#32
  let main_v150 : FVec F S128x128 .f32 := broadcastInDim S128x128 ![] bcast_S_S128x128 main_cst_58
  let main_v151 : IVec S128x128 1 := cmpf .olt main_v149 main_v150
  let main_c_59 : IVec S_ 1 := constantI S_ 1 1#1
  let main_v152 : IVec S_ 1 := (fun x v => Host.reduce IntOp.andi x v reducesTo_S128x128_S_d0_1 h_S_) main_v151 main_c_59
  let main_v153 : IVec S_ 1 := andi main_v148 main_v152
  fn_part9 (F := F) main_arg41 main_v153

def fn_part7 {F : FTy → Type} [FloatOps F] (main_arg35 : FVec F S128 .f32) (main_arg36 : FVec F S128x128 .f32) (main_arg37 : FVec F S128 .f32) (main_arg38 : FVec F S128x128 .f32) (main_arg39 : FVec F S128 .f32) (main_arg40 : FVec F S128x128 .f32) (main_arg41 : FVec F S128x128 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg35
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x128 .f32 := Host.absf main_arg36
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg37
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg38 main_arg39 main_arg40 main_arg41 main_v133 main_v136

def fn_part6 {F : FTy → Type} [FloatOps F] (main_arg31 : FVec F S128 .f32) (main_arg32 : FVec F S128x128 .f32) (main_arg33 : FVec F S128 .f32) (main_arg34 : FVec F S128x128 .f32) (main_arg35 : FVec F S128 .f32) (main_arg36 : FVec F S128x128 .f32) (main_arg37 : FVec F S128 .f32) (main_arg38 : FVec F S128x128 .f32) (main_arg39 : FVec F S128 .f32) (main_arg40 : FVec F S128x128 .f32) (main_arg41 : FVec F S128x128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg31
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg32
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg33
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg34
  fn_part7 (F := F) main_arg35 main_arg36 main_arg37 main_arg38 main_arg39 main_arg40 main_arg41 main_v118 main_v119

def fn_part5 {F : FTy → Type} [FloatOps F] (main_arg28 : FVec F S128x128 .f32) (main_arg29 : FVec F S128x128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_arg36 : FVec F S128x128 .f32) (main_arg37 : FVec F S128 .f32) (main_arg38 : FVec F S128x128 .f32) (main_arg39 : FVec F S128 .f32) (main_arg40 : FVec F S128x128 .f32) (main_arg41 : FVec F S128x128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg28
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128x128 .f32 := Host.absf main_arg29
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128x128 .f32 := Host.absf main_arg30
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg31 main_arg32 main_arg33 main_arg34 main_arg35 main_arg36 main_arg37 main_arg38 main_arg39 main_arg40 main_arg41 main_v98 main_v101 main_c_39

def fn_part4 {F : FTy → Type} [FloatOps F] (main_arg24 : FVec F S128x128 .f32) (main_arg25 : FVec F S128 .f32) (main_arg26 : FVec F S128x128 .f32) (main_arg27 : FVec F S128 .f32) (main_arg28 : FVec F S128x128 .f32) (main_arg29 : FVec F S128x128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_arg36 : FVec F S128x128 .f32) (main_arg37 : FVec F S128 .f32) (main_arg38 : FVec F S128x128 .f32) (main_arg39 : FVec F S128 .f32) (main_arg40 : FVec F S128x128 .f32) (main_arg41 : FVec F S128x128 .f32) (main_v63 : IVec S_ 1) (main_v67 : IVec S_ 1) : IVec S_ 1 :=
  let main_v68 : IVec S_ 1 := andi main_v63 main_v67
  let main_v69 : FVec F S128x128 .f32 := Host.absf main_arg24
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg25
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg26
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg27
  let main_cst_32 : FVec F S_ .f32 := constant S_ .f32 0x7F800000#32
  fn_part5 (F := F) main_arg28 main_arg29 main_arg30 main_arg31 main_arg32 main_arg33 main_arg34 main_arg35 main_arg36 main_arg37 main_arg38 main_arg39 main_arg40 main_arg41 main_v83 main_v84 main_cst_32

def fn_part3 {F : FTy → Type} [FloatOps F] (main_arg21 : FVec F S128 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128x128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_arg36 : FVec F S128x128 .f32) (main_arg37 : FVec F S128 .f32) (main_arg38 : FVec F S128x128 .f32) (main_arg39 : FVec F S128 .f32) (main_arg40 : FVec F S128x128 .f32) (main_arg41 : FVec F S128x128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg21
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg22
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg23
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg24 main_arg25 main_arg26 main_arg27 main_arg28 main_arg29 main_arg30 main_arg31 main_arg32 main_arg33 main_arg34 main_arg35 main_arg36 main_arg37 main_arg38 main_arg39 main_arg40 main_arg41 main_v63 main_v67

def fn_part2 {F : FTy → Type} [FloatOps F] (main_arg17 : FVec F S250000 .f32) (main_arg18 : FVec F S256x128 .f32) (main_arg19 : FVec F S128 .f32) (main_arg20 : FVec F S256x128 .f32) (main_arg21 : FVec F S128 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128x128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_arg36 : FVec F S128x128 .f32) (main_arg37 : FVec F S128 .f32) (main_arg38 : FVec F S128x128 .f32) (main_arg39 : FVec F S128 .f32) (main_arg40 : FVec F S128x128 .f32) (main_arg41 : FVec F S128x128 .f32) (main_v33 : IVec S_ 1) : IVec S_ 1 :=
  let main_v34 : FVec F S250000 .f32 := Host.absf main_arg17
  let main_cst_12 : FVec F S_ .f32 := constant S_ .f32 0x7F800000#32
  let main_v35 : FVec F S250000 .f32 := broadcastInDim S250000 ![] bcast_S_S250000 main_cst_12
  let main_v36 : IVec S250000 1 := cmpf .olt main_v34 main_v35
  let main_c_13 : IVec S_ 1 := constantI S_ 1 1#1
  let main_v37 : IVec S_ 1 := (fun x v => Host.reduce IntOp.andi x v reducesTo_S250000_S_d0 h_S_) main_v36 main_c_13
  let main_v38 : IVec S_ 1 := andi main_v33 main_v37
  let main_v39 : FVec F S256x128 .f32 := Host.absf main_arg18
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg19
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg20
  let main_cst_18 : FVec F S_ .f32 := constant S_ .f32 0x7F800000#32
  let main_v50 : FVec F S256x128 .f32 := broadcastInDim S256x128 ![] bcast_S_S256x128 main_cst_18
  fn_part3 (F := F) main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v48 main_v49 main_v50

def fn_part1 {F : FTy → Type} [FloatOps F] (main_arg8 : FVec F S250000 .f32) (main_arg11 : FVec F S800000 .f32) (main_arg14 : FVec F S160000 .f32) (main_arg17 : FVec F S250000 .f32) (main_arg18 : FVec F S256x128 .f32) (main_arg19 : FVec F S128 .f32) (main_arg20 : FVec F S256x128 .f32) (main_arg21 : FVec F S128 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128x128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_arg36 : FVec F S128x128 .f32) (main_arg37 : FVec F S128 .f32) (main_arg38 : FVec F S128x128 .f32) (main_arg39 : FVec F S128 .f32) (main_arg40 : FVec F S128x128 .f32) (main_arg41 : FVec F S128x128 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S250000 .f32 := Host.absf main_arg8
  let main_cst_6 : FVec F S_ .f32 := constant S_ .f32 0x7F800000#32
  let main_v20 : FVec F S250000 .f32 := broadcastInDim S250000 ![] bcast_S_S250000 main_cst_6
  let main_v21 : IVec S250000 1 := cmpf .olt main_v19 main_v20
  let main_c_7 : IVec S_ 1 := constantI S_ 1 1#1
  let main_v22 : IVec S_ 1 := (fun x v => Host.reduce IntOp.andi x v reducesTo_S250000_S_d0 h_S_) main_v21 main_c_7
  let main_v23 : IVec S_ 1 := andi main_v18 main_v22
  let main_v24 : FVec F S800000 .f32 := Host.absf main_arg11
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  let main_v29 : FVec F S160000 .f32 := Host.absf main_arg14
  let main_cst_10 : FVec F S_ .f32 := constant S_ .f32 0x7F800000#32
  let main_v30 : FVec F S160000 .f32 := broadcastInDim S160000 ![] bcast_S_S160000 main_cst_10
  let main_v31 : IVec S160000 1 := cmpf .olt main_v29 main_v30
  let main_c_11 : IVec S_ 1 := constantI S_ 1 1#1
  let main_v32 : IVec S_ 1 := (fun x v => Host.reduce IntOp.andi x v reducesTo_S160000_S_d0 h_S_) main_v31 main_c_11
  let main_v33 : IVec S_ 1 := andi main_v28 main_v32
  fn_part2 (F := F) main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v33

def fn {F : FTy → Type} [FloatOps F] (main_arg0 : FVec F S50000x256 .f32) (main_arg1 : FVec F S5000x128 .f32) (main_arg2 : FVec F S5000 .f32) (main_arg3 : IVec S800000 32) (main_arg4 : IVec S800000 32) (main_arg5 : FVec F S800000 .f32) (main_arg6 : IVec S250000 32) (main_arg7 : IVec S250000 32) (main_arg8 : FVec F S250000 .f32) (main_arg9 : IVec S800000 32) (main_arg10 : IVec S800000 32) (main_arg11 : FVec F S800000 .f32) (main_arg12 : IVec S160000 32) (main_arg13 : IVec S160000 32) (main_arg14 : FVec F S160000 .f32) (main_arg15 : IVec S250000 32) (main_arg16 : IVec S250000 32) (main_arg17 : FVec F S250000 .f32) (main_arg18 : FVec F S256x128 .f32) (main_arg19 : FVec F S128 .f32) (main_arg20 : FVec F S256x128 .f32) (main_arg21 : FVec F S128 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128x128 .f32) (main_arg30 : FVec F S128x128 .f32) (main_arg31 : FVec F S128 .f32) (main_arg32 : FVec F S128x128 .f32) (main_arg33 : FVec F S128 .f32) (main_arg34 : FVec F S128x128 .f32) (main_arg35 : FVec F S128 .f32) (main_arg36 : FVec F S128x128 .f32) (main_arg37 : FVec F S128 .f32) (main_arg38 : FVec F S128x128 .f32) (main_arg39 : FVec F S128 .f32) (main_arg40 : FVec F S128x128 .f32) (main_arg41 : FVec F S128x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S5000x128 .f32 := Host.absf main_arg1
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S5000 .f32 := Host.absf main_arg2
  let main_cst_2 : FVec F S_ .f32 := constant S_ .f32 0x7F800000#32
  let main_v10 : FVec F S5000 .f32 := broadcastInDim S5000 ![] bcast_S_S5000 main_cst_2
  let main_v11 : IVec S5000 1 := cmpf .olt main_v9 main_v10
  let main_c_3 : IVec S_ 1 := constantI S_ 1 1#1
  let main_v12 : IVec S_ 1 := (fun x v => Host.reduce IntOp.andi x v reducesTo_S5000_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg8 main_arg11 main_arg14 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_v13 main_v16
-- ==== Kernel.lean ====
abbrev S50000x256 : Shape := ⟨2, ![50000, 256]⟩
abbrev S5000x128 : Shape := ⟨2, ![5000, 128]⟩
abbrev S5000 : Shape := ⟨1, ![5000]⟩
abbrev S800000 : Shape := ⟨1, ![800000]⟩
abbrev S250000 : Shape := ⟨1, ![250000]⟩
abbrev S160000 : Shape := ⟨1, ![160000]⟩
abbrev S256x128 : Shape := ⟨2, ![256, 128]⟩
abbrev S128 : Shape := ⟨1, ![128]⟩
abbrev S128x128 : Shape := ⟨2, ![128, 128]⟩
abbrev S_ : Shape := ⟨0, ![]⟩
abbrev S5000x1 : Shape := ⟨2, ![5000, 1]⟩
abbrev S1x128 : Shape := ⟨2, ![1, 128]⟩
abbrev S50000x128 : Shape := ⟨2, ![50000, 128]⟩
abbrev S2000x256 : Shape := ⟨2, ![2000, 256]⟩
abbrev S2000x128 : Shape := ⟨2, ![2000, 128]⟩
abbrev S1000x128 : Shape := ⟨2, ![1000, 128]⟩
abbrev S1000x1 : Shape := ⟨2, ![1000, 1]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S250000x1 : Shape := ⟨2, ![250000, 1]⟩
abbrev S250000x128 : Shape := ⟨2, ![250000, 128]⟩
abbrev S160000x1 : Shape := ⟨2, ![160000, 1]⟩
abbrev S160000x128 : Shape := ⟨2, ![160000, 128]⟩

abbrev nBuf : Space → Nat
  | .hbm => 310
  | .vmem => 52
  | .smem => 0
  | _ => 0

abbrev hbmTy0_0 (i : Nat) : BufTy := match i % 128 with
  | 0 => ⟨S50000x256, .f32⟩
  | 1 => ⟨S5000x128, .f32⟩
  | 2 => ⟨S5000, .f32⟩
  | 3 => ⟨S800000, .i32⟩
  | 4 => ⟨S800000, .i32⟩
  | 5 => ⟨S800000, .f32⟩
  | 6 => ⟨S250000, .i32⟩
  | 7 => ⟨S250000, .i32⟩
  | 8 => ⟨S250000, .f32⟩
  | 9 => ⟨S800000, .i32⟩
  | 10 => ⟨S800000, .i32⟩
  | 11 => ⟨S800000, .f32⟩
  | 12 => ⟨S160000, .i32⟩
  | 13 => ⟨S160000, .i32⟩
  | 14 => ⟨S160000, .f32⟩
  | 15 => ⟨S250000, .i32⟩
  | 16 => ⟨S250000, .i32⟩
  | 17 => ⟨S250000, .f32⟩
  | 18 => ⟨S256x128, .f32⟩
  | 19 => ⟨S128, .f32⟩
  | 20 => ⟨S256x128, .f32⟩
  | 21 => ⟨S128, .f32⟩
  | 22 => ⟨S256x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128x128, .f32⟩
  | 30 => ⟨S128x128, .f32⟩
  | 31 => ⟨S128, .f32⟩
  | 32 => ⟨S128x128, .f32⟩
  | 33 => ⟨S128, .f32⟩
  | 34 => ⟨S128x128, .f32⟩
  | 35 => ⟨S128, .f32⟩
  | 36 => ⟨S128x128, .f32⟩
  | 37 => ⟨S128, .f32⟩
  | 38 => ⟨S128x128, .f32⟩
  | 39 => ⟨S128, .f32⟩
  | 40 => ⟨S128x128, .f32⟩
  | 41 => ⟨S128x128, .f32⟩
  | 42 => ⟨S_, .f32⟩
  | 43 => ⟨S5000, .f32⟩
  | 44 => ⟨S5000, .i1⟩
  | 45 => ⟨S5000, .f32⟩
  | 46 => ⟨S5000x1, .f32⟩
  | 47 => ⟨S_, .f32⟩
  | 48 => ⟨S5000, .f32⟩
  | 49 => ⟨S5000, .i1⟩
  | 50 => ⟨S5000, .f32⟩
  | 51 => ⟨S5000x1, .f32⟩
  | 52 => ⟨S1x128, .f32⟩
  | 53 => ⟨S1x128, .f32⟩
  | 54 => ⟨S50000x128, .f32⟩
  | 55 => ⟨S50000x128, .f32⟩
  | 56 => ⟨S1x128, .f32⟩
  | 57 => ⟨S5000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x1, .f32⟩
  | 68 => ⟨S800000x128, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S_, .i32⟩
  | 87 => ⟨S250000, .i32⟩
  | 88 => ⟨S250000, .i1⟩
  | 89 => ⟨S_, .i32⟩
  | 90 => ⟨S250000, .i32⟩
  | 91 => ⟨S250000, .i32⟩
  | 92 => ⟨S250000, .i32⟩
  | 93 => ⟨S250000x1, .i32⟩
  | 94 => ⟨S250000x128, .f32⟩
  | 95 => ⟨S250000x1, .f32⟩
  | 96 => ⟨S250000x128, .f32⟩
  | 97 => ⟨S250000x128, .f32⟩
  | 98 => ⟨S_, .f32⟩
  | 99 => ⟨S5000x128, .f32⟩
  | 100 => ⟨S250000x1, .i32⟩
  | 101 => ⟨S5000x128, .f32⟩
  | 102 => ⟨S_, .f32⟩
  | 103 => ⟨S250000, .f32⟩
  | 104 => ⟨S_, .f32⟩
  | 105 => ⟨S5000, .f32⟩
  | 106 => ⟨S250000x1, .i32⟩
  | 107 => ⟨S5000, .f32⟩
  | 108 => ⟨S_, .f32⟩
  | 109 => ⟨S5000, .f32⟩
  | 110 => ⟨S5000, .f32⟩
  | 111 => ⟨S5000x1, .f32⟩
  | 112 => ⟨S5000x128, .f32⟩
  | 113 => ⟨S5000x128, .f32⟩
  | 114 => ⟨S_, .i32⟩
  | 115 => ⟨S160000, .i32⟩
  | 116 => ⟨S160000, .i1⟩
  | 117 => ⟨S_, .i32⟩
  | 118 => ⟨S160000, .i32⟩
  | 119 => ⟨S160000, .i32⟩
  | 120 => ⟨S160000, .i32⟩
  | 121 => ⟨S160000x1, .i32⟩
  | 122 => ⟨S160000x128, .f32⟩
  | 123 => ⟨S160000x1, .f32⟩
  | 124 => ⟨S160000x128, .f32⟩
  | 125 => ⟨S160000x128, .f32⟩
  | 126 => ⟨S_, .f32⟩
  | 127 => ⟨S5000x128, .f32⟩
  | _ => ⟨S50000x256, .f32⟩

abbrev hbmTy0_1 (i : Nat) : BufTy := match i % 128 with
  | 0 => ⟨S160000x1, .i32⟩
  | 1 => ⟨S5000x128, .f32⟩
  | 2 => ⟨S_, .f32⟩
  | 3 => ⟨S160000, .f32⟩
  | 4 => ⟨S_, .f32⟩
  | 5 => ⟨S5000, .f32⟩
  | 6 => ⟨S160000x1, .i32⟩
  | 7 => ⟨S5000, .f32⟩
  | 8 => ⟨S_, .f32⟩
  | 9 => ⟨S5000, .f32⟩
  | 10 => ⟨S5000, .f32⟩
  | 11 => ⟨S5000x1, .f32⟩
  | 12 => ⟨S5000x128, .f32⟩
  | 13 => ⟨S5000x128, .f32⟩
  | 14 => ⟨S5000x128, .f32⟩
  | 15 => ⟨S_, .f32⟩
  | 16 => ⟨S50000x128, .f32⟩
  | 17 => ⟨S50000x128, .f32⟩
  | 18 => ⟨S_, .f32⟩
  | 19 => ⟨S5000x128, .f32⟩
  | 20 => ⟨S5000x128, .f32⟩
  | 21 => ⟨S1x128, .f32⟩
  | 22 => ⟨S1x128, .f32⟩
  | 23 => ⟨S1x128, .f32⟩
  | 24 => ⟨S50000x128, .f32⟩
  | 25 => ⟨S50000x128, .f32⟩
  | 26 => ⟨S50000x128, .f32⟩
  | 27 => ⟨S1x128, .f32⟩
  | 28 => ⟨S1x128, .f32⟩
  | 29 => ⟨S5000x128, .f32⟩
  | 30 => ⟨S5000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x1, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S_, .f32⟩
  | 48 => ⟨S800000, .f32⟩
  | 49 => ⟨S_, .f32⟩
  | 50 => ⟨S50000, .f32⟩
  | 51 => ⟨S800000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S_, .i32⟩
  | 60 => ⟨S250000, .i32⟩
  | 61 => ⟨S250000, .i1⟩
  | 62 => ⟨S_, .i32⟩
  | 63 => ⟨S250000, .i32⟩
  | 64 => ⟨S250000, .i32⟩
  | 65 => ⟨S250000, .i32⟩
  | 66 => ⟨S250000x1, .i32⟩
  | 67 => ⟨S250000x128, .f32⟩
  | 68 => ⟨S250000x1, .f32⟩
  | 69 => ⟨S250000x128, .f32⟩
  | 70 => ⟨S250000x128, .f32⟩
  | 71 => ⟨S_, .f32⟩
  | 72 => ⟨S5000x128, .f32⟩
  | 73 => ⟨S250000x1, .i32⟩
  | 74 => ⟨S5000x128, .f32⟩
  | 75 => ⟨S_, .f32⟩
  | 76 => ⟨S250000, .f32⟩
  | 77 => ⟨S_, .f32⟩
  | 78 => ⟨S5000, .f32⟩
  | 79 => ⟨S250000x1, .i32⟩
  | 80 => ⟨S5000, .f32⟩
  | 81 => ⟨S_, .f32⟩
  | 82 => ⟨S5000, .f32⟩
  | 83 => ⟨S5000, .f32⟩
  | 84 => ⟨S5000x1, .f32⟩
  | 85 => ⟨S5000x128, .f32⟩
  | 86 => ⟨S5000x128, .f32⟩
  | 87 => ⟨S_, .i32⟩
  | 88 => ⟨S160000, .i32⟩
  | 89 => ⟨S160000, .i1⟩
  | 90 => ⟨S_, .i32⟩
  | 91 => ⟨S160000, .i32⟩
  | 92 => ⟨S160000, .i32⟩
  | 93 => ⟨S160000, .i32⟩
  | 94 => ⟨S160000x1, .i32⟩
  | 95 => ⟨S160000x128, .f32⟩
  | 96 => ⟨S160000x1, .f32⟩
  | 97 => ⟨S160000x128, .f32⟩
  | 98 => ⟨S160000x128, .f32⟩
  | 99 => ⟨S_, .f32⟩
  | 100 => ⟨S5000x128, .f32⟩
  | 101 => ⟨S160000x1, .i32⟩
  | 102 => ⟨S5000x128, .f32⟩
  | 103 => ⟨S_, .f32⟩
  | 104 => ⟨S160000, .f32⟩
  | 105 => ⟨S_, .f32⟩
  | 106 => ⟨S5000, .f32⟩
  | 107 => ⟨S160000x1, .i32⟩
  | 108 => ⟨S5000, .f32⟩
  | 109 => ⟨S_, .f32⟩
  | 110 => ⟨S5000, .f32⟩
  | 111 => ⟨S5000, .f32⟩
  | 112 => ⟨S5000x1, .f32⟩
  | 113 => ⟨S5000x128, .f32⟩
  | 114 => ⟨S5000x128, .f32⟩
  | 115 => ⟨S5000x128, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S800000x1, .f32⟩
  | 126 => ⟨S800000x128, .f32⟩
  | 127 => ⟨S800000x128, .f32⟩
  | _ => ⟨S50000x256, .f32⟩

abbrev hbmTy0_2 (i : Nat) : BufTy := match i % 128 with
  | 0 => ⟨S_, .f32⟩
  | 1 => ⟨S50000x128, .f32⟩
  | 2 => ⟨S800000x1, .i32⟩
  | 3 => ⟨S50000x128, .f32⟩
  | 4 => ⟨S_, .f32⟩
  | 5 => ⟨S800000, .f32⟩
  | 6 => ⟨S_, .f32⟩
  | 7 => ⟨S50000, .f32⟩
  | 8 => ⟨S800000x1, .i32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x128, .f32⟩
  | 15 => ⟨S50000x128, .f32⟩
  | 16 => ⟨S_, .i32⟩
  | 17 => ⟨S250000, .i32⟩
  | 18 => ⟨S250000, .i1⟩
  | 19 => ⟨S_, .i32⟩
  | 20 => ⟨S250000, .i32⟩
  | 21 => ⟨S250000, .i32⟩
  | 22 => ⟨S250000, .i32⟩
  | 23 => ⟨S250000x1, .i32⟩
  | 24 => ⟨S250000x128, .f32⟩
  | 25 => ⟨S250000x1, .f32⟩
  | 26 => ⟨S250000x128, .f32⟩
  | 27 => ⟨S250000x128, .f32⟩
  | 28 => ⟨S_, .f32⟩
  | 29 => ⟨S50000x128, .f32⟩
  | 30 => ⟨S250000x1, .i32⟩
  | 31 => ⟨S50000x128, .f32⟩
  | 32 => ⟨S_, .f32⟩
  | 33 => ⟨S250000, .f32⟩
  | 34 => ⟨S_, .f32⟩
  | 35 => ⟨S50000, .f32⟩
  | 36 => ⟨S250000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S5000x128, .f32⟩
  | 50 => ⟨S5000x128, .f32⟩
  | 51 => ⟨S_, .f32⟩
  | 52 => ⟨S50000x128, .f32⟩
  | 53 => ⟨S50000x128, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S256x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S1000x128, .f32⟩
  | .local _ .vmem, ⟨11, _⟩ => ⟨S1000x128, .f32⟩
  | .local _ .vmem, ⟨12, _⟩ => ⟨S1000x1, .f32⟩
  | .local _ .vmem, ⟨13, _⟩ => ⟨S1000x1, .f32⟩
  | .local _ .vmem, ⟨14, _⟩ => ⟨S1000x1, .f32⟩
  | .local _ .vmem, ⟨15, _⟩ => ⟨S1000x1, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S1000x128, .f32⟩
  | .local _ .vmem, ⟨37, _⟩ => ⟨S1000x128, .f32⟩
  | .local _ .vmem, ⟨38, _⟩ => ⟨S1000x1, .f32⟩
  | .local _ .vmem, ⟨39, _⟩ => ⟨S1000x1, .f32⟩
  | .local _ .vmem, ⟨40, _⟩ => ⟨S1000x1, .f32⟩
  | .local _ .vmem, ⟨41, _⟩ => ⟨S1000x1, .f32⟩
  | .local _ .vmem, ⟨42, _⟩ => ⟨S128x128, .f32⟩
  | .local _ .vmem, ⟨43, _⟩ => ⟨S128x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S1000x128, .f32⟩
  | .local _ .vmem, ⟨49, _⟩ => ⟨S1000x128, .f32⟩
  | .local _ .vmem, ⟨50, _⟩ => ⟨S1000x128, .f32⟩
  | .local _ .vmem, ⟨51, _⟩ => ⟨S1000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_cst : Ref sig .tc := ⟨.hbm, 42, rfl⟩
abbrev main_v0 : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_cst_0 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10_0 : Ref sig .tc := ⟨.hbm, 54, rfl⟩
abbrev main_v10_1 : Ref sig .tc := ⟨.hbm, 55, rfl⟩
abbrev main_v11 : Ref sig .tc := ⟨.hbm, 56, rfl⟩
abbrev main_v12 : Ref sig .tc := ⟨.hbm, 57, rfl⟩
abbrev main_c : Ref sig .tc := ⟨.hbm, 58, rfl⟩
abbrev main_v13 : Ref sig .tc := ⟨.hbm, 59, rfl⟩
abbrev main_v14 : Ref sig .tc := ⟨.hbm, 60, rfl⟩
abbrev main_c_1 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_2 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_cst_3 : Ref sig .tc := ⟨.hbm, 74, rfl⟩
abbrev main_v26 : Ref sig .tc := ⟨.hbm, 75, rfl⟩
abbrev main_cst_4 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_cst_5 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_c_6 : Ref sig .tc := ⟨.hbm, 86, rfl⟩
abbrev main_v35 : Ref sig .tc := ⟨.hbm, 87, rfl⟩
abbrev main_v36 : Ref sig .tc := ⟨.hbm, 88, rfl⟩
abbrev main_c_7 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_8 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_9 : Ref sig .tc := ⟨.hbm, 102, rfl⟩
abbrev main_v48 : Ref sig .tc := ⟨.hbm, 103, rfl⟩
abbrev main_cst_10 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_11 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_c_12 : Ref sig .tc := ⟨.hbm, 114, rfl⟩
abbrev main_v57 : Ref sig .tc := ⟨.hbm, 115, rfl⟩
abbrev main_v58 : Ref sig .tc := ⟨.hbm, 116, rfl⟩
abbrev main_c_13 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_14 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_15 : Ref sig .tc := ⟨.hbm, 130, rfl⟩
abbrev main_v70 : Ref sig .tc := ⟨.hbm, 131, rfl⟩
abbrev main_cst_16 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_17 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_call0_cst : Ref sig .tc := ⟨.hbm, 143, rfl⟩
abbrev main_call0_v0 : Ref sig .tc := ⟨.hbm, 144, rfl⟩
abbrev main_v80 : Ref sig .tc := ⟨.hbm, 145, rfl⟩
abbrev main_call1_cst : Ref sig .tc := ⟨.hbm, 146, rfl⟩
abbrev main_call1_v0 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85_0 : Ref sig .tc := ⟨.hbm, 152, rfl⟩
abbrev main_v85_1 : Ref sig .tc := ⟨.hbm, 153, rfl⟩
abbrev main_v85_2 : Ref sig .tc := ⟨.hbm, 154, rfl⟩
abbrev main_v86 : Ref sig .tc := ⟨.hbm, 155, rfl⟩
abbrev main_v87 : Ref sig .tc := ⟨.hbm, 156, rfl⟩
abbrev main_v88_0 : Ref sig .tc := ⟨.hbm, 157, rfl⟩
abbrev main_v88_1 : Ref sig .tc := ⟨.hbm, 158, rfl⟩
abbrev main_c_18 : Ref sig .tc := ⟨.hbm, 159, rfl⟩
abbrev main_v89 : Ref sig .tc := ⟨.hbm, 160, rfl⟩
abbrev main_v90 : Ref sig .tc := ⟨.hbm, 161, rfl⟩
abbrev main_c_19 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_cst_20 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_cst_21 : Ref sig .tc := ⟨.hbm, 175, rfl⟩
abbrev main_v102 : Ref sig .tc := ⟨.hbm, 176, rfl⟩
abbrev main_cst_22 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_cst_23 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_c_24 : Ref sig .tc := ⟨.hbm, 187, rfl⟩
abbrev main_v111 : Ref sig .tc := ⟨.hbm, 188, rfl⟩
abbrev main_v112 : Ref sig .tc := ⟨.hbm, 189, rfl⟩
abbrev main_c_25 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_cst_26 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_cst_27 : Ref sig .tc := ⟨.hbm, 203, rfl⟩
abbrev main_v124 : Ref sig .tc := ⟨.hbm, 204, rfl⟩
abbrev main_cst_28 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_cst_29 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_c_30 : Ref sig .tc := ⟨.hbm, 215, rfl⟩
abbrev main_v133 : Ref sig .tc := ⟨.hbm, 216, rfl⟩
abbrev main_v134 : Ref sig .tc := ⟨.hbm, 217, rfl⟩
abbrev main_c_31 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_cst_32 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_cst_33 : Ref sig .tc := ⟨.hbm, 231, rfl⟩
abbrev main_v146 : Ref sig .tc := ⟨.hbm, 232, rfl⟩
abbrev main_cst_34 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_cst_35 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_c_36 : Ref sig .tc := ⟨.hbm, 244, rfl⟩
abbrev main_v156 : Ref sig .tc := ⟨.hbm, 245, rfl⟩
abbrev main_v157 : Ref sig .tc := ⟨.hbm, 246, rfl⟩
abbrev main_c_37 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_38 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_cst_39 : Ref sig .tc := ⟨.hbm, 260, rfl⟩
abbrev main_v169 : Ref sig .tc := ⟨.hbm, 261, rfl⟩
abbrev main_cst_40 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_cst_41 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_c_42 : Ref sig .tc := ⟨.hbm, 272, rfl⟩
abbrev main_v178 : Ref sig .tc := ⟨.hbm, 273, rfl⟩
abbrev main_v179 : Ref sig .tc := ⟨.hbm, 274, rfl⟩
abbrev main_c_43 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_cst_44 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_cst_45 : Ref sig .tc := ⟨.hbm, 288, rfl⟩
abbrev main_v191 : Ref sig .tc := ⟨.hbm, 289, rfl⟩
abbrev main_cst_46 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_cst_47 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_call2_cst : Ref sig .tc := ⟨.hbm, 301, rfl⟩
abbrev main_call2_v0 : Ref sig .tc := ⟨.hbm, 302, rfl⟩
abbrev main_v201 : Ref sig .tc := ⟨.hbm, 303, rfl⟩
abbrev main_call3_cst : Ref sig .tc := ⟨.hbm, 304, rfl⟩
abbrev main_call3_v0 : Ref sig .tc := ⟨.hbm, 305, rfl⟩
abbrev main_v202 : Ref sig .tc := ⟨.hbm, 306, rfl⟩
abbrev main_call4_cst : Ref sig .tc := ⟨.hbm, 307, rfl⟩
abbrev main_call4_v0 : Ref sig .tc := ⟨.hbm, 308, rfl⟩
abbrev main_v203 : Ref sig .tc := ⟨.hbm, 309, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg9_1 : Ref sig .tc := ⟨.vmem, 49, rfl⟩
abbrev cc3_stg10_0 : Ref sig .tc := ⟨.vmem, 50, rfl⟩
abbrev cc3_stg10_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem9_0 : DmaSem sig := 48
abbrev cc3_sem9_1 : DmaSem sig := 49
abbrev cc3_sem10_0 : DmaSem sig := 50
abbrev cc3_sem10_1 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  bcast_S_S5000 : S_.BroadcastsInDim S5000 (![] : Fin 0 → Fin S5000.rank)
  bcast_S5000_S5000x1_0 : S5000.BroadcastsInDim S5000x1 (![0] : Fin 1 → Fin S5000x1.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S1000x128_S1000x128_0_0 : ∀ a, (![0, 0] : Fin 2 → Nat) a + S1000x128.size a ≤ S1000x128.size a
  h_S1000x128 : 0 < S1000x128.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S128x128_S128x128_0_0 : ∀ a, (![0, 0] : Fin 2 → Nat) a + S128x128.size a ≤ S128x128.size a
  h_S128x128 : 0 < S128x128.numel
  broadcasts_S1x128_S1000x128 : S1x128.Broadcasts S1000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S250000 : S_.BroadcastsInDim S250000 (![] : Fin 0 → Fin S250000.rank)
  bcast_S250000_S250000x1_0 : S250000.BroadcastsInDim S250000x1 (![0] : Fin 1 → Fin S250000x1.rank)
  bcast_S250000x1_S250000x128_0_1 : S250000x1.BroadcastsInDim S250000x128 (![0, 1] : Fin 2 → Fin S250000x128.rank)
  bcast_S_S5000x128 : S_.BroadcastsInDim S5000x128 (![] : Fin 0 → Fin S5000x128.rank)
  bcast_S5000x1_S5000x128_0_1 : S5000x1.BroadcastsInDim S5000x128 (![0, 1] : Fin 2 → Fin S5000x128.rank)
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x128_0_1 : S160000x1.BroadcastsInDim S160000x128 (![0, 1] : Fin 2 → Fin S160000x128.rank)
  shapeCasts_S2000x128_S2000x128 : S2000x128.ShapeCasts S2000x128
  shapeCasts_S1000x128_S1000x128 : S1000x128.ShapeCasts S1000x128
  dot_S2000x256_S256x128_S2000x128_1_0_0_1_n_n_wf : DotDims.WF S2000x256 S256x128 S2000x128 [1] [0] [0] [1] [] []
  dot_S1000x128_S128x128_S1000x128_1_0_0_1_n_n_wf : DotDims.WF S1000x128 S128x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S50000x128_S250000x1_S250000x128_1_0_n_n_0_1_1128_wf : GatherDims.WF S50000x128 S250000x1 S250000x128 [1] [0] [] [0] [] 1 ![1, 128]
  scatter_S5000x128_S250000x1_S250000x128_1_0_0_1_wf : ScatterDims.WF S5000x128 S250000x1 S250000x128 [1] [0] [0] 1
  scatter_S5000_S250000x1_S250000_n_0_0_1_wf : ScatterDims.WF S5000 S250000x1 S250000 [] [0] [0] 1
  gather_S5000x128_S160000x1_S160000x128_1_0_n_n_0_1_1128_wf : GatherDims.WF S5000x128 S160000x1 S160000x128 [1] [0] [] [0] [] 1 ![1, 128]
  scatter_S5000x128_S160000x1_S160000x128_1_0_0_1_wf : ScatterDims.WF S5000x128 S160000x1 S160000x128 [1] [0] [0] 1
  scatter_S5000_S160000x1_S160000_n_0_0_1_wf : ScatterDims.WF S5000 S160000x1 S160000 [] [0] [0] 1
  dot_S2000x128_S128x128_S2000x128_1_0_0_1_n_n_wf : DotDims.WF S2000x128 S128x128 S2000x128 [1] [0] [0] [1] [] []
  gather_S5000x128_S250000x1_S250000x128_1_0_n_n_0_1_1128_wf : GatherDims.WF S5000x128 S250000x1 S250000x128 [1] [0] [] [0] [] 1 ![1, 128]
  scatter_S50000x128_S250000x1_S250000x128_1_0_0_1_wf : ScatterDims.WF S50000x128 S250000x1 S250000x128 [1] [0] [0] 1
  scatter_S50000_S250000x1_S250000_n_0_0_1_wf : ScatterDims.WF S50000 S250000x1 S250000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S5000x128.size a
  hwx1_0 : ∀ i : grid1.Coords, EltTy.bits .f32 = 32 ∨ (Rect.block (s := S5000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S5000x1.size a
  hwx1_1 : ∀ i : grid1.Coords, EltTy.bits .f32 = 32 ∨ (Rect.block (s := S5000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S5000x1.size a
  hwx1_2 : ∀ i : grid1.Coords, EltTy.bits .f32 = 32 ∨ (Rect.block (s := S5000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S5000x128.size a
  hwx1_7 : ∀ i : grid1.Coords, EltTy.bits .f32 = 32 ∨ (Rect.block (s := S5000x128) S1000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S5000x128.size a
  hwx3_0 : ∀ i : grid3.Coords, EltTy.bits .f32 = 32 ∨ (Rect.block (s := S5000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S5000x1.size a
  hwx3_1 : ∀ i : grid3.Coords, EltTy.bits .f32 = 32 ∨ (Rect.block (s := S5000x1) S1000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S5000x1.size a
  hwx3_2 : ∀ i : grid3.Coords, EltTy.bits .f32 = 32 ∨ (Rect.block (s := S5000x1) S1000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x128.size a ≤ S5000x128.size a
  hwx3_9 : ∀ i : grid3.Coords, EltTy.bits .f32 = 32 ∨ (Rect.block (s := S5000x128) S1000x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1000x128.size a ≤ S5000x128.size a
  hwx3_10 : ∀ i : grid3.Coords, EltTy.bits .f32 = 32 ∨ (Rect.block (s := S5000x128) S1000x128.size (cc3_transform_10 i) (hinb3_10 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S5000x128_S250000x1_S250000x128_1_0_0_1 : ScatterDims S5000x128 S250000x1 S250000x128 where
  updateWindowDims := [1]
  insertedWindowDims := [0]
  scatterDimsToOperandDims := [0]
  indexVectorDim := 1
  wf := scatter_S5000x128_S250000x1_S250000x128_1_0_0_1_wf
def scatter_S5000_S250000x1_S250000_n_0_0_1 : ScatterDims S5000 S250000x1 S250000 where
  updateWindowDims := []
  insertedWindowDims := [0]
  scatterDimsToOperandDims := [0]
  indexVectorDim := 1
  wf := scatter_S5000_S250000x1_S250000_n_0_0_1_wf
def gather_S5000x128_S160000x1_S160000x128_1_0_n_n_0_1_1128 : GatherDims S5000x128 S160000x1 S160000x128 where
  offsetDims := [1]
  collapsedSliceDims := [0]
  operandBatchingDims := []
  startIndicesBatchingDims := []
  startIndexMap := [0]
  indexVectorDim := 1
  sliceSizes := ![1, 128]
  wf := gather_S5000x128_S160000x1_S160000x128_1_0_n_n_0_1_1128_wf
def scatter_S5000x128_S160000x1_S160000x128_1_0_0_1 : ScatterDims S5000x128 S160000x1 S160000x128 where
  updateWindowDims := [1]
  insertedWindowDims := [0]
  scatterDimsToOperandDims := [0]
  indexVectorDim := 1
  wf := scatter_S5000x128_S160000x1_S160000x128_1_0_0_1_wf
def scatter_S5000_S160000x1_S160000_n_0_0_1 : ScatterDims S5000 S160000x1 S160000 where
  updateWindowDims := []
  insertedWindowDims := [0]
  scatterDimsToOperandDims := [0]
  indexVectorDim := 1
  wf := scatter_S5000_S160000x1_S160000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S5000x128_S250000x1_S250000x128_1_0_n_n_0_1_1128 : GatherDims S5000x128 S250000x1 S250000x128 where
  offsetDims := [1]
  collapsedSliceDims := [0]
  operandBatchingDims := []
  startIndicesBatchingDims := []
  startIndexMap := [0]
  indexVectorDim := 1
  sliceSizes := ![1, 128]
  wf := gather_S5000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg18) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg20) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg29) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg24) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v80) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg30) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v82) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg32) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg34) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v84) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v85_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v85_1) S2000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v85_2) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v81) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg40) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg41) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg36) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v86) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg38) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v87) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v88_0) S1000x128.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v88_1) S1000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x256 : Shape := ⟨2, ![50000, 256]⟩
abbrev S5000x128 : Shape := ⟨2, ![5000, 128]⟩
abbrev S5000 : Shape := ⟨1, ![5000]⟩
abbrev S800000 : Shape := ⟨1, ![800000]⟩
abbrev S250000 : Shape := ⟨1, ![250000]⟩
abbrev S160000 : Shape := ⟨1, ![160000]⟩
abbrev S256x128 : Shape := ⟨2, ![256, 128]⟩
abbrev S128 : Shape := ⟨1, ![128]⟩
abbrev S128x128 : Shape := ⟨2, ![128, 128]⟩
abbrev S_ : Shape := ⟨0, ![]⟩
abbrev S5000x1 : Shape := ⟨2, ![5000, 1]⟩
abbrev S50000x128 : Shape := ⟨2, ![50000, 128]⟩
abbrev S1x128 : Shape := ⟨2, ![1, 128]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S250000x1 : Shape := ⟨2, ![250000, 1]⟩
abbrev S250000x128 : Shape := ⟨2, ![250000, 128]⟩
abbrev S160000x1 : Shape := ⟨2, ![160000, 1]⟩
abbrev S160000x128 : Shape := ⟨2, ![160000, 128]⟩

abbrev nBuf : Space → Nat
  | .hbm => 409
  | .vmem => 0
  | .smem => 0
  | _ => 0

abbrev hbmTy0_0 (i : Nat) : BufTy := match i % 128 with
  | 0 => ⟨S50000x256, .f32⟩
  | 1 => ⟨S5000x128, .f32⟩
  | 2 => ⟨S5000, .f32⟩
  | 3 => ⟨S800000, .i32⟩
  | 4 => ⟨S800000, .i32⟩
  | 5 => ⟨S800000, .f32⟩
  | 6 => ⟨S250000, .i32⟩
  | 7 => ⟨S250000, .i32⟩
  | 8 => ⟨S250000, .f32⟩
  | 9 => ⟨S800000, .i32⟩
  | 10 => ⟨S800000, .i32⟩
  | 11 => ⟨S800000, .f32⟩
  | 12 => ⟨S160000, .i32⟩
  | 13 => ⟨S160000, .i32⟩
  | 14 => ⟨S160000, .f32⟩
  | 15 => ⟨S250000, .i32⟩
  | 16 => ⟨S250000, .i32⟩
  | 17 => ⟨S250000, .f32⟩
  | 18 => ⟨S256x128, .f32⟩
  | 19 => ⟨S128, .f32⟩
  | 20 => ⟨S256x128, .f32⟩
  | 21 => ⟨S128, .f32⟩
  | 22 => ⟨S256x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128x128, .f32⟩
  | 30 => ⟨S128x128, .f32⟩
  | 31 => ⟨S128, .f32⟩
  | 32 => ⟨S128x128, .f32⟩
  | 33 => ⟨S128, .f32⟩
  | 34 => ⟨S128x128, .f32⟩
  | 35 => ⟨S128, .f32⟩
  | 36 => ⟨S128x128, .f32⟩
  | 37 => ⟨S128, .f32⟩
  | 38 => ⟨S128x128, .f32⟩
  | 39 => ⟨S128, .f32⟩
  | 40 => ⟨S128x128, .f32⟩
  | 41 => ⟨S128x128, .f32⟩
  | 42 => ⟨S_, .f32⟩
  | 43 => ⟨S5000, .f32⟩
  | 44 => ⟨S5000, .i1⟩
  | 45 => ⟨S5000, .f32⟩
  | 46 => ⟨S5000x1, .f32⟩
  | 47 => ⟨S_, .f32⟩
  | 48 => ⟨S5000, .f32⟩
  | 49 => ⟨S5000, .i1⟩
  | 50 => ⟨S5000, .f32⟩
  | 51 => ⟨S5000x1, .f32⟩
  | 52 => ⟨S50000x128, .f32⟩
  | 53 => ⟨S1x128, .f32⟩
  | 54 => ⟨S50000x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S5000x128, .f32⟩
  | 65 => ⟨S5000x128, .f32⟩
  | 66 => ⟨S5000x128, .f32⟩
  | 67 => ⟨S5000x128, .f32⟩
  | 68 => ⟨S5000x128, .f32⟩
  | 69 => ⟨S5000x128, .f32⟩
  | 70 => ⟨S5000x128, .f32⟩
  | 71 => ⟨S5000x128, .f32⟩
  | 72 => ⟨S1x128, .f32⟩
  | 73 => ⟨S5000x128, .f32⟩
  | 74 => ⟨S5000x128, .f32⟩
  | 75 => ⟨S5000x128, .f32⟩
  | 76 => ⟨S5000x128, .f32⟩
  | 77 => ⟨S1x128, .f32⟩
  | 78 => ⟨S5000x128, .f32⟩
  | 79 => ⟨S5000x128, .f32⟩
  | 80 => ⟨S5000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S800000x1, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S800000, .f32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x128, .f32⟩
  | 108 => ⟨S50000x128, .f32⟩
  | 109 => ⟨S_, .i32⟩
  | 110 => ⟨S250000, .i32⟩
  | 111 => ⟨S250000, .i1⟩
  | 112 => ⟨S_, .i32⟩
  | 113 => ⟨S250000, .i32⟩
  | 114 => ⟨S250000, .i32⟩
  | 115 => ⟨S250000, .i32⟩
  | 116 => ⟨S250000x1, .i32⟩
  | 117 => ⟨S250000x128, .f32⟩
  | 118 => ⟨S250000x1, .f32⟩
  | 119 => ⟨S250000x128, .f32⟩
  | 120 => ⟨S250000x128, .f32⟩
  | 121 => ⟨S_, .f32⟩
  | 122 => ⟨S5000x128, .f32⟩
  | 123 => ⟨S250000x1, .i32⟩
  | 124 => ⟨S5000x128, .f32⟩
  | 125 => ⟨S_, .f32⟩
  | 126 => ⟨S250000, .f32⟩
  | 127 => ⟨S_, .f32⟩
  | _ => ⟨S50000x256, .f32⟩

abbrev hbmTy0_1 (i : Nat) : BufTy := match i % 128 with
  | 0 => ⟨S5000, .f32⟩
  | 1 => ⟨S250000x1, .i32⟩
  | 2 => ⟨S5000, .f32⟩
  | 3 => ⟨S_, .f32⟩
  | 4 => ⟨S5000, .f32⟩
  | 5 => ⟨S5000, .f32⟩
  | 6 => ⟨S5000x1, .f32⟩
  | 7 => ⟨S5000x128, .f32⟩
  | 8 => ⟨S5000x128, .f32⟩
  | 9 => ⟨S_, .i32⟩
  | 10 => ⟨S160000, .i32⟩
  | 11 => ⟨S160000, .i1⟩
  | 12 => ⟨S_, .i32⟩
  | 13 => ⟨S160000, .i32⟩
  | 14 => ⟨S160000, .i32⟩
  | 15 => ⟨S160000, .i32⟩
  | 16 => ⟨S160000x1, .i32⟩
  | 17 => ⟨S160000x128, .f32⟩
  | 18 => ⟨S160000x1, .f32⟩
  | 19 => ⟨S160000x128, .f32⟩
  | 20 => ⟨S160000x128, .f32⟩
  | 21 => ⟨S_, .f32⟩
  | 22 => ⟨S5000x128, .f32⟩
  | 23 => ⟨S160000x1, .i32⟩
  | 24 => ⟨S5000x128, .f32⟩
  | 25 => ⟨S_, .f32⟩
  | 26 => ⟨S160000, .f32⟩
  | 27 => ⟨S_, .f32⟩
  | 28 => ⟨S5000, .f32⟩
  | 29 => ⟨S160000x1, .i32⟩
  | 30 => ⟨S5000, .f32⟩
  | 31 => ⟨S_, .f32⟩
  | 32 => ⟨S5000, .f32⟩
  | 33 => ⟨S5000, .f32⟩
  | 34 => ⟨S5000x1, .f32⟩
  | 35 => ⟨S5000x128, .f32⟩
  | 36 => ⟨S5000x128, .f32⟩
  | 37 => ⟨S5000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x1, .f32⟩
  | 48 => ⟨S800000x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S_, .f32⟩
  | 55 => ⟨S800000, .f32⟩
  | 56 => ⟨S_, .f32⟩
  | 57 => ⟨S50000, .f32⟩
  | 58 => ⟨S800000x1, .i32⟩
  | 59 => ⟨S50000, .f32⟩
  | 60 => ⟨S_, .f32⟩
  | 61 => ⟨S50000, .f32⟩
  | 62 => ⟨S50000, .f32⟩
  | 63 => ⟨S50000x1, .f32⟩
  | 64 => ⟨S50000x128, .f32⟩
  | 65 => ⟨S50000x128, .f32⟩
  | 66 => ⟨S_, .i32⟩
  | 67 => ⟨S250000, .i32⟩
  | 68 => ⟨S250000, .i1⟩
  | 69 => ⟨S_, .i32⟩
  | 70 => ⟨S250000, .i32⟩
  | 71 => ⟨S250000, .i32⟩
  | 72 => ⟨S250000, .i32⟩
  | 73 => ⟨S250000x1, .i32⟩
  | 74 => ⟨S250000x128, .f32⟩
  | 75 => ⟨S250000x1, .f32⟩
  | 76 => ⟨S250000x128, .f32⟩
  | 77 => ⟨S250000x128, .f32⟩
  | 78 => ⟨S_, .f32⟩
  | 79 => ⟨S50000x128, .f32⟩
  | 80 => ⟨S250000x1, .i32⟩
  | 81 => ⟨S50000x128, .f32⟩
  | 82 => ⟨S_, .f32⟩
  | 83 => ⟨S250000, .f32⟩
  | 84 => ⟨S_, .f32⟩
  | 85 => ⟨S50000, .f32⟩
  | 86 => ⟨S250000x1, .i32⟩
  | 87 => ⟨S50000, .f32⟩
  | 88 => ⟨S_, .f32⟩
  | 89 => ⟨S50000, .f32⟩
  | 90 => ⟨S50000, .f32⟩
  | 91 => ⟨S50000x1, .f32⟩
  | 92 => ⟨S50000x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S_, .f32⟩
  | 99 => ⟨S5000x128, .f32⟩
  | 100 => ⟨S5000x128, .f32⟩
  | 101 => ⟨S50000x128, .f32⟩
  | 102 => ⟨S1x128, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S5000x128, .f32⟩
  | 114 => ⟨S5000x128, .f32⟩
  | 115 => ⟨S5000x128, .f32⟩
  | 116 => ⟨S5000x128, .f32⟩
  | 117 => ⟨S5000x128, .f32⟩
  | 118 => ⟨S5000x128, .f32⟩
  | 119 => ⟨S5000x128, .f32⟩
  | 120 => ⟨S5000x128, .f32⟩
  | 121 => ⟨S1x128, .f32⟩
  | 122 => ⟨S5000x128, .f32⟩
  | 123 => ⟨S5000x128, .f32⟩
  | 124 => ⟨S5000x128, .f32⟩
  | 125 => ⟨S5000x128, .f32⟩
  | 126 => ⟨S1x128, .f32⟩
  | 127 => ⟨S5000x128, .f32⟩
  | _ => ⟨S50000x256, .f32⟩

abbrev hbmTy0_2 (i : Nat) : BufTy := match i % 128 with
  | 0 => ⟨S5000x128, .f32⟩
  | 1 => ⟨S5000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S800000x1, .f32⟩
  | 12 => ⟨S800000x128, .f32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000x1, .f32⟩
  | 28 => ⟨S50000x128, .f32⟩
  | 29 => ⟨S50000x128, .f32⟩
  | 30 => ⟨S_, .i32⟩
  | 31 => ⟨S250000, .i32⟩
  | 32 => ⟨S250000, .i1⟩
  | 33 => ⟨S_, .i32⟩
  | 34 => ⟨S250000, .i32⟩
  | 35 => ⟨S250000, .i32⟩
  | 36 => ⟨S250000, .i32⟩
  | 37 => ⟨S250000x1, .i32⟩
  | 38 => ⟨S250000x128, .f32⟩
  | 39 => ⟨S250000x1, .f32⟩
  | 40 => ⟨S250000x128, .f32⟩
  | 41 => ⟨S250000x128, .f32⟩
  | 42 => ⟨S_, .f32⟩
  | 43 => ⟨S5000x128, .f32⟩
  | 44 => ⟨S250000x1, .i32⟩
  | 45 => ⟨S5000x128, .f32⟩
  | 46 => ⟨S_, .f32⟩
  | 47 => ⟨S250000, .f32⟩
  | 48 => ⟨S_, .f32⟩
  | 49 => ⟨S5000, .f32⟩
  | 50 => ⟨S250000x1, .i32⟩
  | 51 => ⟨S5000, .f32⟩
  | 52 => ⟨S_, .f32⟩
  | 53 => ⟨S5000, .f32⟩
  | 54 => ⟨S5000, .f32⟩
  | 55 => ⟨S5000x1, .f32⟩
  | 56 => ⟨S5000x128, .f32⟩
  | 57 => ⟨S5000x128, .f32⟩
  | 58 => ⟨S_, .i32⟩
  | 59 => ⟨S160000, .i32⟩
  | 60 => ⟨S160000, .i1⟩
  | 61 => ⟨S_, .i32⟩
  | 62 => ⟨S160000, .i32⟩
  | 63 => ⟨S160000, .i32⟩
  | 64 => ⟨S160000, .i32⟩
  | 65 => ⟨S160000x1, .i32⟩
  | 66 => ⟨S160000x128, .f32⟩
  | 67 => ⟨S160000x1, .f32⟩
  | 68 => ⟨S160000x128, .f32⟩
  | 69 => ⟨S160000x128, .f32⟩
  | 70 => ⟨S_, .f32⟩
  | 71 => ⟨S5000x128, .f32⟩
  | 72 => ⟨S160000x1, .i32⟩
  | 73 => ⟨S5000x128, .f32⟩
  | 74 => ⟨S_, .f32⟩
  | 75 => ⟨S160000, .f32⟩
  | 76 => ⟨S_, .f32⟩
  | 77 => ⟨S5000, .f32⟩
  | 78 => ⟨S160000x1, .i32⟩
  | 79 => ⟨S5000, .f32⟩
  | 80 => ⟨S_, .f32⟩
  | 81 => ⟨S5000, .f32⟩
  | 82 => ⟨S5000, .f32⟩
  | 83 => ⟨S5000x1, .f32⟩
  | 84 => ⟨S5000x128, .f32⟩
  | 85 => ⟨S5000x128, .f32⟩
  | 86 => ⟨S5000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S800000x1, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S_, .f32⟩
  | 104 => ⟨S800000, .f32⟩
  | 105 => ⟨S_, .f32⟩
  | 106 => ⟨S50000, .f32⟩
  | 107 => ⟨S800000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S_, .i32⟩
  | 116 => ⟨S250000, .i32⟩
  | 117 => ⟨S250000, .i1⟩
  | 118 => ⟨S_, .i32⟩
  | 119 => ⟨S250000, .i32⟩
  | 120 => ⟨S250000, .i32⟩
  | 121 => ⟨S250000, .i32⟩
  | 122 => ⟨S250000x1, .i32⟩
  | 123 => ⟨S250000x128, .f32⟩
  | 124 => ⟨S250000x1, .f32⟩
  | 125 => ⟨S250000x128, .f32⟩
  | 126 => ⟨S250000x128, .f32⟩
  | 127 => ⟨S_, .f32⟩
  | _ => ⟨S50000x256, .f32⟩

abbrev hbmTy0_3 (i : Nat) : BufTy := match i % 128 with
  | 0 => ⟨S50000x128, .f32⟩
  | 1 => ⟨S250000x1, .i32⟩
  | 2 => ⟨S50000x128, .f32⟩
  | 3 => ⟨S_, .f32⟩
  | 4 => ⟨S250000, .f32⟩
  | 5 => ⟨S_, .f32⟩
  | 6 => ⟨S50000, .f32⟩
  | 7 => ⟨S250000x1, .i32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .f32⟩
  | 20 => ⟨S5000x128, .f32⟩
  | 21 => ⟨S5000x128, .f32⟩
  | 22 => ⟨S_, .f32⟩
  | 23 => ⟨S50000x128, .f32⟩
  | 24 => ⟨S50000x128, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_cst : Ref sig .tc := ⟨.hbm, 42, rfl⟩
abbrev main_v0 : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_cst_0 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c : Ref sig .tc := ⟨.hbm, 81, rfl⟩
abbrev main_v37 : Ref sig .tc := ⟨.hbm, 82, rfl⟩
abbrev main_v38 : Ref sig .tc := ⟨.hbm, 83, rfl⟩
abbrev main_c_1 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_2 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_3 : Ref sig .tc := ⟨.hbm, 97, rfl⟩
abbrev main_v50 : Ref sig .tc := ⟨.hbm, 98, rfl⟩
abbrev main_cst_4 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_cst_5 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_6 : Ref sig .tc := ⟨.hbm, 109, rfl⟩
abbrev main_v59 : Ref sig .tc := ⟨.hbm, 110, rfl⟩
abbrev main_v60 : Ref sig .tc := ⟨.hbm, 111, rfl⟩
abbrev main_c_7 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_8 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_9 : Ref sig .tc := ⟨.hbm, 125, rfl⟩
abbrev main_v72 : Ref sig .tc := ⟨.hbm, 126, rfl⟩
abbrev main_cst_10 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_11 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_c_12 : Ref sig .tc := ⟨.hbm, 137, rfl⟩
abbrev main_v81 : Ref sig .tc := ⟨.hbm, 138, rfl⟩
abbrev main_v82 : Ref sig .tc := ⟨.hbm, 139, rfl⟩
abbrev main_c_13 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_14 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_15 : Ref sig .tc := ⟨.hbm, 153, rfl⟩
abbrev main_v94 : Ref sig .tc := ⟨.hbm, 154, rfl⟩
abbrev main_cst_16 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_17 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_c_18 : Ref sig .tc := ⟨.hbm, 166, rfl⟩
abbrev main_v104 : Ref sig .tc := ⟨.hbm, 167, rfl⟩
abbrev main_v105 : Ref sig .tc := ⟨.hbm, 168, rfl⟩
abbrev main_c_19 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_20 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_cst_21 : Ref sig .tc := ⟨.hbm, 182, rfl⟩
abbrev main_v117 : Ref sig .tc := ⟨.hbm, 183, rfl⟩
abbrev main_cst_22 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_23 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_c_24 : Ref sig .tc := ⟨.hbm, 194, rfl⟩
abbrev main_v126 : Ref sig .tc := ⟨.hbm, 195, rfl⟩
abbrev main_v127 : Ref sig .tc := ⟨.hbm, 196, rfl⟩
abbrev main_c_25 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_26 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_27 : Ref sig .tc := ⟨.hbm, 210, rfl⟩
abbrev main_v139 : Ref sig .tc := ⟨.hbm, 211, rfl⟩
abbrev main_cst_28 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_cst_29 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_call0_cst : Ref sig .tc := ⟨.hbm, 223, rfl⟩
abbrev main_call0_v0 : Ref sig .tc := ⟨.hbm, 224, rfl⟩
abbrev main_v149 : Ref sig .tc := ⟨.hbm, 225, rfl⟩
abbrev main_call1_cst : Ref sig .tc := ⟨.hbm, 226, rfl⟩
abbrev main_call1_v0 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_c_30 : Ref sig .tc := ⟨.hbm, 258, rfl⟩
abbrev main_v180 : Ref sig .tc := ⟨.hbm, 259, rfl⟩
abbrev main_v181 : Ref sig .tc := ⟨.hbm, 260, rfl⟩
abbrev main_c_31 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_cst_32 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_cst_33 : Ref sig .tc := ⟨.hbm, 274, rfl⟩
abbrev main_v193 : Ref sig .tc := ⟨.hbm, 275, rfl⟩
abbrev main_cst_34 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_cst_35 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_c_36 : Ref sig .tc := ⟨.hbm, 286, rfl⟩
abbrev main_v202 : Ref sig .tc := ⟨.hbm, 287, rfl⟩
abbrev main_v203 : Ref sig .tc := ⟨.hbm, 288, rfl⟩
abbrev main_c_37 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_cst_38 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_cst_39 : Ref sig .tc := ⟨.hbm, 302, rfl⟩
abbrev main_v215 : Ref sig .tc := ⟨.hbm, 303, rfl⟩
abbrev main_cst_40 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_cst_41 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_c_42 : Ref sig .tc := ⟨.hbm, 314, rfl⟩
abbrev main_v224 : Ref sig .tc := ⟨.hbm, 315, rfl⟩
abbrev main_v225 : Ref sig .tc := ⟨.hbm, 316, rfl⟩
abbrev main_c_43 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_cst_44 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_cst_45 : Ref sig .tc := ⟨.hbm, 330, rfl⟩
abbrev main_v237 : Ref sig .tc := ⟨.hbm, 331, rfl⟩
abbrev main_cst_46 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_cst_47 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_c_48 : Ref sig .tc := ⟨.hbm, 343, rfl⟩
abbrev main_v247 : Ref sig .tc := ⟨.hbm, 344, rfl⟩
abbrev main_v248 : Ref sig .tc := ⟨.hbm, 345, rfl⟩
abbrev main_c_49 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_v254 : Ref sig .tc := ⟨.hbm, 352, rfl⟩
abbrev main_v255 : Ref sig .tc := ⟨.hbm, 353, rfl⟩
abbrev main_v256 : Ref sig .tc := ⟨.hbm, 354, rfl⟩
abbrev main_cst_50 : Ref sig .tc := ⟨.hbm, 355, rfl⟩
abbrev main_v257 : Ref sig .tc := ⟨.hbm, 356, rfl⟩
abbrev main_v258 : Ref sig .tc := ⟨.hbm, 357, rfl⟩
abbrev main_v259 : Ref sig .tc := ⟨.hbm, 358, rfl⟩
abbrev main_cst_51 : Ref sig .tc := ⟨.hbm, 359, rfl⟩
abbrev main_v260 : Ref sig .tc := ⟨.hbm, 360, rfl⟩
abbrev main_cst_52 : Ref sig .tc := ⟨.hbm, 361, rfl⟩
abbrev main_v261 : Ref sig .tc := ⟨.hbm, 362, rfl⟩
abbrev main_v262 : Ref sig .tc := ⟨.hbm, 363, rfl⟩
abbrev main_v263 : Ref sig .tc := ⟨.hbm, 364, rfl⟩
abbrev main_cst_53 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_c_54 : Ref sig .tc := ⟨.hbm, 371, rfl⟩
abbrev main_v269 : Ref sig .tc := ⟨.hbm, 372, rfl⟩
abbrev main_v270 : Ref sig .tc := ⟨.hbm, 373, rfl⟩
abbrev main_c_55 : Ref sig .tc := ⟨.hbm, 374, rfl⟩
abbrev main_v271 : Ref sig .tc := ⟨.hbm, 375, rfl⟩
abbrev main_v272 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_v276 : Ref sig .tc := ⟨.hbm, 380, rfl⟩
abbrev main_v277 : Ref sig .tc := ⟨.hbm, 381, rfl⟩
abbrev main_v278 : Ref sig .tc := ⟨.hbm, 382, rfl⟩
abbrev main_cst_56 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_cst_57 : Ref sig .tc := ⟨.hbm, 387, rfl⟩
abbrev main_v282 : Ref sig .tc := ⟨.hbm, 388, rfl⟩
abbrev main_cst_58 : Ref sig .tc := ⟨.hbm, 389, rfl⟩
abbrev main_v283 : Ref sig .tc := ⟨.hbm, 390, rfl⟩
abbrev main_v284 : Ref sig .tc := ⟨.hbm, 391, rfl⟩
abbrev main_v285 : Ref sig .tc := ⟨.hbm, 392, rfl⟩
abbrev main_cst_59 : Ref sig .tc := ⟨.hbm, 393, rfl⟩
abbrev main_v286 : Ref sig .tc := ⟨.hbm, 394, rfl⟩
abbrev main_v287 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_call2_cst : Ref sig .tc := ⟨.hbm, 400, rfl⟩
abbrev main_call2_v0 : Ref sig .tc := ⟨.hbm, 401, rfl⟩
abbrev main_v292 : Ref sig .tc := ⟨.hbm, 402, rfl⟩
abbrev main_call3_cst : Ref sig .tc := ⟨.hbm, 403, rfl⟩
abbrev main_call3_v0 : Ref sig .tc := ⟨.hbm, 404, rfl⟩
abbrev main_v293 : Ref sig .tc := ⟨.hbm, 405, rfl⟩
abbrev main_call4_cst : Ref sig .tc := ⟨.hbm, 406, rfl⟩
abbrev main_call4_v0 : Ref sig .tc := ⟨.hbm, 407, rfl⟩
abbrev main_v294 : Ref sig .tc := ⟨.hbm, 408, rfl⟩

abbrev nD : Nat := 1
abbrev τ : Topo := Topo.v7x

variable {F : FTy → Type} [FloatOps F]

class Facts₀ : Prop where
  bcast_S_S5000 : S_.BroadcastsInDim S5000 (![] : Fin 0 → Fin S5000.rank)
  bcast_S5000_S5000x1_0 : S5000.BroadcastsInDim S5000x1 (![0] : Fin 1 → Fin S5000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S5000x1_S5000x128_0_1 : S5000x1.BroadcastsInDim S5000x128 (![0, 1] : Fin 2 → Fin S5000x128.rank)
  bcast_S1x128_S5000x128_0_1 : S1x128.BroadcastsInDim S5000x128 (![0, 1] : Fin 2 → Fin S5000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S250000 : S_.BroadcastsInDim S250000 (![] : Fin 0 → Fin S250000.rank)
  bcast_S250000_S250000x1_0 : S250000.BroadcastsInDim S250000x1 (![0] : Fin 1 → Fin S250000x1.rank)
  bcast_S250000x1_S250000x128_0_1 : S250000x1.BroadcastsInDim S250000x128 (![0, 1] : Fin 2 → Fin S250000x128.rank)
  bcast_S_S5000x128 : S_.BroadcastsInDim S5000x128 (![] : Fin 0 → Fin S5000x128.rank)
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x128_0_1 : S160000x1.BroadcastsInDim S160000x128 (![0, 1] : Fin 2 → Fin S160000x128.rank)
  dot_S50000x256_S256x128_S50000x128_1_0_0_1_n_n_wf : DotDims.WF S50000x256 S256x128 S50000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S50000x128_S250000x1_S250000x128_1_0_n_n_0_1_1128_wf : GatherDims.WF S50000x128 S250000x1 S250000x128 [1] [0] [] [0] [] 1 ![1, 128]
  scatter_S5000x128_S250000x1_S250000x128_1_0_0_1_wf : ScatterDims.WF S5000x128 S250000x1 S250000x128 [1] [0] [0] 1
  scatter_S5000_S250000x1_S250000_n_0_0_1_wf : ScatterDims.WF S5000 S250000x1 S250000 [] [0] [0] 1
  gather_S5000x128_S160000x1_S160000x128_1_0_n_n_0_1_1128_wf : GatherDims.WF S5000x128 S160000x1 S160000x128 [1] [0] [] [0] [] 1 ![1, 128]
  scatter_S5000x128_S160000x1_S160000x128_1_0_0_1_wf : ScatterDims.WF S5000x128 S160000x1 S160000x128 [1] [0] [0] 1
  scatter_S5000_S160000x1_S160000_n_0_0_1_wf : ScatterDims.WF S5000 S160000x1 S160000 [] [0] [0] 1
  gather_S5000x128_S250000x1_S250000x128_1_0_n_n_0_1_1128_wf : GatherDims.WF S5000x128 S250000x1 S250000x128 [1] [0] [] [0] [] 1 ![1, 128]
  scatter_S50000x128_S250000x1_S250000x128_1_0_0_1_wf : ScatterDims.WF S50000x128 S250000x1 S250000x128 [1] [0] [0] 1
  scatter_S50000_S250000x1_S250000_n_0_0_1_wf : ScatterDims.WF S50000 S250000x1 S250000 [] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S5000x128_S250000x1_S250000x128_1_0_0_1 : ScatterDims S5000x128 S250000x1 S250000x128 where
  updateWindowDims := [1]
  insertedWindowDims := [0]
  scatterDimsToOperandDims := [0]
  indexVectorDim := 1
  wf := scatter_S5000x128_S250000x1_S250000x128_1_0_0_1_wf
def scatter_S5000_S250000x1_S250000_n_0_0_1 : ScatterDims S5000 S250000x1 S250000 where
  updateWindowDims := []
  insertedWindowDims := [0]
  scatterDimsToOperandDims := [0]
  indexVectorDim := 1
  wf := scatter_S5000_S250000x1_S250000_n_0_0_1_wf
def gather_S5000x128_S160000x1_S160000x128_1_0_n_n_0_1_1128 : GatherDims S5000x128 S160000x1 S160000x128 where
  offsetDims := [1]
  collapsedSliceDims := [0]
  operandBatchingDims := []
  startIndicesBatchingDims := []
  startIndexMap := [0]
  indexVectorDim := 1
  sliceSizes := ![1, 128]
  wf := gather_S5000x128_S160000x1_S160000x128_1_0_n_n_0_1_1128_wf
def scatter_S5000x128_S160000x1_S160000x128_1_0_0_1 : ScatterDims S5000x128 S160000x1 S160000x128 where
  updateWindowDims := [1]
  insertedWindowDims := [0]
  scatterDimsToOperandDims := [0]
  indexVectorDim := 1
  wf := scatter_S5000x128_S160000x1_S160000x128_1_0_0_1_wf
def scatter_S5000_S160000x1_S160000_n_0_0_1 : ScatterDims S5000 S160000x1 S160000 where
  updateWindowDims := []
  insertedWindowDims := [0]
  scatterDimsToOperandDims := [0]
  indexVectorDim := 1
  wf := scatter_S5000_S160000x1_S160000_n_0_0_1_wf
def gather_S5000x128_S250000x1_S250000x128_1_0_n_n_0_1_1128 : GatherDims S5000x128 S250000x1 S250000x128 where
  offsetDims := [1]
  collapsedSliceDims := [0]
  operandBatchingDims := []
  startIndicesBatchingDims := []
  startIndexMap := [0]
  indexVectorDim := 1
  sliceSizes := ![1, 128]
  wf := gather_S5000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The model the two programs compute, stage by stage, in the reference's own operations.

  Each of the two layers projects the word rows and the topic rows (dense projections; for the topic rows the masked
  projection, whose second term scales every row by its indicator of a positive and of a negative effect), then
  aggregates along each kind of edge: gather the source rows, scale each by its edge weight, add them into their
  destination rows, divide every row by its in-degree (at least one), sum the kinds that share a destination type, and
  clip below at zero. The aggregation of a projection does not look inside it, so it is stated once as a function of
  the projected matrix: aggW for the word destinations, aggT for the topic destinations (from words and from topics),
  aggD for the document destinations (from words and from topics). The three results are the second layer's
  aggregations of the projections of the first layer's two aggregations.
-/
import proofs.«111394_j56581899157988_1_alg».proof.ReferenceIdeal
import proofs.«111394_j56581899157988_1_alg».proof.Proof.Gen.ReferenceIdeal
import Idealize.ShloMosaic.PureOps.Ideal

set_option maxRecDepth 8192

noncomputable section

namespace Cert.Spec

open Cert.ReferenceIdeal Cert.ReferenceIdeal.Gen Idealize.ShloMosaic

/-- A float array of a shape, and an integer one. -/
abbrev FA (s : Shape) : Type := FVec Ideal s .f32
abbrev IA (s : Shape) : Type := Vec Ideal s .i32

/-- The first layer's dense projection of the word rows (256 features). -/
def denseW1 (X : FA S50000x256) (W : FA S256x128) (b : FA S128) : FA S50000x128 :=
  addf (Host.dotGeneral dot_S50000x256_S256x128_S50000x128_1_0_0_1_n_n none X W) (broadcastInDim S50000x128 ![0, 1] bcast_S1x128_S50000x128_0_1 (broadcastInDim S1x128 ![1] bcast_S128_S1x128_1 b))

/-- The second layer's dense projection of the word rows (128 features). -/
def denseW2 (X : FA S50000x128) (W : FA S128x128) (b : FA S128) : FA S50000x128 :=
  addf (Host.dotGeneral dot_S50000x128_S128x128_S50000x128_1_0_0_1_n_n none X W) (broadcastInDim S50000x128 ![0, 1] bcast_S1x128_S50000x128_0_1 (broadcastInDim S1x128 ![1] bcast_S128_S1x128_1 b))

/-- The indicator column of a positive effect, and of a negative one. -/
def posOf (e : FA S5000) : FA S5000x1 :=
  broadcastInDim S5000x1 ![0] bcast_S5000_S5000x1_0 (uitofp .f32 (cmpf .ogt e (broadcastInDim S5000 ![] bcast_S_S5000 (constant (F := Ideal) S_ .f32 0x00000000#32))))
def negOf (e : FA S5000) : FA S5000x1 :=
  broadcastInDim S5000x1 ![0] bcast_S5000_S5000x1_0 (uitofp .f32 (cmpf .olt e (broadcastInDim S5000 ![] bcast_S_S5000 (constant (F := Ideal) S_ .f32 0x00000000#32))))

/-- The masked projection of the topic rows. -/
def topicP (X : FA S5000x128) (pos neg : FA S5000x1) (C N W : FA S128x128) (b : FA S128) : FA S5000x128 :=
  addf (addf (Host.dotGeneral dot_S5000x128_S128x128_S5000x128_1_0_0_1_n_n none X W) (broadcastInDim S5000x128 ![0, 1] bcast_S1x128_S5000x128_0_1 (broadcastInDim S1x128 ![1] bcast_S128_S1x128_1 b))) (subf (Host.dotGeneral dot_S5000x128_S128x128_S5000x128_1_0_0_1_n_n none (mulf X (broadcastInDim S5000x128 ![0, 1] bcast_S5000x1_S5000x128_0_1 pos)) C) (Host.dotGeneral dot_S5000x128_S128x128_S5000x128_1_0_0_1_n_n none (mulf X (broadcastInDim S5000x128 ![0, 1] bcast_S5000x1_S5000x128_0_1 neg)) N))

/-- The mean over the incoming word–word edges: gather, scale by the edge weight, add into the destination rows, divide by
    the in-degree (at least one). -/
def meanW (P : FA S50000x128) (a3 : IA S800000) (a4 : IA S800000) (a5 : FA S800000) : FA S50000x128 :=
  Host.divf (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 a4) (mulf (Host.gather gather_S50000x128_S800000x1_S800000x128_1_0_n_n_0_1_1128 P (broadcastInDim S800000x1 ![0] bcast_S800000_S800000x1_0 (select (cmpi .slt a3 (broadcastInDim S800000 ![] bcast_S_S800000 (constantI S_ 32 0#32))) (addi a3 (broadcastInDim S800000 ![] bcast_S_S800000 (constantI S_ 32 50000#32))) a3))) (broadcastInDim S800000x128 ![0, 1] bcast_S800000x1_S800000x128_0_1 (broadcastInDim S800000x1 ![0] bcast_S800000_S800000x1_0 a5)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 a4) (broadcastInDim S800000 ![] bcast_S_S800000 (constant (F := Ideal) S_ .f32 0x3F800000#32))) (broadcastInDim S50000 ![] bcast_S_S50000 (constant (F := Ideal) S_ .f32 0x3F800000#32)))))

/-- Aggregation into the word rows along the word–word edges, clipped below at zero. -/
def aggW (P : FA S50000x128) (a3 : IA S800000) (a4 : IA S800000) (a5 : FA S800000) : FA S50000x128 :=
  maximumf (meanW P a3 a4 a5) (broadcastInDim S50000x128 ![] bcast_S_S50000x128 (constant (F := Ideal) S_ .f32 0x00000000#32))

/-- The means over the incoming word–topic and topic–topic edges, summed. -/
def meanT (P1 : FA S50000x128) (P2 : FA S5000x128) (a6 : IA S250000) (a7 : IA S250000) (a8 : FA S250000) (a12 : IA S160000) (a13 : IA S160000) (a14 : FA S160000) : FA S5000x128 :=
  addf (Host.divf (Host.scatterAdd scatter_S5000x128_S250000x1_S250000x128_1_0_0_1 (broadcastInDim S5000x128 ![] bcast_S_S5000x128 (constant (F := Ideal) S_ .f32 0x00000000#32)) (broadcastInDim S250000x1 ![0] bcast_S250000_S250000x1_0 a7) (mulf (Host.gather gather_S50000x128_S250000x1_S250000x128_1_0_n_n_0_1_1128 P1 (broadcastInDim S250000x1 ![0] bcast_S250000_S250000x1_0 (select (cmpi .slt a6 (broadcastInDim S250000 ![] bcast_S_S250000 (constantI S_ 32 0#32))) (addi a6 (broadcastInDim S250000 ![] bcast_S_S250000 (constantI S_ 32 50000#32))) a6))) (broadcastInDim S250000x128 ![0, 1] bcast_S250000x1_S250000x128_0_1 (broadcastInDim S250000x1 ![0] bcast_S250000_S250000x1_0 a8)))) (broadcastInDim S5000x128 ![0, 1] bcast_S5000x1_S5000x128_0_1 (broadcastInDim S5000x1 ![0] bcast_S5000_S5000x1_0 (maximumf (Host.scatterAdd scatter_S5000_S250000x1_S250000_n_0_0_1 (broadcastInDim S5000 ![] bcast_S_S5000 (constant (F := Ideal) S_ .f32 0x00000000#32)) (broadcastInDim S250000x1 ![0] bcast_S250000_S250000x1_0 a7) (broadcastInDim S250000 ![] bcast_S_S250000 (constant (F := Ideal) S_ .f32 0x3F800000#32))) (broadcastInDim S5000 ![] bcast_S_S5000 (constant (F := Ideal) S_ .f32 0x3F800000#32)))))) (Host.divf (Host.scatterAdd scatter_S5000x128_S160000x1_S160000x128_1_0_0_1 (broadcastInDim S5000x128 ![] bcast_S_S5000x128 (constant (F := Ideal) S_ .f32 0x00000000#32)) (broadcastInDim S160000x1 ![0] bcast_S160000_S160000x1_0 a13) (mulf (Host.gather gather_S5000x128_S160000x1_S160000x128_1_0_n_n_0_1_1128 P2 (broadcastInDim S160000x1 ![0] bcast_S160000_S160000x1_0 (select (cmpi .slt a12 (broadcastInDim S160000 ![] bcast_S_S160000 (constantI S_ 32 0#32))) (addi a12 (broadcastInDim S160000 ![] bcast_S_S160000 (constantI S_ 32 5000#32))) a12))) (broadcastInDim S160000x128 ![0, 1] bcast_S160000x1_S160000x128_0_1 (broadcastInDim S160000x1 ![0] bcast_S160000_S160000x1_0 a14)))) (broadcastInDim S5000x128 ![0, 1] bcast_S5000x1_S5000x128_0_1 (broadcastInDim S5000x1 ![0] bcast_S5000_S5000x1_0 (maximumf (Host.scatterAdd scatter_S5000_S160000x1_S160000_n_0_0_1 (broadcastInDim S5000 ![] bcast_S_S5000 (constant (F := Ideal) S_ .f32 0x00000000#32)) (broadcastInDim S160000x1 ![0] bcast_S160000_S160000x1_0 a13) (broadcastInDim S160000 ![] bcast_S_S160000 (constant (F := Ideal) S_ .f32 0x3F800000#32))) (broadcastInDim S5000 ![] bcast_S_S5000 (constant (F := Ideal) S_ .f32 0x3F800000#32))))))

/-- Aggregation into the topic rows along the word–topic and topic–topic edges, summed, clipped below at zero. -/
def aggT (P1 : FA S50000x128) (P2 : FA S5000x128) (a6 : IA S250000) (a7 : IA S250000) (a8 : FA S250000) (a12 : IA S160000) (a13 : IA S160000) (a14 : FA S160000) : FA S5000x128 :=
  maximumf (meanT P1 P2 a6 a7 a8 a12 a13 a14) (broadcastInDim S5000x128 ![] bcast_S_S5000x128 (constant (F := Ideal) S_ .f32 0x00000000#32))

/-- The means over the incoming word–document and topic–document edges, summed. -/
def meanD (P1 : FA S50000x128) (P2 : FA S5000x128) (a9 : IA S800000) (a10 : IA S800000) (a11 : FA S800000) (a15 : IA S250000) (a16 : IA S250000) (a17 : FA S250000) : FA S50000x128 :=
  addf (Host.divf (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 a10) (mulf (Host.gather gather_S50000x128_S800000x1_S800000x128_1_0_n_n_0_1_1128 P1 (broadcastInDim S800000x1 ![0] bcast_S800000_S800000x1_0 (select (cmpi .slt a9 (broadcastInDim S800000 ![] bcast_S_S800000 (constantI S_ 32 0#32))) (addi a9 (broadcastInDim S800000 ![] bcast_S_S800000 (constantI S_ 32 50000#32))) a9))) (broadcastInDim S800000x128 ![0, 1] bcast_S800000x1_S800000x128_0_1 (broadcastInDim S800000x1 ![0] bcast_S800000_S800000x1_0 a11)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 a10) (broadcastInDim S800000 ![] bcast_S_S800000 (constant (F := Ideal) S_ .f32 0x3F800000#32))) (broadcastInDim S50000 ![] bcast_S_S50000 (constant (F := Ideal) S_ .f32 0x3F800000#32)))))) (Host.divf (Host.scatterAdd scatter_S50000x128_S250000x1_S250000x128_1_0_0_1 (broadcastInDim S50000x128 ![] bcast_S_S50000x128 (constant (F := Ideal) S_ .f32 0x00000000#32)) (broadcastInDim S250000x1 ![0] bcast_S250000_S250000x1_0 a16) (mulf (Host.gather gather_S5000x128_S250000x1_S250000x128_1_0_n_n_0_1_1128 P2 (broadcastInDim S250000x1 ![0] bcast_S250000_S250000x1_0 (select (cmpi .slt a15 (broadcastInDim S250000 ![] bcast_S_S250000 (constantI S_ 32 0#32))) (addi a15 (broadcastInDim S250000 ![] bcast_S_S250000 (constantI S_ 32 5000#32))) a15))) (broadcastInDim S250000x128 ![0, 1] bcast_S250000x1_S250000x128_0_1 (broadcastInDim S250000x1 ![0] bcast_S250000_S250000x1_0 a17)))) (broadcastInDim S50000x128 ![0, 1] bcast_S50000x1_S50000x128_0_1 (broadcastInDim S50000x1 ![0] bcast_S50000_S50000x1_0 (maximumf (Host.scatterAdd scatter_S50000_S250000x1_S250000_n_0_0_1 (broadcastInDim S50000 ![] bcast_S_S50000 (constant (F := Ideal) S_ .f32 0x00000000#32)) (broadcastInDim S250000x1 ![0] bcast_S250000_S250000x1_0 a16) (broadcastInDim S250000 ![] bcast_S_S250000 (constant (F := Ideal) S_ .f32 0x3F800000#32))) (broadcastInDim S50000 ![] bcast_S_S50000 (constant (F := Ideal) S_ .f32 0x3F800000#32))))))

/-- Aggregation into the document rows along the word–document and topic–document edges, summed, clipped below at zero. -/
def aggD (P1 : FA S50000x128) (P2 : FA S5000x128) (a9 : IA S800000) (a10 : IA S800000) (a11 : FA S800000) (a15 : IA S250000) (a16 : IA S250000) (a17 : FA S250000) : FA S50000x128 :=
  maximumf (meanD P1 P2 a9 a10 a11 a15 a16 a17) (broadcastInDim S50000x128 ![] bcast_S_S50000x128 (constant (F := Ideal) S_ .f32 0x00000000#32))

end Cert.Spec

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.LibNary.lean ====
/-
  A host operation over a literal family of three or of five buffers, read at its result.

  An operation of several operands (a concatenation) is printed over a family `![a, b, …]` of references, and its result
  is its function of the family `fun k => F (xs k)` of the operands' contents.  Under that binder the reference
  `![a, b, …] k` is no literal, so nothing more can be said of the contents there.  For a literal family the same result
  is the function of the contents listed one by one, each AT ITS OWN reference, where the contents of each operand can be
  read further.  The library states this for four operands; here are three and five, in the same words.
-/
import Idealize.ShloMosaic.Lib.StableHlo.Run

namespace Cert.LibNary

open Idealize.ShloMosaic Idealize.ShloMosaic.TcCoe Idealize.SL.Sem Idealize.ShloMosaic.StableHlo

variable {τ : Topo} {sig : RefSig} {Val : EltTy → Type}
variable {x a b c d y : Ref sig .tc}

/-- The result of an operation over three literal references, each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The result of an operation over five literal references, each operand's contents at its own reference. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Cert.LibNary

/-- The contents of one buffer after a literal line of host operations, in one pass: every operation's result at its own
    result buffer is its function of its operands' contents, and at any other buffer what was there; an operation over
    three, four or five literal references is read operand by operand. -/
macro "after_results_each" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- What the one pass leaves unread — contents standing inside a pair of a concatenation's list, where a rewriting pass
    does not enter —, read by rewriting: each operation's result at its own result buffer to its function's value, at
    any other buffer to what was there, until none applies. -/
macro "after_results_rest" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))
-- ==== Proof.LibReadLine.lean ====
/-
  Reading one buffer after a straight line of host operations, when the line concatenates.

  A concatenation of two arrays is printed over a two-element list of (shape, array) pairs.  Written instead as a
  function cat2 of its two arrays, it is a term whose pieces stand as plain arguments, so that a single pass which reads
  every operation's result at its own buffer also reads the buffers the two pieces came from.
-/
import Idealize.ShloMosaic.Lib.StableHlo.Run
import proofs.«111394_j56581899157988_1_alg».proof.Proof.LibNary

namespace Cert.ReadLine

open Idealize.ShloMosaic

/-- The concatenation of two arrays along axis a, as a function of the two arrays. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

end Cert.ReadLine

/-- The contents of one buffer after a literal line of host operations, in one pass, two-piece concatenations folded
    into cat2 so that the pass goes on into their pieces. -/
macro "read_line" : tactic =>
  `(tactic| (simp (disch := decide) only [Idealize.ShloMosaic.StableHlo.after_cons, Idealize.ShloMosaic.StableHlo.after_nil,
      Cert.ReadLine.cat2_eq,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))
-- ==== Proof.Keep.lean ====
/-
  Buffers that a stretch of the program leaves alone.

  A straight line of host operations writes only its operations' results, and a kernel region writes only its output
  arrays: an input array ends the region as it entered it, and a buffer that is none of the region's arrays is not
  touched. So a launch argument, read at any later point of the program, still holds its launch contents, and a
  computed buffer holds at a later point what it held when it was last written. Each lemma below walks one buffer
  back, segment by segment, from the point where it is read to the point where its contents are known.
-/
import proofs.«111394_j56581899157988_1_alg».proof.Proof.Gen.KernelIdeal.Frame
import proofs.«111394_j56581899157988_1_alg».proof.Proof.LibHostKeeps

set_option maxRecDepth 16384

noncomputable section

namespace Cert.KernelIdeal.Keep

open Cert.KernelIdeal Cert.KernelIdeal.Gen Cert.LibHostKeeps
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem arg0_at1 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

theorem arg18_at1 (c : Dev nD) : W1 m ρ c (Proc.devRef .tc main_arg18) = m ((c : Thread nD τ).loc main_arg18) :=
  calc W1 m ρ c (Proc.devRef .tc main_arg18)
    _ = W0 m ρ c (Proc.devRef .tc main_arg18) := by host_keeps hostOps0
    _ = m ((c : Thread nD τ).loc main_arg18) := rfl

theorem arg20_at1 (c : Dev nD) : W1 m ρ c (Proc.devRef .tc main_arg20) = m ((c : Thread nD τ).loc main_arg20) :=
  calc W1 m ρ c (Proc.devRef .tc main_arg20)
    _ = W0 m ρ c (Proc.devRef .tc main_arg20) := by host_keeps hostOps0
    _ = m ((c : Thread nD τ).loc main_arg20) := rfl

theorem arg1_at3 (c : Dev nD) : W3 m ρ c (Proc.devRef .tc main_arg1) = m ((c : Thread nD τ).loc main_arg1) :=
  calc W3 m ρ c (Proc.devRef .tc main_arg1)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

theorem arg28_at3 (c : Dev nD) : W3 m ρ c (Proc.devRef .tc main_arg28) = m ((c : Thread nD τ).loc main_arg28) :=
  calc W3 m ρ c (Proc.devRef .tc main_arg28)
    _ = W2 m ρ c (Proc.devRef .tc main_arg28) := by host_keeps hostOps1
    _ = W1 m ρ c (Proc.devRef .tc main_arg28) := W2_of_ne m ρ c main_arg28 (by decide)
    _ = W0 m ρ c (Proc.devRef .tc main_arg28) := by host_keeps hostOps0
    _ = m ((c : Thread nD τ).loc main_arg28) := rfl

theorem arg29_at3 (c : Dev nD) : W3 m ρ c (Proc.devRef .tc main_arg29) = m ((c : Thread nD τ).loc main_arg29) :=
  calc W3 m ρ c (Proc.devRef .tc main_arg29)
    _ = W2 m ρ c (Proc.devRef .tc main_arg29) := by host_keeps hostOps1
    _ = W1 m ρ c (Proc.devRef .tc main_arg29) := W2_of_ne m ρ c main_arg29 (by decide)
    _ = W0 m ρ c (Proc.devRef .tc main_arg29) := by host_keeps hostOps0
    _ = m ((c : Thread nD τ).loc main_arg29) := rfl

theorem arg24_at3 (c : Dev nD) : W3 m ρ c (Proc.devRef .tc main_arg24) = m ((c : Thread nD τ).loc main_arg24) :=
  calc W3 m ρ c (Proc.devRef .tc main_arg24)
    _ = W2 m ρ c (Proc.devRef .tc main_arg24) := by host_keeps hostOps1
    _ = W1 m ρ c (Proc.devRef .tc main_arg24) := W2_of_ne m ρ c main_arg24 (by decide)
    _ = W0 m ρ c (Proc.devRef .tc main_arg24) := by host_keeps hostOps0
    _ = m ((c : Thread nD τ).loc main_arg24) := rfl

theorem arg25_at2 (c : Dev nD) : W2 m ρ c (Proc.devRef .tc main_arg25) = m ((c : Thread nD τ).loc main_arg25) :=
  calc W2 m ρ c (Proc.devRef .tc main_arg25)
    _ = W1 m ρ c (Proc.devRef .tc main_arg25) := W2_of_ne m ρ c main_arg25 (by decide)
    _ = W0 m ρ c (Proc.devRef .tc main_arg25) := by host_keeps hostOps0
    _ = m ((c : Thread nD τ).loc main_arg25) := rfl

theorem arg3_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0
    _ = m ((c : Thread nD τ).loc main_arg3) := rfl

theorem arg3_at11 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := by host_keeps hostOps3
    _ = W8 m ρ c (Proc.devRef .tc main_arg3) := W9_of_ne m ρ c main_arg3 (by decide)
    _ = W7 m ρ c (Proc.devRef .tc main_arg3) := by host_keeps hostOps2_3
    _ = W6 m ρ c (Proc.devRef .tc main_arg3) := by host_keeps hostOps2_2
    _ = W5 m ρ c (Proc.devRef .tc main_arg3) := by host_keeps hostOps2_1
    _ = W4 m ρ c (Proc.devRef .tc main_arg3) := by host_keeps hostOps2
    _ = m ((c : Thread nD τ).loc main_arg3) := arg3_at4 m ρ c

theorem arg4_at4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

theorem arg4_at11 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := by host_keeps hostOps3
    _ = W8 m ρ c (Proc.devRef .tc main_arg4) := W9_of_ne m ρ c main_arg4 (by decide)
    _ = W7 m ρ c (Proc.devRef .tc main_arg4) := by host_keeps hostOps2_3
    _ = W6 m ρ c (Proc.devRef .tc main_arg4) := by host_keeps hostOps2_2
    _ = W5 m ρ c (Proc.devRef .tc main_arg4) := by host_keeps hostOps2_1
    _ = W4 m ρ c (Proc.devRef .tc main_arg4) := by host_keeps hostOps2
    _ = m ((c : Thread nD τ).loc main_arg4) := arg4_at4 m ρ c

theorem arg5_at4 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

theorem arg5_at11 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := by host_keeps hostOps3
    _ = W8 m ρ c (Proc.devRef .tc main_arg5) := W9_of_ne m ρ c main_arg5 (by decide)
    _ = W7 m ρ c (Proc.devRef .tc main_arg5) := by host_keeps hostOps2_3
    _ = W6 m ρ c (Proc.devRef .tc main_arg5) := by host_keeps hostOps2_2
    _ = W5 m ρ c (Proc.devRef .tc main_arg5) := by host_keeps hostOps2_1
    _ = W4 m ρ c (Proc.devRef .tc main_arg5) := by host_keeps hostOps2
    _ = m ((c : Thread nD τ).loc main_arg5) := arg5_at4 m ρ c

theorem arg6_at4 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

theorem arg6_at11 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := by host_keeps hostOps3
    _ = W8 m ρ c (Proc.devRef .tc main_arg6) := W9_of_ne m ρ c main_arg6 (by decide)
    _ = W7 m ρ c (Proc.devRef .tc main_arg6) := by host_keeps hostOps2_3
    _ = W6 m ρ c (Proc.devRef .tc main_arg6) := by host_keeps hostOps2_2
    _ = W5 m ρ c (Proc.devRef .tc main_arg6) := by host_keeps hostOps2_1
    _ = W4 m ρ c (Proc.devRef .tc main_arg6) := by host_keeps hostOps2
    _ = m ((c : Thread nD τ).loc main_arg6) := arg6_at4 m ρ c

theorem arg7_at4 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

theorem arg7_at11 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := by host_keeps hostOps3
    _ = W8 m ρ c (Proc.devRef .tc main_arg7) := W9_of_ne m ρ c main_arg7 (by decide)
    _ = W7 m ρ c (Proc.devRef .tc main_arg7) := by host_keeps hostOps2_3
    _ = W6 m ρ c (Proc.devRef .tc main_arg7) := by host_keeps hostOps2_2
    _ = W5 m ρ c (Proc.devRef .tc main_arg7) := by host_keeps hostOps2_1
    _ = W4 m ρ c (Proc.devRef .tc main_arg7) := by host_keeps hostOps2
    _ = m ((c : Thread nD τ).loc main_arg7) := arg7_at4 m ρ c

theorem arg8_at4 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

theorem arg8_at11 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := by host_keeps hostOps3
    _ = W8 m ρ c (Proc.devRef .tc main_arg8) := W9_of_ne m ρ c main_arg8 (by decide)
    _ = W7 m ρ c (Proc.devRef .tc main_arg8) := by host_keeps hostOps2_3
    _ = W6 m ρ c (Proc.devRef .tc main_arg8) := by host_keeps hostOps2_2
    _ = W5 m ρ c (Proc.devRef .tc main_arg8) := by host_keeps hostOps2_1
    _ = W4 m ρ c (Proc.devRef .tc main_arg8) := by host_keeps hostOps2
    _ = m ((c : Thread nD τ).loc main_arg8) := arg8_at4 m ρ c

theorem arg12_at4 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0
    _ = m ((c : Thread nD τ).loc main_arg12) := rfl

theorem arg12_at11 (c : Dev nD) : W11 m ρ c (Proc.devRef .tc main_arg12) = m ((c : Thread nD τ).loc main_arg12) :=
  calc W11 m ρ c (Proc.devRef .tc main_arg12)
    _ = W10 m ρ c (Proc.devRef .tc main_arg12) := W11_of_ne m ρ c main_arg12 (by decide)
    _ = W9 m ρ c (Proc.devRef .tc main_arg12) := by host_keeps hostOps3
    _ = W8 m ρ c (Proc.devRef .tc main_arg12) := W9_of_ne m ρ c main_arg12 (by decide)
    _ = W7 m ρ c (Proc.devRef .tc main_arg12) := by host_keeps hostOps2_3
    _ = W6 m ρ c (Proc.devRef .tc main_arg12) := by host_keeps hostOps2_2
    _ = W5 m ρ c (Proc.devRef .tc main_arg12) := by host_keeps hostOps2_1
    _ = W4 m ρ c (Proc.devRef .tc main_arg12) := by host_keeps hostOps2
    _ = m ((c : Thread nD τ).loc main_arg12) := arg12_at4 m ρ c

theorem arg13_at4 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0
    _ = m ((c : Thread nD τ).loc main_arg13) := rfl

theorem arg13_at11 (c : Dev nD) : W11 m ρ c (Proc.devRef .tc main_arg13) = m ((c : Thread nD τ).loc main_arg13) :=
  calc W11 m ρ c (Proc.devRef .tc main_arg13)
    _ = W10 m ρ c (Proc.devRef .tc main_arg13) := W11_of_ne m ρ c main_arg13 (by decide)
    _ = W9 m ρ c (Proc.devRef .tc main_arg13) := by host_keeps hostOps3
    _ = W8 m ρ c (Proc.devRef .tc main_arg13) := W9_of_ne m ρ c main_arg13 (by decide)
    _ = W7 m ρ c (Proc.devRef .tc main_arg13) := by host_keeps hostOps2_3
    _ = W6 m ρ c (Proc.devRef .tc main_arg13) := by host_keeps hostOps2_2
    _ = W5 m ρ c (Proc.devRef .tc main_arg13) := by host_keeps hostOps2_1
    _ = W4 m ρ c (Proc.devRef .tc main_arg13) := by host_keeps hostOps2
    _ = m ((c : Thread nD τ).loc main_arg13) := arg13_at4 m ρ c

theorem arg14_at4 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by host_keeps hostOps1
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl

theorem arg14_at11 (c : Dev nD) : W11 m ρ c (Proc.devRef .tc main_arg14) = m ((c : Thread nD τ).loc main_arg14) :=
  calc W11 m ρ c (Proc.devRef .tc main_arg14)
    _ = W10 m ρ c (Proc.devRef .tc main_arg14) := W11_of_ne m ρ c main_arg14 (by decide)
    _ = W9 m ρ c (Proc.devRef .tc main_arg14) := by host_keeps hostOps3
    _ = W8 m ρ c (Proc.devRef .tc main_arg14) := W9_of_ne m ρ c main_arg14 (by decide)
    _ = W7 m ρ c (Proc.devRef .tc main_arg14) := by host_keeps hostOps2_3
    _ = W6 m ρ c (Proc.devRef .tc main_arg14) := by host_keeps hostOps2_2
    _ = W5 m ρ c (Proc.devRef .tc main_arg14) := by host_keeps hostOps2_1
    _ = W4 m ρ c (Proc.devRef .tc main_arg14) := by host_keeps hostOps2
    _ = m ((c : Thread nD τ).loc main_arg14) := arg14_at4 m ρ c

theorem arg9_at11 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := by host_keeps hostOps3
    _ = W8 m ρ c (Proc.devRef .tc main_arg9) := W9_of_ne m ρ c main_arg9 (by decide)
    _ = W7 m ρ c (Proc.devRef .tc main_arg9) := by host_keeps hostOps2_3
    _ = W6 m ρ c (Proc.devRef .tc main_arg9) := by host_keeps hostOps2_2
    _ = W5 m ρ c (Proc.devRef .tc main_arg9) := by host_keeps hostOps2_1
    _ = W4 m ρ c (Proc.devRef .tc main_arg9) := by host_keeps hostOps2
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

theorem arg10_at11 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := by host_keeps hostOps3
    _ = W8 m ρ c (Proc.devRef .tc main_arg10) := W9_of_ne m ρ c main_arg10 (by decide)
    _ = W7 m ρ c (Proc.devRef .tc main_arg10) := by host_keeps hostOps2_3
    _ = W6 m ρ c (Proc.devRef .tc main_arg10) := by host_keeps hostOps2_2
    _ = W5 m ρ c (Proc.devRef .tc main_arg10) := by host_keeps hostOps2_1
    _ = W4 m ρ c (Proc.devRef .tc main_arg10) := by host_keeps hostOps2
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

theorem arg11_at11 (c : Dev nD) : W11 m ρ c (Proc.devRef .tc main_arg11) = m ((c : Thread nD τ).loc main_arg11) :=
  calc W11 m ρ c (Proc.devRef .tc main_arg11)
    _ = W10 m ρ c (Proc.devRef .tc main_arg11) := W11_of_ne m ρ c main_arg11 (by decide)
    _ = W9 m ρ c (Proc.devRef .tc main_arg11) := by host_keeps hostOps3
    _ = W8 m ρ c (Proc.devRef .tc main_arg11) := W9_of_ne m ρ c main_arg11 (by decide)
    _ = W7 m ρ c (Proc.devRef .tc main_arg11) := by host_keeps hostOps2_3
    _ = W6 m ρ c (Proc.devRef .tc main_arg11) := by host_keeps hostOps2_2
    _ = W5 m ρ c (Proc.devRef .tc main_arg11) := by host_keeps hostOps2_1
    _ = W4 m ρ c (Proc.devRef .tc main_arg11) := by host_keeps hostOps2
    _ = W3 m ρ c (Proc.devRef .tc main_arg11) := W4_of_ne m ρ c main_arg11 (by decide)
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl

theorem arg15_at11 (c : Dev nD) : W11 m ρ c (Proc.devRef .tc main_arg15) = m ((c : Thread nD τ).loc main_arg15) :=
  calc W11 m ρ c (Proc.devRef .tc main_arg15)
    _ = W10 m ρ c (Proc.devRef .tc main_arg15) := W11_of_ne m ρ c main_arg15 (by decide)
    _ = W9 m ρ c (Proc.devRef .tc main_arg15) := by host_keeps hostOps3
    _ = W8 m ρ c (Proc.devRef .tc main_arg15) := W9_of_ne m ρ c main_arg15 (by decide)
    _ = W7 m ρ c (Proc.devRef .tc main_arg15) := by host_keeps hostOps2_3
    _ = W6 m ρ c (Proc.devRef .tc main_arg15) := by host_keeps hostOps2_2
    _ = W5 m ρ c (Proc.devRef .tc main_arg15) := by host_keeps hostOps2_1
    _ = W4 m ρ c (Proc.devRef .tc main_arg15) := by host_keeps hostOps2
    _ = W3 m ρ c (Proc.devRef .tc main_arg15) := W4_of_ne m ρ c main_arg15 (by decide)
    _ = W2 m ρ c (Proc.devRef .tc main_arg15) := by host_keeps hostOps1
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl

theorem arg16_at11 (c : Dev nD) : W11 m ρ c (Proc.devRef .tc main_arg16) = m ((c : Thread nD τ).loc main_arg16) :=
  calc W11 m ρ c (Proc.devRef .tc main_arg16)
    _ = W10 m ρ c (Proc.devRef .tc main_arg16) := W11_of_ne m ρ c main_arg16 (by decide)
    _ = W9 m ρ c (Proc.devRef .tc main_arg16) := by host_keeps hostOps3
    _ = W8 m ρ c (Proc.devRef .tc main_arg16) := W9_of_ne m ρ c main_arg16 (by decide)
    _ = W7 m ρ c (Proc.devRef .tc main_arg16) := by host_keeps hostOps2_3
    _ = W6 m ρ c (Proc.devRef .tc main_arg16) := by host_keeps hostOps2_2
    _ = W5 m ρ c (Proc.devRef .tc main_arg16) := by host_keeps hostOps2_1
    _ = W4 m ρ c (Proc.devRef .tc main_arg16) := by host_keeps hostOps2
    _ = W3 m ρ c (Proc.devRef .tc main_arg16) := W4_of_ne m ρ c main_arg16 (by decide)
    _ = W2 m ρ c (Proc.devRef .tc main_arg16) := by host_keeps hostOps1
    _ = W1 m ρ c (Proc.devRef .tc main_arg16) := W2_of_ne m ρ c main_arg16 (by decide)
    _ = W0 m ρ c (Proc.devRef .tc main_arg16) := by host_keeps hostOps0
    _ = m ((c : Thread nD τ).loc main_arg16) := rfl

theorem arg17_at11 (c : Dev nD) : W11 m ρ c (Proc.devRef .tc main_arg17) = m ((c : Thread nD τ).loc main_arg17) :=
  calc W11 m ρ c (Proc.devRef .tc main_arg17)
    _ = W10 m ρ c (Proc.devRef .tc main_arg17) := W11_of_ne m ρ c main_arg17 (by decide)
    _ = W9 m ρ c (Proc.devRef .tc main_arg17) := by host_keeps hostOps3
    _ = W8 m ρ c (Proc.devRef .tc main_arg17) := W9_of_ne m ρ c main_arg17 (by decide)
    _ = W7 m ρ c (Proc.devRef .tc main_arg17) := by host_keeps hostOps2_3
    _ = W6 m ρ c (Proc.devRef .tc main_arg17) := by host_keeps hostOps2_2
    _ = W5 m ρ c (Proc.devRef .tc main_arg17) := by host_keeps hostOps2_1
    _ = W4 m ρ c (Proc.devRef .tc main_arg17) := by host_keeps hostOps2
    _ = W3 m ρ c (Proc.devRef .tc main_arg17) := W4_of_ne m ρ c main_arg17 (by decide)
    _ = W2 m ρ c (Proc.devRef .tc main_arg17) := by host_keeps hostOps1
    _ = W1 m ρ c (Proc.devRef .tc main_arg17) := W2_of_ne m ρ c main_arg17 (by decide)
    _ = W0 m ρ c (Proc.devRef .tc main_arg17) := by host_keeps hostOps0
    _ = m ((c : Thread nD τ).loc main_arg17) := rfl

theorem arg30_at8 (c : Dev nD) : W8 m ρ c (Proc.devRef .tc main_arg30) = m ((c : Thread nD τ).loc main_arg30) :=
  calc W8 m ρ c (Proc.devRef .tc main_arg30)
    _ = W7 m ρ c (Proc.devRef .tc main_arg30) := by host_keeps hostOps2_3
    _ = W6 m ρ c (Proc.devRef .tc main_arg30) := by host_keeps hostOps2_2
    _ = W5 m ρ c (Proc.devRef .tc main_arg30) := by host_keeps hostOps2_1
    _ = W4 m ρ c (Proc.devRef .tc main_arg30) := by host_keeps hostOps2
    _ = W3 m ρ c (Proc.devRef .tc main_arg30) := W4_of_ne m ρ c main_arg30 (by decide)
    _ = W2 m ρ c (Proc.devRef .tc main_arg30) := by host_keeps hostOps1
    _ = W1 m ρ c (Proc.devRef .tc main_arg30) := W2_of_ne m ρ c main_arg30 (by decide)
    _ = W0 m ρ c (Proc.devRef .tc main_arg30) := by host_keeps hostOps0
    _ = m ((c : Thread nD τ).loc main_arg30) := rfl

theorem arg32_at8 (c : Dev nD) : W8 m ρ c (Proc.devRef .tc main_arg32) = m ((c : Thread nD τ).loc main_arg32) :=
  calc W8 m ρ c (Proc.devRef .tc main_arg32)
    _ = W7 m ρ c (Proc.devRef .tc main_arg32) := by host_keeps hostOps2_3
    _ = W6 m ρ c (Proc.devRef .tc main_arg32) := by host_keeps hostOps2_2
    _ = W5 m ρ c (Proc.devRef .tc main_arg32) := by host_keeps hostOps2_1
    _ = W4 m ρ c (Proc.devRef .tc main_arg32) := by host_keeps hostOps2
    _ = W3 m ρ c (Proc.devRef .tc main_arg32) := W4_of_ne m ρ c main_arg32 (by decide)
    _ = W2 m ρ c (Proc.devRef .tc main_arg32) := by host_keeps hostOps1
    _ = W1 m ρ c (Proc.devRef .tc main_arg32) := W2_of_ne m ρ c main_arg32 (by decide)
    _ = W0 m ρ c (Proc.devRef .tc main_arg32) := by host_keeps hostOps0
    _ = m ((c : Thread nD τ).loc main_arg32) := rfl

theorem arg34_at8 (c : Dev nD) : W8 m ρ c (Proc.devRef .tc main_arg34) = m ((c : Thread nD τ).loc main_arg34) :=
  calc W8 m ρ c (Proc.devRef .tc main_arg34)
    _ = W7 m ρ c (Proc.devRef .tc main_arg34) := by host_keeps hostOps2_3
    _ = W6 m ρ c (Proc.devRef .tc main_arg34) := by host_keeps hostOps2_2
    _ = W5 m ρ c (Proc.devRef .tc main_arg34) := by host_keeps hostOps2_1
    _ = W4 m ρ c (Proc.devRef .tc main_arg34) := by host_keeps hostOps2
    _ = W3 m ρ c (Proc.devRef .tc main_arg34) := W4_of_ne m ρ c main_arg34 (by decide)
    _ = W2 m ρ c (Proc.devRef .tc main_arg34) := by host_keeps hostOps1
    _ = W1 m ρ c (Proc.devRef .tc main_arg34) := W2_of_ne m ρ c main_arg34 (by decide)
    _ = W0 m ρ c (Proc.devRef .tc main_arg34) := by host_keeps hostOps0
    _ = m ((c : Thread nD τ).loc main_arg34) := rfl

theorem arg31_at7 (c : Dev nD) : W7 m ρ c (Proc.devRef .tc main_arg31) = m ((c : Thread nD τ).loc main_arg31) :=
  calc W7 m ρ c (Proc.devRef .tc main_arg31)
    _ = W6 m ρ c (Proc.devRef .tc main_arg31) := by host_keeps hostOps2_2
    _ = W5 m ρ c (Proc.devRef .tc main_arg31) := by host_keeps hostOps2_1
    _ = W4 m ρ c (Proc.devRef .tc main_arg31) := by host_keeps hostOps2
    _ = W3 m ρ c (Proc.devRef .tc main_arg31) := W4_of_ne m ρ c main_arg31 (by decide)
    _ = W2 m ρ c (Proc.devRef .tc main_arg31) := by host_keeps hostOps1
    _ = W1 m ρ c (Proc.devRef .tc main_arg31) := W2_of_ne m ρ c main_arg31 (by decide)
    _ = W0 m ρ c (Proc.devRef .tc main_arg31) := by host_keeps hostOps0
    _ = m ((c : Thread nD τ).loc main_arg31) := rfl

theorem arg33_at7 (c : Dev nD) : W7 m ρ c (Proc.devRef .tc main_arg33) = m ((c : Thread nD τ).loc main_arg33) :=
  calc W7 m ρ c (Proc.devRef .tc main_arg33)
    _ = W6 m ρ c (Proc.devRef .tc main_arg33) := by host_keeps hostOps2_2
    _ = W5 m ρ c (Proc.devRef .tc main_arg33) := by host_keeps hostOps2_1
    _ = W4 m ρ c (Proc.devRef .tc main_arg33) := by host_keeps hostOps2
    _ = W3 m ρ c (Proc.devRef .tc main_arg33) := W4_of_ne m ρ c main_arg33 (by decide)
    _ = W2 m ρ c (Proc.devRef .tc main_arg33) := by host_keeps hostOps1
    _ = W1 m ρ c (Proc.devRef .tc main_arg33) := W2_of_ne m ρ c main_arg33 (by decide)
    _ = W0 m ρ c (Proc.devRef .tc main_arg33) := by host_keeps hostOps0
    _ = m ((c : Thread nD τ).loc main_arg33) := rfl

theorem arg35_at7 (c : Dev nD) : W7 m ρ c (Proc.devRef .tc main_arg35) = m ((c : Thread nD τ).loc main_arg35) :=
  calc W7 m ρ c (Proc.devRef .tc main_arg35)
    _ = W6 m ρ c (Proc.devRef .tc main_arg35) := by host_keeps hostOps2_2
    _ = W5 m ρ c (Proc.devRef .tc main_arg35) := by host_keeps hostOps2_1
    _ = W4 m ρ c (Proc.devRef .tc main_arg35) := by host_keeps hostOps2
    _ = W3 m ρ c (Proc.devRef .tc main_arg35) := W4_of_ne m ρ c main_arg35 (by decide)
    _ = W2 m ρ c (Proc.devRef .tc main_arg35) := by host_keeps hostOps1
    _ = W1 m ρ c (Proc.devRef .tc main_arg35) := W2_of_ne m ρ c main_arg35 (by decide)
    _ = W0 m ρ c (Proc.devRef .tc main_arg35) := by host_keeps hostOps0
    _ = m ((c : Thread nD τ).loc main_arg35) := rfl

theorem arg36_at10 (c : Dev nD) : W10 m ρ c (Proc.devRef .tc main_arg36) = m ((c : Thread nD τ).loc main_arg36) :=
  calc W10 m ρ c (Proc.devRef .tc main_arg36)
    _ = W9 m ρ c (Proc.devRef .tc main_arg36) := by host_keeps hostOps3
    _ = W8 m ρ c (Proc.devRef .tc main_arg36) := W9_of_ne m ρ c main_arg36 (by decide)
    _ = W7 m ρ c (Proc.devRef .tc main_arg36) := by host_keeps hostOps2_3
    _ = W6 m ρ c (Proc.devRef .tc main_arg36) := by host_keeps hostOps2_2
    _ = W5 m ρ c (Proc.devRef .tc main_arg36) := by host_keeps hostOps2_1
    _ = W4 m ρ c (Proc.devRef .tc main_arg36) := by host_keeps hostOps2
    _ = W3 m ρ c (Proc.devRef .tc main_arg36) := W4_of_ne m ρ c main_arg36 (by decide)
    _ = W2 m ρ c (Proc.devRef .tc main_arg36) := by host_keeps hostOps1
    _ = W1 m ρ c (Proc.devRef .tc main_arg36) := W2_of_ne m ρ c main_arg36 (by decide)
    _ = W0 m ρ c (Proc.devRef .tc main_arg36) := by host_keeps hostOps0
    _ = m ((c : Thread nD τ).loc main_arg36) := rfl

theorem arg38_at10 (c : Dev nD) : W10 m ρ c (Proc.devRef .tc main_arg38) = m ((c : Thread nD τ).loc main_arg38) :=
  calc W10 m ρ c (Proc.devRef .tc main_arg38)
    _ = W9 m ρ c (Proc.devRef .tc main_arg38) := by host_keeps hostOps3
    _ = W8 m ρ c (Proc.devRef .tc main_arg38) := W9_of_ne m ρ c main_arg38 (by decide)
    _ = W7 m ρ c (Proc.devRef .tc main_arg38) := by host_keeps hostOps2_3
    _ = W6 m ρ c (Proc.devRef .tc main_arg38) := by host_keeps hostOps2_2
    _ = W5 m ρ c (Proc.devRef .tc main_arg38) := by host_keeps hostOps2_1
    _ = W4 m ρ c (Proc.devRef .tc main_arg38) := by host_keeps hostOps2
    _ = W3 m ρ c (Proc.devRef .tc main_arg38) := W4_of_ne m ρ c main_arg38 (by decide)
    _ = W2 m ρ c (Proc.devRef .tc main_arg38) := by host_keeps hostOps1
    _ = W1 m ρ c (Proc.devRef .tc main_arg38) := W2_of_ne m ρ c main_arg38 (by decide)
    _ = W0 m ρ c (Proc.devRef .tc main_arg38) := by host_keeps hostOps0
    _ = m ((c : Thread nD τ).loc main_arg38) := rfl

theorem arg40_at10 (c : Dev nD) : W10 m ρ c (Proc.devRef .tc main_arg40) = m ((c : Thread nD τ).loc main_arg40) :=
  calc W10 m ρ c (Proc.devRef .tc main_arg40)
    _ = W9 m ρ c (Proc.devRef .tc main_arg40) := by host_keeps hostOps3
    _ = W8 m ρ c (Proc.devRef .tc main_arg40) := W9_of_ne m ρ c main_arg40 (by decide)
    _ = W7 m ρ c (Proc.devRef .tc main_arg40) := by host_keeps hostOps2_3
    _ = W6 m ρ c (Proc.devRef .tc main_arg40) := by host_keeps hostOps2_2
    _ = W5 m ρ c (Proc.devRef .tc main_arg40) := by host_keeps hostOps2_1
    _ = W4 m ρ c (Proc.devRef .tc main_arg40) := by host_keeps hostOps2
    _ = W3 m ρ c (Proc.devRef .tc main_arg40) := W4_of_ne m ρ c main_arg40 (by decide)
    _ = W2 m ρ c (Proc.devRef .tc main_arg40) := by host_keeps hostOps1
    _ = W1 m ρ c (Proc.devRef .tc main_arg40) := W2_of_ne m ρ c main_arg40 (by decide)
    _ = W0 m ρ c (Proc.devRef .tc main_arg40) := by host_keeps hostOps0
    _ = m ((c : Thread nD τ).loc main_arg40) := rfl

theorem arg41_at10 (c : Dev nD) : W10 m ρ c (Proc.devRef .tc main_arg41) = m ((c : Thread nD τ).loc main_arg41) :=
  calc W10 m ρ c (Proc.devRef .tc main_arg41)
    _ = W9 m ρ c (Proc.devRef .tc main_arg41) := by host_keeps hostOps3
    _ = W8 m ρ c (Proc.devRef .tc main_arg41) := W9_of_ne m ρ c main_arg41 (by decide)
    _ = W7 m ρ c (Proc.devRef .tc main_arg41) := by host_keeps hostOps2_3
    _ = W6 m ρ c (Proc.devRef .tc main_arg41) := by host_keeps hostOps2_2
    _ = W5 m ρ c (Proc.devRef .tc main_arg41) := by host_keeps hostOps2_1
    _ = W4 m ρ c (Proc.devRef .tc main_arg41) := by host_keeps hostOps2
    _ = W3 m ρ c (Proc.devRef .tc main_arg41) := W4_of_ne m ρ c main_arg41 (by decide)
    _ = W2 m ρ c (Proc.devRef .tc main_arg41) := by host_keeps hostOps1
    _ = W1 m ρ c (Proc.devRef .tc main_arg41) := W2_of_ne m ρ c main_arg41 (by decide)
    _ = W0 m ρ c (Proc.devRef .tc main_arg41) := by host_keeps hostOps0
    _ = m ((c : Thread nD τ).loc main_arg41) := rfl

theorem arg37_at9 (c : Dev nD) : W9 m ρ c (Proc.devRef .tc main_arg37) = m ((c : Thread nD τ).loc main_arg37) :=
  calc W9 m ρ c (Proc.devRef .tc main_arg37)
    _ = W8 m ρ c (Proc.devRef .tc main_arg37) := W9_of_ne m ρ c main_arg37 (by decide)
    _ = W7 m ρ c (Proc.devRef .tc main_arg37) := by host_keeps hostOps2_3
    _ = W6 m ρ c (Proc.devRef .tc main_arg37) := by host_keeps hostOps2_2
    _ = W5 m ρ c (Proc.devRef .tc main_arg37) := by host_keeps hostOps2_1
    _ = W4 m ρ c (Proc.devRef .tc main_arg37) := by host_keeps hostOps2
    _ = W3 m ρ c (Proc.devRef .tc main_arg37) := W4_of_ne m ρ c main_arg37 (by decide)
    _ = W2 m ρ c (Proc.devRef .tc main_arg37) := by host_keeps hostOps1
    _ = W1 m ρ c (Proc.devRef .tc main_arg37) := W2_of_ne m ρ c main_arg37 (by decide)
    _ = W0 m ρ c (Proc.devRef .tc main_arg37) := by host_keeps hostOps0
    _ = m ((c : Thread nD τ).loc main_arg37) := rfl

theorem arg39_at9 (c : Dev nD) : W9 m ρ c (Proc.devRef .tc main_arg39) = m ((c : Thread nD τ).loc main_arg39) :=
  calc W9 m ρ c (Proc.devRef .tc main_arg39)
    _ = W8 m ρ c (Proc.devRef .tc main_arg39) := W9_of_ne m ρ c main_arg39 (by decide)
    _ = W7 m ρ c (Proc.devRef .tc main_arg39) := by host_keeps hostOps2_3
    _ = W6 m ρ c (Proc.devRef .tc main_arg39) := by host_keeps hostOps2_2
    _ = W5 m ρ c (Proc.devRef .tc main_arg39) := by host_keeps hostOps2_1
    _ = W4 m ρ c (Proc.devRef .tc main_arg39) := by host_keeps hostOps2
    _ = W3 m ρ c (Proc.devRef .tc main_arg39) := W4_of_ne m ρ c main_arg39 (by decide)
    _ = W2 m ρ c (Proc.devRef .tc main_arg39) := by host_keeps hostOps1
    _ = W1 m ρ c (Proc.devRef .tc main_arg39) := W2_of_ne m ρ c main_arg39 (by decide)
    _ = W0 m ρ c (Proc.devRef .tc main_arg39) := by host_keeps hostOps0
    _ = m ((c : Thread nD τ).loc main_arg39) := rfl

theorem v3_at3_from1 (c : Dev nD) : W3 m ρ c (Proc.devRef .tc main_v3) = W1 m ρ c (Proc.devRef .tc main_v3) :=
  calc W3 m ρ c (Proc.devRef .tc main_v3)
    _ = W2 m ρ c (Proc.devRef .tc main_v3) := by host_keeps hostOps1
    _ = W1 m ρ c (Proc.devRef .tc main_v3) := W2_of_ne m ρ c main_v3 (by decide)

theorem v7_at3_from1 (c : Dev nD) : W3 m ρ c (Proc.devRef .tc main_v7) = W1 m ρ c (Proc.devRef .tc main_v7) :=
  calc W3 m ρ c (Proc.devRef .tc main_v7)
    _ = W2 m ρ c (Proc.devRef .tc main_v7) := by host_keeps hostOps1
    _ = W1 m ρ c (Proc.devRef .tc main_v7) := W2_of_ne m ρ c main_v7 (by decide)

theorem v3_at10_from1 (c : Dev nD) : W10 m ρ c (Proc.devRef .tc main_v3) = W1 m ρ c (Proc.devRef .tc main_v3) :=
  calc W10 m ρ c (Proc.devRef .tc main_v3)
    _ = W9 m ρ c (Proc.devRef .tc main_v3) := by host_keeps hostOps3
    _ = W8 m ρ c (Proc.devRef .tc main_v3) := W9_of_ne m ρ c main_v3 (by decide)
    _ = W7 m ρ c (Proc.devRef .tc main_v3) := by host_keeps hostOps2_3
    _ = W6 m ρ c (Proc.devRef .tc main_v3) := by host_keeps hostOps2_2
    _ = W5 m ρ c (Proc.devRef .tc main_v3) := by host_keeps hostOps2_1
    _ = W4 m ρ c (Proc.devRef .tc main_v3) := by host_keeps hostOps2
    _ = W3 m ρ c (Proc.devRef .tc main_v3) := (W4_arr m ρ c 1).trans (((dat1 (V3 m ρ) c).arrAt_in 1 rfl _).trans (A_eq1 (V3 m ρ) c 1))
    _ = W1 m ρ c (Proc.devRef .tc main_v3) := v3_at3_from1 m ρ c

theorem v7_at10_from1 (c : Dev nD) : W10 m ρ c (Proc.devRef .tc main_v7) = W1 m ρ c (Proc.devRef .tc main_v7) :=
  calc W10 m ρ c (Proc.devRef .tc main_v7)
    _ = W9 m ρ c (Proc.devRef .tc main_v7) := by host_keeps hostOps3
    _ = W8 m ρ c (Proc.devRef .tc main_v7) := W9_of_ne m ρ c main_v7 (by decide)
    _ = W7 m ρ c (Proc.devRef .tc main_v7) := by host_keeps hostOps2_3
    _ = W6 m ρ c (Proc.devRef .tc main_v7) := by host_keeps hostOps2_2
    _ = W5 m ρ c (Proc.devRef .tc main_v7) := by host_keeps hostOps2_1
    _ = W4 m ρ c (Proc.devRef .tc main_v7) := by host_keeps hostOps2
    _ = W3 m ρ c (Proc.devRef .tc main_v7) := (W4_arr m ρ c 2).trans (((dat1 (V3 m ρ) c).arrAt_in 2 rfl _).trans (A_eq1 (V3 m ρ) c 2))
    _ = W1 m ρ c (Proc.devRef .tc main_v7) := v7_at3_from1 m ρ c

theorem v10_0_at4_from2 (c : Dev nD) : W4 m ρ c (Proc.devRef .tc main_v10_0) = W2 m ρ c (Proc.devRef .tc main_v10_0) :=
  calc W4 m ρ c (Proc.devRef .tc main_v10_0)
    _ = W3 m ρ c (Proc.devRef .tc main_v10_0) := W4_of_ne m ρ c main_v10_0 (by decide)
    _ = W2 m ρ c (Proc.devRef .tc main_v10_0) := by host_keeps hostOps1

theorem v10_1_at4_from2 (c : Dev nD) : W4 m ρ c (Proc.devRef .tc main_v10_1) = W2 m ρ c (Proc.devRef .tc main_v10_1) :=
  calc W4 m ρ c (Proc.devRef .tc main_v10_1)
    _ = W3 m ρ c (Proc.devRef .tc main_v10_1) := W4_of_ne m ρ c main_v10_1 (by decide)
    _ = W2 m ρ c (Proc.devRef .tc main_v10_1) := by host_keeps hostOps1

theorem v85_0_at11_from9 (c : Dev nD) : W11 m ρ c (Proc.devRef .tc main_v85_0) = W9 m ρ c (Proc.devRef .tc main_v85_0) :=
  calc W11 m ρ c (Proc.devRef .tc main_v85_0)
    _ = W10 m ρ c (Proc.devRef .tc main_v85_0) := W11_of_ne m ρ c main_v85_0 (by decide)
    _ = W9 m ρ c (Proc.devRef .tc main_v85_0) := by host_keeps hostOps3

theorem v85_1_at11_from9 (c : Dev nD) : W11 m ρ c (Proc.devRef .tc main_v85_1) = W9 m ρ c (Proc.devRef .tc main_v85_1) :=
  calc W11 m ρ c (Proc.devRef .tc main_v85_1)
    _ = W10 m ρ c (Proc.devRef .tc main_v85_1) := W11_of_ne m ρ c main_v85_1 (by decide)
    _ = W9 m ρ c (Proc.devRef .tc main_v85_1) := by host_keeps hostOps3

theorem v85_2_at11_from9 (c : Dev nD) : W11 m ρ c (Proc.devRef .tc main_v85_2) = W9 m ρ c (Proc.devRef .tc main_v85_2) :=
  calc W11 m ρ c (Proc.devRef .tc main_v85_2)
    _ = W10 m ρ c (Proc.devRef .tc main_v85_2) := W11_of_ne m ρ c main_v85_2 (by decide)
    _ = W9 m ρ c (Proc.devRef .tc main_v85_2) := by host_keeps hostOps3

theorem v81_at10_from8 (c : Dev nD) : W10 m ρ c (Proc.devRef .tc main_v81) = W8 m ρ c (Proc.devRef .tc main_v81) :=
  calc W10 m ρ c (Proc.devRef .tc main_v81)
    _ = W9 m ρ c (Proc.devRef .tc main_v81) := by host_keeps hostOps3
    _ = W8 m ρ c (Proc.devRef .tc main_v81) := W9_of_ne m ρ c main_v81 (by decide)

theorem v80_at8_from6 (c : Dev nD) : W8 m ρ c (Proc.devRef .tc main_v80) = W6 m ρ c (Proc.devRef .tc main_v80) :=
  calc W8 m ρ c (Proc.devRef .tc main_v80)
    _ = W7 m ρ c (Proc.devRef .tc main_v80) := by host_keeps hostOps2_3
    _ = W6 m ρ c (Proc.devRef .tc main_v80) := by host_keeps hostOps2_2

theorem v81_at8_from7 (c : Dev nD) : W8 m ρ c (Proc.devRef .tc main_v81) = W7 m ρ c (Proc.devRef .tc main_v81) :=
  calc W8 m ρ c (Proc.devRef .tc main_v81)
    _ = W7 m ρ c (Proc.devRef .tc main_v81) := by host_keeps hostOps2_3

theorem v79_at6_from5 (c : Dev nD) : W6 m ρ c (Proc.devRef .tc main_v79) = W5 m ρ c (Proc.devRef .tc main_v79) :=
  calc W6 m ρ c (Proc.devRef .tc main_v79)
    _ = W5 m ρ c (Proc.devRef .tc main_v79) := by host_keeps hostOps2_1

theorem v201_at15_from13 (c : Dev nD) : W15 m ρ c (Proc.devRef .tc main_v201) = W13 m ρ c (Proc.devRef .tc main_v201) :=
  calc W15 m ρ c (Proc.devRef .tc main_v201)
    _ = W14 m ρ c (Proc.devRef .tc main_v201) := by host_keeps hostOps4_3
    _ = W13 m ρ c (Proc.devRef .tc main_v201) := by host_keeps hostOps4_2

theorem v202_at15_from14 (c : Dev nD) : W15 m ρ c (Proc.devRef .tc main_v202) = W14 m ρ c (Proc.devRef .tc main_v202) :=
  calc W15 m ρ c (Proc.devRef .tc main_v202)
    _ = W14 m ρ c (Proc.devRef .tc main_v202) := by host_keeps hostOps4_3

theorem v155_at13_from12 (c : Dev nD) : W13 m ρ c (Proc.devRef .tc main_v155) = W12 m ρ c (Proc.devRef .tc main_v155) :=
  calc W13 m ρ c (Proc.devRef .tc main_v155)
    _ = W12 m ρ c (Proc.devRef .tc main_v155) := by host_keeps hostOps4_1

theorem v200_at14_from12 (c : Dev nD) : W14 m ρ c (Proc.devRef .tc main_v200) = W12 m ρ c (Proc.devRef .tc main_v200) :=
  calc W14 m ρ c (Proc.devRef .tc main_v200)
    _ = W13 m ρ c (Proc.devRef .tc main_v200) := by host_keeps hostOps4_2
    _ = W12 m ρ c (Proc.devRef .tc main_v200) := by host_keeps hostOps4_1

theorem arg31_at4 (c : Dev nD) : W4 m ρ c (Proc.devRef .tc main_arg31) = m ((c : Thread nD τ).loc main_arg31) :=
  calc W4 m ρ c (Proc.devRef .tc main_arg31)
    _ = W3 m ρ c (Proc.devRef .tc main_arg31) := W4_of_ne m ρ c main_arg31 (by decide)
    _ = W2 m ρ c (Proc.devRef .tc main_arg31) := by host_keeps hostOps1
    _ = W1 m ρ c (Proc.devRef .tc main_arg31) := W2_of_ne m ρ c main_arg31 (by decide)
    _ = W0 m ρ c (Proc.devRef .tc main_arg31) := by host_keeps hostOps0
    _ = m ((c : Thread nD τ).loc main_arg31) := rfl

theorem arg33_at4 (c : Dev nD) : W4 m ρ c (Proc.devRef .tc main_arg33) = m ((c : Thread nD τ).loc main_arg33) :=
  calc W4 m ρ c (Proc.devRef .tc main_arg33)
    _ = W3 m ρ c (Proc.devRef .tc main_arg33) := W4_of_ne m ρ c main_arg33 (by decide)
    _ = W2 m ρ c (Proc.devRef .tc main_arg33) := by host_keeps hostOps1
    _ = W1 m ρ c (Proc.devRef .tc main_arg33) := W2_of_ne m ρ c main_arg33 (by decide)
    _ = W0 m ρ c (Proc.devRef .tc main_arg33) := by host_keeps hostOps0
    _ = m ((c : Thread nD τ).loc main_arg33) := rfl

theorem arg35_at4 (c : Dev nD) : W4 m ρ c (Proc.devRef .tc main_arg35) = m ((c : Thread nD τ).loc main_arg35) :=
  calc W4 m ρ c (Proc.devRef .tc main_arg35)
    _ = W3 m ρ c (Proc.devRef .tc main_arg35) := W4_of_ne m ρ c main_arg35 (by decide)
    _ = W2 m ρ c (Proc.devRef .tc main_arg35) := by host_keeps hostOps1
    _ = W1 m ρ c (Proc.devRef .tc main_arg35) := W2_of_ne m ρ c main_arg35 (by decide)
    _ = W0 m ρ c (Proc.devRef .tc main_arg35) := by host_keeps hostOps0
    _ = m ((c : Thread nD τ).loc main_arg35) := rfl

end Cert.KernelIdeal.Keep

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«111394_j56581899157988_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.Proj.lean ====
/-
  The two projections of this program, as functions of whole arrays, and both spellings of each read at an entry.

  A dense projection takes the matrix X (n rows of k numbers), the weights W (k × d) and a bias row b to the matrix
  whose entry (p, c) is  (∑ q, X (p, q) · W (q, c)) + b c : row p of the result depends on row p of X alone.
  The masked projection of the topic rows adds, to the dense projection, a second term: with two columns of row
  weights pos and neg (one number per row) and two more weight matrices C and N,
      (∑ q, (X (p, q) · pos p) · C (q, c)) − (∑ q, (X (p, q) · neg p) · N (q, c)).
  Over the extended reals a matrix-unit product into the zero accumulator and a host dot_general are both the plain
  sum of products, a change of float format is the identity, and a repeated row or column reads the same number along
  the repeated axis. So a tile of rows computed from its own rows, and the whole matrix computed at once, have the
  same entries: both are the functions `dense` and `masked` below, read where each sum is written, with no law of
  arithmetic used beyond that.
-/
import Idealize.ShloMosaic.Lib.ValueIdx
import Idealize.ShloMosaic.Lib.Pipeline.Value
import Idealize.ShloMosaic.Lib.ValueLayout
import Idealize.ShloMosaic.PureOps.Ideal.Laws
import proofs.«111394_j56581899157988_1_alg».proof.Proof.LibPlainDot

noncomputable section

open scoped BigOperators

namespace Cert.Proj

open Idealize.ShloMosaic Idealize.ShloMosaic.ValueIdx

variable {n k d : ℕ}

/-- The dense projection of whole arrays; the bias is a one-row array. -/
def dense (X : (⟨2, ![n, k]⟩ : Shape).Idx → EReal) (W : (⟨2, ![k, d]⟩ : Shape).Idx → EReal)
    (b : (⟨2, ![1, d]⟩ : Shape).Idx → EReal) : (⟨2, ![n, d]⟩ : Shape).Idx → EReal :=
  fun i => (∑ q : Fin k, X (ix2 (i 0) q) * W (ix2 q (i 1))) + b (ix2 (0 : Fin 1) (i 1))

/-- The masked second term of the topic projection; pos and neg are one-column arrays. -/
def extra (X : (⟨2, ![n, k]⟩ : Shape).Idx → EReal) (pos neg : (⟨2, ![n, 1]⟩ : Shape).Idx → EReal)
    (C N : (⟨2, ![k, d]⟩ : Shape).Idx → EReal) : (⟨2, ![n, d]⟩ : Shape).Idx → EReal :=
  fun i => (∑ q : Fin k, (X (ix2 (i 0) q) * pos (ix2 (i 0) (0 : Fin 1))) * C (ix2 q (i 1)))
    - (∑ q : Fin k, (X (ix2 (i 0) q) * neg (ix2 (i 0) (0 : Fin 1))) * N (ix2 q (i 1)))

/-- The masked projection: the dense one plus the masked term. -/
def masked (X : (⟨2, ![n, k]⟩ : Shape).Idx → EReal) (pos neg : (⟨2, ![n, 1]⟩ : Shape).Idx → EReal)
    (C N W : (⟨2, ![k, d]⟩ : Shape).Idx → EReal) (b : (⟨2, ![1, d]⟩ : Shape).Idx → EReal) :
    (⟨2, ![n, d]⟩ : Shape).Idx → EReal :=
  fun i => dense X W b i + extra X pos neg C N i

/-! ## A tile's rows are the whole matrix's rows -/

variable {n' : ℕ}

/-- The dense projection of a tile at (p, q) is the dense projection of the whole arrays at the index i, when row p of
    the tile is row i 0 of the whole matrix, the tile's weights and bias row are the whole ones, and q is column i 1. -/
theorem dense_congr (Xt : (⟨2, ![n, k]⟩ : Shape).Idx → EReal) (Wt : (⟨2, ![k, d]⟩ : Shape).Idx → EReal)
    (bt : (⟨2, ![1, d]⟩ : Shape).Idx → EReal) (X : (⟨2, ![n', k]⟩ : Shape).Idx → EReal) (W : (⟨2, ![k, d]⟩ : Shape).Idx → EReal)
    (b : (⟨2, ![1, d]⟩ : Shape).Idx → EReal) (p : Fin n) (q : Fin d) (i : (⟨2, ![n', d]⟩ : Shape).Idx)
    (hX : ∀ j : Fin k, Xt (ix2 p j) = X (ix2 (i 0) j)) (hW : ∀ j : Fin k, Wt (ix2 j q) = W (ix2 j (i 1)))
    (hb : bt (ix2 (0 : Fin 1) q) = b (ix2 (0 : Fin 1) (i 1))) :
    dense Xt Wt bt (ix2 p q) = dense X W b i := by
  show (∑ j : Fin k, Xt (ix2 p j) * Wt (ix2 j q)) + bt (ix2 (0 : Fin 1) q)
    = (∑ j : Fin k, X (ix2 (i 0) j) * W (ix2 j (i 1))) + b (ix2 (0 : Fin 1) (i 1))
  rw [hb]
  exact congrArg (· + _) (Finset.sum_congr rfl fun j _ => by rw [hX j, hW j])

/-- The same for the masked term, with the two columns of row weights read at row p of the tile and row i 0 of the whole. -/
theorem extra_congr (Xt : (⟨2, ![n, k]⟩ : Shape).Idx → EReal) (post negt : (⟨2, ![n, 1]⟩ : Shape).Idx → EReal)
    (Ct Nt : (⟨2, ![k, d]⟩ : Shape).Idx → EReal) (X : (⟨2, ![n', k]⟩ : Shape).Idx → EReal)
    (pos neg : (⟨2, ![n', 1]⟩ : Shape).Idx → EReal) (C N : (⟨2, ![k, d]⟩ : Shape).Idx → EReal)
    (p : Fin n) (q : Fin d) (i : (⟨2, ![n', d]⟩ : Shape).Idx)
    (hX : ∀ j : Fin k, Xt (ix2 p j) = X (ix2 (i 0) j))
    (hpos : post (ix2 p (0 : Fin 1)) = pos (ix2 (i 0) (0 : Fin 1))) (hneg : negt (ix2 p (0 : Fin 1)) = neg (ix2 (i 0) (0 : Fin 1)))
    (hC : ∀ j : Fin k, Ct (ix2 j q) = C (ix2 j (i 1))) (hN : ∀ j : Fin k, Nt (ix2 j q) = N (ix2 j (i 1))) :
    extra Xt post negt Ct Nt (ix2 p q) = extra X pos neg C N i := by
  show (∑ j : Fin k, (Xt (ix2 p j) * post (ix2 p (0 : Fin 1))) * Ct (ix2 j q)) - (∑ j : Fin k, (Xt (ix2 p j) * negt (ix2 p (0 : Fin 1))) * Nt (ix2 j q))
    = (∑ j : Fin k, (X (ix2 (i 0) j) * pos (ix2 (i 0) (0 : Fin 1))) * C (ix2 j (i 1))) - (∑ j : Fin k, (X (ix2 (i 0) j) * neg (ix2 (i 0) (0 : Fin 1))) * N (ix2 j (i 1)))
  rw [hpos, hneg]
  exact congrArg₂ (· - ·) (Finset.sum_congr rfl fun j _ => by rw [hX j, hC j]) (Finset.sum_congr rfl fun j _ => by rw [hX j, hN j])

/-- The same for the masked projection. -/
theorem masked_congr (Xt : (⟨2, ![n, k]⟩ : Shape).Idx → EReal) (post negt : (⟨2, ![n, 1]⟩ : Shape).Idx → EReal)
    (Ct Nt Wt : (⟨2, ![k, d]⟩ : Shape).Idx → EReal) (bt : (⟨2, ![1, d]⟩ : Shape).Idx → EReal)
    (X : (⟨2, ![n', k]⟩ : Shape).Idx → EReal) (pos neg : (⟨2, ![n', 1]⟩ : Shape).Idx → EReal)
    (C N W : (⟨2, ![k, d]⟩ : Shape).Idx → EReal) (b : (⟨2, ![1, d]⟩ : Shape).Idx → EReal)
    (p : Fin n) (q : Fin d) (i : (⟨2, ![n', d]⟩ : Shape).Idx)
    (hX : ∀ j : Fin k, Xt (ix2 p j) = X (ix2 (i 0) j))
    (hpos : post (ix2 p (0 : Fin 1)) = pos (ix2 (i 0) (0 : Fin 1))) (hneg : negt (ix2 p (0 : Fin 1)) = neg (ix2 (i 0) (0 : Fin 1)))
    (hC : ∀ j : Fin k, Ct (ix2 j q) = C (ix2 j (i 1))) (hN : ∀ j : Fin k, Nt (ix2 j q) = N (ix2 j (i 1)))
    (hW : ∀ j : Fin k, Wt (ix2 j q) = W (ix2 j (i 1))) (hb : bt (ix2 (0 : Fin 1) q) = b (ix2 (0 : Fin 1) (i 1))) :
    masked Xt post negt Ct Nt Wt bt (ix2 p q) = masked X pos neg C N W b i :=
  congrArg₂ (· + ·) (dense_congr Xt Wt bt X W b p q i hX hW hb) (extra_congr Xt post negt Ct Nt X pos neg C N p q i hX hpos hneg hC hN)

/-! ## Repeated rows and columns read at an entry -/

/-- A one-column array repeated across d columns reads, at (p, c), its entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's repeat of a one-row array over n rows, at (p, c). -/
theorem bid_1d_nd_apply {α : Type} (h : (⟨2, ![1, d]⟩ : Shape).BroadcastsInDim ⟨2, ![n, d]⟩ ![0, 1])
    (x : (⟨2, ![1, d]⟩ : Shape).Idx → α) (p : Fin n) (c : Fin d) :
    broadcastInDim ⟨2, ![n, d]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if d = 1 then 0 else c.val
    split
    · have := c.isLt; omega
    · rfl

/-- The host's cast of a length-d array to one row, at (0, c). -/
theorem bid_d_1d_apply {α : Type} (h : (⟨1, ![d]⟩ : Shape).BroadcastsInDim ⟨2, ![1, d]⟩ ![1])
    (x : (⟨1, ![d]⟩ : Shape).Idx → α) (z : Fin 1) (c : Fin d) :
    broadcastInDim ⟨2, ![1, d]⟩ ![1] h x (ix2 z c) = x (ix1 c) := by
  refine broadcastInDim_apply _ h x (ix2 z c) (ix1 c) fun ax => ?_
  match ax with
  | ⟨0, _⟩ =>
    show c.val = if d = 1 then 0 else c.val
    split
    · have := c.isLt; omega
    · rfl

/-- The host's repeat of a one-column array across d columns, at (p, c). -/
theorem bid_n1_nd_apply {α : Type} (h : (⟨2, ![n, 1]⟩ : Shape).BroadcastsInDim ⟨2, ![n, d]⟩ ![0, 1])
    (x : (⟨2, ![n, 1]⟩ : Shape).Idx → α) (p : Fin n) (c : Fin d) :
    broadcastInDim ⟨2, ![n, d]⟩ ![0, 1] h x (ix2 p c) = x (ix2 p (0 : Fin 1)) := by
  refine broadcastInDim_apply _ h x (ix2 p c) (ix2 p (0 : Fin 1)) fun ax => ?_
  match ax with
  | ⟨0, _⟩ =>
    show p.val = if n = 1 then 0 else p.val
    split
    · have := p.isLt; omega
    · rfl
  | ⟨1, _⟩ => rfl

/-! ## The kernel's spelling: products into the zero accumulator of narrowed operands -/

/-- A product of narrowed operands into the zero accumulator, at (p, c): narrowing is the identity here. -/
theorem mm_apply (D : DotDims ⟨2, ![n, k]⟩ ⟨2, ![k, d]⟩ ⟨2, ![n, d]⟩) (hD : D = DotDims.plain n k d)
    (prec : Option ContractPrecision) (X : FVec Ideal ⟨2, ![n, k]⟩ .f32) (W : FVec Ideal ⟨2, ![k, d]⟩ .f32)
    (hx : FTy.bf16.bits < FTy.f32.bits) (p : Fin n) (c : Fin d) :
    matmul D prec (truncf .bf16 X hx) (truncf .bf16 W hx) (constant (F := Ideal) ⟨2, ![n, d]⟩ .f32 0x00000000#32) (ix2 p c)
      = ∑ q : Fin k, X (ix2 p q) * W (ix2 q c) :=
  Cert.LibPlainDot.matmul_zero_apply D hD prec (truncf .bf16 X hx) (truncf .bf16 W hx) p c

/-- The dense body of a tile: product into zero plus the repeated bias row, at (p, c). -/
theorem tile_dense_apply (D : DotDims ⟨2, ![n, k]⟩ ⟨2, ![k, d]⟩ ⟨2, ![n, d]⟩) (hD : D = DotDims.plain n k d)
    (prec : Option ContractPrecision) (X : FVec Ideal ⟨2, ![n, k]⟩ .f32) (W : FVec Ideal ⟨2, ![k, d]⟩ .f32)
    (b : FVec Ideal ⟨2, ![1, d]⟩ .f32) (hx : FTy.bf16.bits < FTy.f32.bits)
    (h₁ : (⟨2, ![1, d]⟩ : Shape).ShapeCasts ⟨2, ![1, d]⟩) (h₂ : (⟨2, ![1, d]⟩ : Shape).Broadcasts ⟨2, ![n, d]⟩)
    (p : Fin n) (c : Fin d) :
    addf (matmul D prec (truncf .bf16 X hx) (truncf .bf16 W hx) (constant (F := Ideal) ⟨2, ![n, d]⟩ .f32 0x00000000#32))
        (broadcastTo ⟨2, ![n, d]⟩ (shapeCast ⟨2, ![1, d]⟩ b h₁) h₂) (ix2 p c)
      = dense X W b (ix2 p c) := by
  rw [addf_apply, mm_apply D hD, broadcastTo_1b_ab_apply, shapeCast_self]
  rfl

/-- The masked term of a tile, at (p, c): each row scaled by its own weight before the product. -/
theorem tile_extra_apply (D : DotDims ⟨2, ![n, k]⟩ ⟨2, ![k, d]⟩ ⟨2, ![n, d]⟩) (hD : D = DotDims.plain n k d)
    (prec : Option ContractPrecision) (X : FVec Ideal ⟨2, ![n, k]⟩ .f32) (pos neg : FVec Ideal ⟨2, ![n, 1]⟩ .f32)
    (C N : FVec Ideal ⟨2, ![k, d]⟩ .f32) (hx : FTy.bf16.bits < FTy.f32.bits)
    (g₁ : (⟨2, ![n, 1]⟩ : Shape).ShapeCasts ⟨2, ![n, 1]⟩) (g₂ : (⟨2, ![n, 1]⟩ : Shape).Broadcasts ⟨2, ![n, k]⟩)
    (p : Fin n) (c : Fin d) :
    subf (matmul D prec (truncf .bf16 (mulf X (broadcastTo ⟨2, ![n, k]⟩ (shapeCast ⟨2, ![n, 1]⟩ pos g₁) g₂)) hx) (truncf .bf16 C hx)
            (constant (F := Ideal) ⟨2, ![n, d]⟩ .f32 0x00000000#32))
         (matmul D prec (truncf .bf16 (mulf X (broadcastTo ⟨2, ![n, k]⟩ (shapeCast ⟨2, ![n, 1]⟩ neg g₁) g₂)) hx) (truncf .bf16 N hx)
            (constant (F := Ideal) ⟨2, ![n, d]⟩ .f32 0x00000000#32)) (ix2 p c)
      = extra X pos neg C N (ix2 p c) := by
  rw [subf_apply, mm_apply D hD, mm_apply D hD]
  simp only [mulf_apply, broadcastTo_a1_ab_apply, shapeCast_self]
  rfl

/-! ## The host's spelling: dot_general, the bias cast to a row and repeated -/

/-- The host's dense projection at (p, c). -/
theorem host_dense_apply (D : DotDims ⟨2, ![n, k]⟩ ⟨2, ![k, d]⟩ ⟨2, ![n, d]⟩) (hD : D = DotDims.plain n k d)
    (X : FVec Ideal ⟨2, ![n, k]⟩ .f32) (W : FVec Ideal ⟨2, ![k, d]⟩ .f32) (b : FVec Ideal ⟨1, ![d]⟩ .f32)
    (h₁ : (⟨1, ![d]⟩ : Shape).BroadcastsInDim ⟨2, ![1, d]⟩ ![1]) (h₂ : (⟨2, ![1, d]⟩ : Shape).BroadcastsInDim ⟨2, ![n, d]⟩ ![0, 1])
    (p : Fin n) (c : Fin d) :
    addf (Host.dotGeneral D none X W) (broadcastInDim ⟨2, ![n, d]⟩ ![0, 1] h₂ (broadcastInDim ⟨2, ![1, d]⟩ ![1] h₁ b)) (ix2 p c)
      = (∑ q : Fin k, X (ix2 p q) * W (ix2 q c)) + b (ix1 c) := by
  rw [addf_apply, bid_1d_nd_apply, bid_d_1d_apply]
  simp only [Host.dotGeneral]
  rw [Cert.LibPlainDot.dotGeneral_apply D hD]

/-- The host's masked term at (p, c). -/
theorem host_extra_apply (D : DotDims ⟨2, ![n, k]⟩ ⟨2, ![k, d]⟩ ⟨2, ![n, d]⟩) (hD : D = DotDims.plain n k d)
    (X : FVec Ideal ⟨2, ![n, k]⟩ .f32) (pos neg : FVec Ideal ⟨2, ![n, 1]⟩ .f32) (C N : FVec Ideal ⟨2, ![k, d]⟩ .f32)
    (g : (⟨2, ![n, 1]⟩ : Shape).BroadcastsInDim ⟨2, ![n, k]⟩ ![0, 1]) (p : Fin n) (c : Fin d) :
    subf (Host.dotGeneral D none (mulf X (broadcastInDim ⟨2, ![n, k]⟩ ![0, 1] g pos)) C)
         (Host.dotGeneral D none (mulf X (broadcastInDim ⟨2, ![n, k]⟩ ![0, 1] g neg)) N) (ix2 p c)
      = extra X pos neg C N (ix2 p c) := by
  rw [subf_apply]
  simp only [Host.dotGeneral]
  rw [Cert.LibPlainDot.dotGeneral_apply D hD, Cert.LibPlainDot.dotGeneral_apply D hD]
  exact congrArg₂ (· - ·)
    (Finset.sum_congr rfl fun q _ => by rw [mulf_apply, bid_n1_nd_apply] <;> rfl)
    (Finset.sum_congr rfl fun q _ => by rw [mulf_apply, bid_n1_nd_apply] <;> rfl)

end Cert.Proj

end
-- ==== Proof.SpecAt.lean ====
/-
  The reference's projections are the row-wise ones.

  Read at an entry, the host's dense projection — dot_general plus the bias cast to a row and repeated — is the sum
  over the inner index plus the bias at the column, and its masked term is the difference of the two sums over the
  rows scaled by their own weights: entry by entry the functions `dense`, `extra` and `masked`, with the bias row
  given as the length-128 bias recast to one row.
-/
import proofs.«111394_j56581899157988_1_alg».proof.Proof.Spec
import proofs.«111394_j56581899157988_1_alg».proof.Proof.Proj

set_option maxRecDepth 8192

noncomputable section

open scoped BigOperators

namespace Cert.SpecAt

open Cert.ReferenceIdeal Cert.ReferenceIdeal.Gen Cert.Spec
open Idealize.ShloMosaic Idealize.ShloMosaic.ValueIdx

/-- The first layer's word projection. -/
theorem denseW1_eq (X : FA S50000x256) (W : FA S256x128) (b : FA S128) (h : S128.ShapeCasts S1x128) :
    Spec.denseW1 X W b = Cert.Proj.dense X W (shapeCast S1x128 b h) := by
  funext i
  obtain ⟨p, q, rfl⟩ : ∃ (p : Fin 50000) (q : Fin 128), i = ix2 p q := ⟨i 0, i 1, eq_ix2 i⟩
  unfold Spec.denseW1
  rw [Cert.Proj.host_dense_apply dot_S50000x256_S256x128_S50000x128_1_0_0_1_n_n rfl]
  show _ = (∑ k : Fin 256, X (ix2 p k) * W (ix2 k q)) + shapeCast S1x128 b h (ix2 (0 : Fin 1) q)
  rw [shapeCast_a_1a_apply]

/-- The second layer's word projection. -/
theorem denseW2_eq (X : FA S50000x128) (W : FA S128x128) (b : FA S128) (h : S128.ShapeCasts S1x128) :
    Spec.denseW2 X W b = Cert.Proj.dense X W (shapeCast S1x128 b h) := by
  funext i
  obtain ⟨p, q, rfl⟩ : ∃ (p : Fin 50000) (q : Fin 128), i = ix2 p q := ⟨i 0, i 1, eq_ix2 i⟩
  unfold Spec.denseW2
  rw [Cert.Proj.host_dense_apply dot_S50000x128_S128x128_S50000x128_1_0_0_1_n_n rfl]
  show _ = (∑ k : Fin 128, X (ix2 p k) * W (ix2 k q)) + shapeCast S1x128 b h (ix2 (0 : Fin 1) q)
  rw [shapeCast_a_1a_apply]

/-- The topic rows' masked projection. -/
theorem topicP_eq (X : FA S5000x128) (pos neg : FA S5000x1) (C N W : FA S128x128) (b : FA S128) (h : S128.ShapeCasts S1x128) :
    Spec.topicP X pos neg C N W b = Cert.Proj.masked X pos neg C N W (shapeCast S1x128 b h) := by
  funext i
  obtain ⟨p, q, rfl⟩ : ∃ (p : Fin 5000) (q : Fin 128), i = ix2 p q := ⟨i 0, i 1, eq_ix2 i⟩
  unfold Spec.topicP
  rw [addf_apply, Cert.Proj.host_dense_apply dot_S5000x128_S128x128_S5000x128_1_0_0_1_n_n rfl,
    Cert.Proj.host_extra_apply dot_S5000x128_S128x128_S5000x128_1_0_0_1_n_n rfl]
  show _ = ((∑ k : Fin 128, X (ix2 p k) * W (ix2 k q)) + shapeCast S1x128 b h (ix2 (0 : Fin 1) q)) + Cert.Proj.extra X pos neg C N (ix2 p q)
  rw [shapeCast_a_1a_apply]

end Cert.SpecAt

end
-- ==== Proof.WordTiles2.lean ====
/-
  Region 2 of the kernel: the word rows' dense projections, one grid point per tile of 2000 rows.

  Point t stages rows 2000·t … 2000·t + 1999 of the row matrix, the weight matrices and bias rows whole, computes each
  projection of the tile from the tile's own rows, and writes it back to the same rows of its output. A dense
  projection's row p depends on row p of its input alone, so what point t writes back is rows 2000·t … of the dense
  projection of the whole matrix; the 25 tiles cover all 50000 rows, so each output array ends as that
  projection of the arrays the region was entered with.
-/
import proofs.«111394_j56581899157988_1_alg».proof.Proof.Gen.KernelIdeal.Frame
import proofs.«111394_j56581899157988_1_alg».proof.Proof.Proj

set_option maxRecDepth 16384

noncomputable section

open scoped BigOperators

namespace Cert.KernelIdeal.WordTiles2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row matrix's and the outputs' blocks in one block row, every
    weight matrix and bias row at the origin (decided over the 25 points). -/
theorem block_rows : ∀ t : Fin cfg2.N,
    win2_0.index t (0 : Fin 2) = win2_7.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_8.index t (0 : Fin 2) = win2_7.index t (0 : Fin 2)
    ∧ win2_9.index t (0 : Fin 2) = win2_7.index t (0 : Fin 2)
    ∧ win2_7.index t (1 : Fin 2) = 0
    ∧ win2_8.index t (1 : Fin 2) = 0
    ∧ win2_9.index t (1 : Fin 2) = 0 :=
  (by decide +kernel : ∀ t : Fin grid2.N, _)

/-! ## Output window 7 -/

/-- Every block row is some point's. -/
theorem block_row_onto7 : ∀ r : Fin 25, ∃ t : Fin cfg2.N, win2_7.index t = ![r.val, 0] :=
  (by decide +kernel : ∀ r : Fin 25, ∃ t : Fin grid2.N, win2_7.index t = ![r.val, 0])

/-- The tile's projection at an entry is the dense projection of the tile. -/
theorem tile7 (x0 : Vec Ideal S2000x128 .f32) (x1 : Vec Ideal S128x128 .f32) (x2 : Vec Ideal S1x128 .f32) (p : Fin 2000) (q : Fin 128) :
    k2_pay2 x0 x1 x2 (ix2 p q) = Cert.Proj.dense x0 x1 x2 (ix2 p q) := by
  unfold k2_pay2 k2_pay1
  refine (Cert.Proj.tile_dense_apply dot_S2000x128_S128x128_S2000x128_1_0_0_1_n_n rfl none (shapeCast S2000x128 x0 shapeCasts_S2000x128_S2000x128) x1 x2 bitsLt_bf16_f32 shapeCasts_S1x128_S1x128 broadcasts_S1x128_S2000x128 p q).trans ?_
  rw [shapeCast_self]

/-- What point t writes back is its block of the dense projection of the whole arrays. -/
theorem flushed7 (c : Dev nD) (t : Fin cfg2.N) :
    (dat2 V c).flushed 7 t = ((cfg2.win 7).blk t).view.read (Elt Ideal)
      (Cert.Proj.dense (V c main_v80) (V c main_arg30) (V c main_v82)) := by
  show (cfg2.win 7).cut (grid2.coords t) ((dat2 V c).after 7 t) = _
  rw [after2_7]
  unfold out2_7
  rw [View.canon_unit_zero origin]
  simp only [View.ld_unit_zero (S := S2000x128) origin, View.ld_unit_zero (S := S128x128) origin, View.ld_unit_zero (S := S1x128) origin]
  obtain ⟨e0, e1, e2, e3, e4, e5, e6, e7, e8, e9, e10, e11, e12, e13, e14, e15, e16, e17, e18⟩ := block_rows t
  funext j
  obtain ⟨p, q, rfl⟩ : ∃ (p : Fin 2000) (q : Fin 128), j = ix2 p q := ⟨j 0, j 1, eq_ix2 j⟩
  refine (tile7 (iblk2 V c 0 t) (iblk2 V c 1 t) (iblk2 V c 2 t) p q).trans ?_
  have hx : ∀ k : Fin 128, ((cfg2.win 0).blk t).view.emb (ix2 p k) = ix2 ((((cfg2.win 7).blk t).view.emb (ix2 p q)) 0) k := fun k => by
    funext a; apply Fin.ext
    match a with
    | ⟨0, _⟩ => show win2_0.index t (0 : Fin 2) * 2000 + 1 * p.val = win2_7.index t (0 : Fin 2) * 2000 + 1 * p.val; omega
    | ⟨1, _⟩ => show win2_0.index t (1 : Fin 2) * 128 + 1 * k.val = k.val; omega
  have hw : ∀ k : Fin 128, ((cfg2.win 1).blk t).view.emb (ix2 k q) = ix2 k ((((cfg2.win 7).blk t).view.emb (ix2 p q)) 1) := fun k => by
    funext a; apply Fin.ext
    match a with
    | ⟨0, _⟩ => show win2_1.index t (0 : Fin 2) * 128 + 1 * k.val = k.val; omega
    | ⟨1, _⟩ => show win2_1.index t (1 : Fin 2) * 128 + 1 * q.val = win2_7.index t (1 : Fin 2) * 128 + 1 * q.val; omega
  have hb : ((cfg2.win 2).blk t).view.emb (ix2 (0 : Fin 1) q) = ix2 (0 : Fin 1) ((((cfg2.win 7).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_7.index t (1 : Fin 2) * 128 + 1 * q.val; omega
  exact Cert.Proj.dense_congr (n := 2000) (n' := 50000) (k := 128) (d := 128) (iblk2 V c 0 t) (iblk2 V c 1 t) (iblk2 V c 2 t)
    (V c main_v80) (V c main_arg30) (V c main_v82) p q (((cfg2.win 7).blk t).view.emb (ix2 p q))
    (fun k => congrArg (V c main_v80) (hx k)) (fun k => congrArg (V c main_arg30) (hw k)) (congrArg (V c main_v82) hb)

/-- An index of the output array is in point t's block iff each coordinate is in the block's range on its axis. -/
theorem mem_block7 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v85_0).slice (win2_7.rect t)).set ↔ _
  rw [View.set_slice_whole, Rect.mem_set_unit]
  exact Iff.rfl

/-- Row r of the output lies in the block of the point whose block row is r / 2000: the tiles cover the array. -/
theorem cover7 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ := block_row_onto7 ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  rw [mem_block7]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- The output array after the region: the dense projection of the arrays the region was entered with. -/
theorem array7 (c : Dev nD) :
    (dat2 V c).arrAt 7 cfg2.N = Cert.Proj.dense (V c main_v80) (V c main_arg30) (V c main_v82) :=
  (dat2 V c).arrAt_eq_of_cover 7 _ (fun t _ => flushed7 V c t) (cover7)

/-! ## Output window 8 -/

/-- Every block row is some point's. -/
theorem block_row_onto8 : ∀ r : Fin 25, ∃ t : Fin cfg2.N, win2_8.index t = ![r.val, 0] :=
  (by decide +kernel : ∀ r : Fin 25, ∃ t : Fin grid2.N, win2_8.index t = ![r.val, 0])

/-- The tile's projection at an entry is the dense projection of the tile. -/
theorem tile8 (x0 : Vec Ideal S2000x128 .f32) (x1 : Vec Ideal S128x128 .f32) (x2 : Vec Ideal S1x128 .f32) (p : Fin 2000) (q : Fin 128) :
    k2_pay3 x0 x1 x2 (ix2 p q) = Cert.Proj.dense x0 x1 x2 (ix2 p q) := by
  unfold k2_pay3 k2_pay1
  refine (Cert.Proj.tile_dense_apply dot_S2000x128_S128x128_S2000x128_1_0_0_1_n_n rfl none (shapeCast S2000x128 x0 shapeCasts_S2000x128_S2000x128) x1 x2 bitsLt_bf16_f32 shapeCasts_S1x128_S1x128 broadcasts_S1x128_S2000x128 p q).trans ?_
  rw [shapeCast_self]

/-- What point t writes back is its block of the dense projection of the whole arrays. -/
theorem flushed8 (c : Dev nD) (t : Fin cfg2.N) :
    (dat2 V c).flushed 8 t = ((cfg2.win 8).blk t).view.read (Elt Ideal)
      (Cert.Proj.dense (V c main_v80) (V c main_arg32) (V c main_v83)) := by
  show (cfg2.win 8).cut (grid2.coords t) ((dat2 V c).after 8 t) = _
  rw [after2_8]
  unfold out2_8
  rw [View.canon_unit_zero origin]
  simp only [View.ld_unit_zero (S := S2000x128) origin, View.ld_unit_zero (S := S128x128) origin, View.ld_unit_zero (S := S1x128) origin]
  obtain ⟨e0, e1, e2, e3, e4, e5, e6, e7, e8, e9, e10, e11, e12, e13, e14, e15, e16, e17, e18⟩ := block_rows t
  funext j
  obtain ⟨p, q, rfl⟩ : ∃ (p : Fin 2000) (q : Fin 128), j = ix2 p q := ⟨j 0, j 1, eq_ix2 j⟩
  refine (tile8 (iblk2 V c 0 t) (iblk2 V c 3 t) (iblk2 V c 4 t) p q).trans ?_
  have hx : ∀ k : Fin 128, ((cfg2.win 0).blk t).view.emb (ix2 p k) = ix2 ((((cfg2.win 8).blk t).view.emb (ix2 p q)) 0) k := fun k => by
    funext a; apply Fin.ext
    match a with
    | ⟨0, _⟩ => show win2_0.index t (0 : Fin 2) * 2000 + 1 * p.val = win2_8.index t (0 : Fin 2) * 2000 + 1 * p.val; omega
    | ⟨1, _⟩ => show win2_0.index t (1 : Fin 2) * 128 + 1 * k.val = k.val; omega
  have hw : ∀ k : Fin 128, ((cfg2.win 3).blk t).view.emb (ix2 k q) = ix2 k ((((cfg2.win 8).blk t).view.emb (ix2 p q)) 1) := fun k => by
    funext a; apply Fin.ext
    match a with
    | ⟨0, _⟩ => show win2_3.index t (0 : Fin 2) * 128 + 1 * k.val = k.val; omega
    | ⟨1, _⟩ => show win2_3.index t (1 : Fin 2) * 128 + 1 * q.val = win2_8.index t (1 : Fin 2) * 128 + 1 * q.val; omega
  have hb : ((cfg2.win 4).blk t).view.emb (ix2 (0 : Fin 1) q) = ix2 (0 : Fin 1) ((((cfg2.win 8).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 128 + 1 * q.val = win2_8.index t (1 : Fin 2) * 128 + 1 * q.val; omega
  exact Cert.Proj.dense_congr (n := 2000) (n' := 50000) (k := 128) (d := 128) (iblk2 V c 0 t) (iblk2 V c 3 t) (iblk2 V c 4 t)
    (V c main_v80) (V c main_arg32) (V c main_v83) p q (((cfg2.win 8).blk t).view.emb (ix2 p q))
    (fun k => congrArg (V c main_v80) (hx k)) (fun k => congrArg (V c main_arg32) (hw k)) (congrArg (V c main_v83) hb)

/-- An index of the output array is in point t's block iff each coordinate is in the block's range on its axis. -/
theorem mem_block8 (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v85_1).slice (win2_8.rect t)).set ↔ _
  rw [View.set_slice_whole, Rect.mem_set_unit]
  exact Iff.rfl

/-- Row r of the output lies in the block of the point whose block row is r / 2000: the tiles cover the array. -/
theorem cover8 (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  obtain ⟨t, ht⟩ := block_row_onto8 ⟨(i 0).val / 2000, by omega⟩
  have q0 : win2_8.index t (0 : Fin 2) = (i 0).val / 2000 := congrFun ht 0
  have q1 : win2_8.index t (1 : Fin 2) = 0 := congrFun ht 1
  refine ⟨t, flush2_8 t, ?_⟩
  rw [mem_block8]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 128 ≤ (i 1).val ∧ (i 1).val < win2_8.index t (1 : Fin 2) * 128 + 128; omega

/-- The output array after the region: the dense projection of the arrays the region was entered with. -/
theorem array8 (c : Dev nD) :
    (dat2 V c).arrAt 8 cfg2.N = Cert.Proj.dense (V c main_v80) (V c main_arg32) (V c main_v83) :=
  (dat2 V c).arrAt_eq_of_cover 8 _ (fun t _ => flushed8 V c t) (cover8)

/-! ## Output window 9 -/

/-- Every block row is some point's. -/
theorem block_row_onto9 : ∀ r : Fin 25, ∃ t : Fin cfg2.N, win2_9.index t = ![r.val, 0] :=
  (by decide +kernel : ∀ r : Fin 25, ∃ t : Fin grid2.N, win2_9.index t = ![r.val, 0])

/-- The tile's projection at an entry is the dense projection of the tile. -/
theorem tile9 (x0 : Vec Ideal S2000x128 .f32) (x1 : Vec Ideal S128x128 .f32) (x2 : Vec Ideal S1x128 .f32) (p : Fin 2000) (q : Fin 128) :
    k2_pay4 x0 x1 x2 (ix2 p q) = Cert.Proj.dense x0 x1 x2 (ix2 p q) := by
  unfold k2_pay4 k2_pay1
  refine (Cert.Proj.tile_dense_apply dot_S2000x128_S128x128_S2000x128_1_0_0_1_n_n rfl none (shapeCast S2000x128 x0 shapeCasts_S2000x128_S2000x128) x1 x2 bitsLt_bf16_f32 shapeCasts_S1x128_S1x128 broadcasts_S1x128_S2000x128 p q).trans ?_
  rw [shapeCast_self]

/-- What point t writes back is its block of the dense projection of the whole arrays. -/
theorem flushed9 (c : Dev nD) (t : Fin cfg2.N) :
    (dat2 V c).flushed 9 t = ((cfg2.win 9).blk t).view.read (Elt Ideal)
      (Cert.Proj.dense (V c main_v80) (V c main_arg34) (V c main_v84)) := by
  show (cfg2.win 9).cut (grid2.coords t) ((dat2 V c).after 9 t) = _
  rw [after2_9]
  unfold out2_9
  rw [View.canon_unit_zero origin]
  simp only [View.ld_unit_zero (S := S2000x128) origin, View.ld_unit_zero (S := S128x128) origin, View.ld_unit_zero (S := S1x128) origin]
  obtain ⟨e0, e1, e2, e3, e4, e5, e6, e7, e8, e9, e10, e11, e12, e13, e14, e15, e16, e17, e18⟩ := block_rows t
  funext j
  obtain ⟨p, q, rfl⟩ : ∃ (p : Fin 2000) (q : Fin 128), j = ix2 p q := ⟨j 0, j 1, eq_ix2 j⟩
  refine (tile9 (iblk2 V c 0 t) (iblk2 V c 5 t) (iblk2 V c 6 t) p q).trans ?_
  have hx : ∀ k : Fin 128, ((cfg2.win 0).blk t).view.emb (ix2 p k) = ix2 ((((cfg2.win 9).blk t).view.emb (ix2 p q)) 0) k := fun k => by
    funext a; apply Fin.ext
    match a with
    | ⟨0, _⟩ => show win2_0.index t (0 : Fin 2) * 2000 + 1 * p.val = win2_9.index t (0 : Fin 2) * 2000 + 1 * p.val; omega
    | ⟨1, _⟩ => show win2_0.index t (1 : Fin 2) * 128 + 1 * k.val = k.val; omega
  have hw : ∀ k : Fin 128, ((cfg2.win 5).blk t).view.emb (ix2 k q) = ix2 k ((((cfg2.win 9).blk t).view.emb (ix2 p q)) 1) := fun k => by
    funext a; apply Fin.ext
    match a with
    | ⟨0, _⟩ => show win2_5.index t (0 : Fin 2) * 128 + 1 * k.val = k.val; omega
    | ⟨1, _⟩ => show win2_5.index t (1 : Fin 2) * 128 + 1 * q.val = win2_9.index t (1 : Fin 2) * 128 + 1 * q.val; omega
  have hb : ((cfg2.win 6).blk t).view.emb (ix2 (0 : Fin 1) q) = ix2 (0 : Fin 1) ((((cfg2.win 9).blk t).view.emb (ix2 p q)) 1) := by
    funext a; apply Fin.ext
    match a with
    | ⟨0, _⟩ => show win2_6.index t (0 : Fin 2) * 1 + 1 * 0 = 0; omega
    | ⟨1, _⟩ => show win2_6.index t (1 : Fin 2) * 128 + 1 * q.val = win2_9.index t (1 : Fin 2) * 128 + 1 * q.val; omega
  exact Cert.Proj.dense_congr (n := 2000) (n' := 50000) (k := 128) (d := 128) (iblk2 V c 0 t) (iblk2 V c 5 t) (iblk2 V c 6 t)
    (V c main_v80) (V c main_arg34) (V c main_v84) p q (((cfg2.win 9).blk t).view.emb (ix2 p q))
    (fun k => congrArg (V c main_v80) (hx k)) (fun k => congrArg (V c main_arg34) (hw k)) (congrArg (V c main_v84) hb)

/-- An index of the output array is in point t's block iff each coordinate is in the block's range on its axis. -/
theorem mem_block9 (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v85_2).slice (win2_9.rect t)).set ↔ _
  rw [View.set_slice_whole, Rect.mem_set_unit]
  exact Iff.rfl

/-- Row r of the output lies in the block of the point whose block row is r / 2000: the tiles cover the array. -/
theorem cover9 (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  obtain ⟨t, ht⟩ := block_row_onto9 ⟨(i 0).val / 2000, by omega⟩
  have q0 : win2_9.index t (0 : Fin 2) = (i 0).val / 2000 := congrFun ht 0
  have q1 : win2_9.index t (1 : Fin 2) = 0 := congrFun ht 1
  refine ⟨t, flush2_9 t, ?_⟩
  rw [mem_block9]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 128 ≤ (i 1).val ∧ (i 1).val < win2_9.index t (1 : Fin 2) * 128 + 128; omega

/-- The output array after the region: the dense projection of the arrays the region was entered with. -/
theorem array9 (c : Dev nD) :
    (dat2 V c).arrAt 9 cfg2.N = Cert.Proj.dense (V c main_v80) (V c main_arg34) (V c main_v84) :=
  (dat2 V c).arrAt_eq_of_cover 9 _ (fun t _ => flushed9 V c t) (cover9)

end Cert.KernelIdeal.WordTiles2

end
-- ==== Proof.TopicTiles2.lean ====
/-
  Region 3 of the kernel: the topic rows' masked projections, one grid point per tile of 1000 rows.

  Point t stages rows 1000·t … 1000·t + 999 of the row matrix and of the two one-column arrays of row weights, and every
  weight matrix and bias row whole. Each output's tile is the dense projection of the tile plus the masked term, in
  which row p is scaled by its own two weights before the two products: both depend on row p of the staged tile
  alone. So what point t writes back is rows 1000·t … of the masked projection of the whole arrays, and the 5 tiles
  cover all 5000 rows: each output array ends as that projection of the arrays the region was entered with.
-/
import proofs.«111394_j56581899157988_1_alg».proof.Proof.Gen.KernelIdeal.Frame
import proofs.«111394_j56581899157988_1_alg».proof.Proof.Proj

set_option maxRecDepth 16384

noncomputable section

open scoped BigOperators

namespace Cert.KernelIdeal.TopicTiles2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row matrix's, the row weights' and the outputs' blocks in one block
    row, every weight matrix and bias row at the origin (decided over the 5 points). -/
theorem block_rows : ∀ t : Fin cfg3.N,
    win3_0.index t (0 : Fin 2) = win3_9.index t (0 : Fin 2)
    ∧ win3_0.index t (1 : Fin 2) = 0
    ∧ win3_1.index t (0 : Fin 2) = win3_9.index t (0 : Fin 2)
    ∧ win3_1.index t (1 : Fin 2) = 0
    ∧ win3_2.index t (0 : Fin 2) = win3_9.index t (0 : Fin 2)
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_10.index t (0 : Fin 2) = win3_9.index t (0 : Fin 2)
    ∧ win3_9.index t (1 : Fin 2) = 0
    ∧ win3_10.index t (1 : Fin 2) = 0 :=
  (by decide +kernel : ∀ t : Fin grid3.N, _)

/-! ## Output window 9 -/

/-- Every block row is some point's. -/
theorem block_row_onto9 : ∀ r : Fin 5, ∃ t : Fin cfg3.N, win3_9.index t = ![r.val, 0] :=
  (by decide +kernel : ∀ r : Fin 5, ∃ t : Fin grid3.N, win3_9.index t = ![r.val, 0])

/-- The tile's output at an entry is the masked projection of the tile: its dense part plus its masked term. -/
theorem tile9 (x0 : Vec Ideal S1000x128 .f32) (x1 x2 : Vec Ideal S1000x1 .f32) (x3 x4 xw : Vec Ideal S128x128 .f32) (xb : Vec Ideal S1x128 .f32)
    (p : Fin 1000) (q : Fin 128) :
    k3_pay5 x0 x1 x2 x3 x4 xw xb (ix2 p q) = Cert.Proj.masked x0 x1 x2 x3 x4 xw xb (ix2 p q) := by
  unfold k3_pay5 k3_pay4 k3_pay3 k3_pay2
  rw [addf_apply]
  refine (congrArg₂ (· + ·)
    (Cert.Proj.tile_dense_apply dot_S1000x128_S128x128_S1000x128_1_0_0_1_n_n rfl none (shapeCast S1000x128 x0 shapeCasts_S1000x128_S1000x128) xw xb bitsLt_bf16_f32 shapeCasts_S1x128_S1x128 broadcasts_S1x128_S1000x128 p q)
    (Cert.Proj.tile_extra_apply dot_S1000x128_S128x128_S1000x128_1_0_0_1_n_n rfl none (shapeCast S1000x128 x0 shapeCasts_S1000x128_S1000x128) x1 x2 x3 x4 bitsLt_bf16_f32 shapeCasts_S1000x1_S1000x1 broadcasts_S1000x1_S1000x128 p q)).trans ?_
  rw [shapeCast_self]
  rfl

/-- What point t writes back is its block of the masked projection of the whole arrays. -/
theorem flushed9 (c : Dev nD) (t : Fin cfg3.N) :
    (dat3 V c).flushed 9 t = ((cfg3.win 9).blk t).view.read (Elt Ideal)
      (Cert.Proj.masked (V c main_v81) (V c main_v3) (V c main_v7) (V c main_arg40) (V c main_arg41) (V c main_arg36) (V c main_v86)) := by
  show (cfg3.win 9).cut (grid3.coords t) ((dat3 V c).after 9 t) = _
  rw [after3_9]
  unfold out3_9
  rw [View.canon_unit_zero origin]
  simp only [View.ld_unit_zero (S := S1000x128) origin, View.ld_unit_zero (S := S1000x1) origin, View.ld_unit_zero (S := S128x128) origin, View.ld_unit_zero (S := S1x128) origin]
  obtain ⟨e0, e1, e2, e3, e4, e5, e6, e7, e8, e9, e10, e11, e12, e13, e14, e15, e16, e17, e18, e19, e20⟩ := block_rows t
  funext j
  obtain ⟨p, q, rfl⟩ : ∃ (p : Fin 1000) (q : Fin 128), j = ix2 p q := ⟨j 0, j 1, eq_ix2 j⟩
  refine (tile9 (iblk3 V c 0 t) (iblk3 V c 1 t) (iblk3 V c 2 t) (iblk3 V c 3 t) (iblk3 V c 4 t) (iblk3 V c 5 t) (iblk3 V c 6 t) p q).trans ?_
  have hx : ∀ k : Fin 128, ((cfg3.win 0).blk t).view.emb (ix2 p k) = ix2 ((((cfg3.win 9).blk t).view.emb (ix2 p q)) 0) k := fun k => by
    funext a; apply Fin.ext
    match a with
    | ⟨0, _⟩ => show win3_0.index t (0 : Fin 2) * 1000 + 1 * p.val = win3_9.index t (0 : Fin 2) * 1000 + 1 * p.val; omega
    | ⟨1, _⟩ => show win3_0.index t (1 : Fin 2) * 128 + 1 * k.val = k.val; omega
  have hpos : ((cfg3.win 1).blk t).view.emb (ix2 p (0 : Fin 1)) = ix2 ((((cfg3.win 9).blk t).view.emb (ix2 p q)) 0) (0 : Fin 1) := by
    funext a; apply Fin.ext
    match a with
    | ⟨0, _⟩ => show win3_1.index t (0 : Fin 2) * 1000 + 1 * p.val = win3_9.index t (0 : Fin 2) * 1000 + 1 * p.val; omega
    | ⟨1, _⟩ => show win3_1.index t (1 : Fin 2) * 1 + 1 * 0 = 0; omega
  have hneg : ((cfg3.win 2).blk t).view.emb (ix2 p (0 : Fin 1)) = ix2 ((((cfg3.win 9).blk t).view.emb (ix2 p q)) 0) (0 : Fin 1) := by
    funext a; apply Fin.ext
    match a with
    | ⟨0, _⟩ => show win3_2.index t (0 : Fin 2) * 1000 + 1 * p.val = win3_9.index t (0 : Fin 2) * 1000 + 1 * p.val; omega
    | ⟨1, _⟩ => show win3_2.index t (1 : Fin 2) * 1 + 1 * 0 = 0; omega
  have hc : ∀ k : Fin 128, ((cfg3.win 3).blk t).view.emb (ix2 k q) = ix2 k ((((cfg3.win 9).blk t).view.emb (ix2 p q)) 1) := fun k => by
    funext a; apply Fin.ext
    match a with
    | ⟨0, _⟩ => show win3_3.index t (0 : Fin 2) * 128 + 1 * k.val = k.val; omega
    | ⟨1, _⟩ => show win3_3.index t (1 : Fin 2) * 128 + 1 * q.val = win3_9.index t (1 : Fin 2) * 128 + 1 * q.val; omega
  have hn : ∀ k : Fin 128, ((cfg3.win 4).blk t).view.emb (ix2 k q) = ix2 k ((((cfg3.win 9).blk t).view.emb (ix2 p q)) 1) := fun k => by
    funext a; apply Fin.ext
    match a with
    | ⟨0, _⟩ => show win3_4.index t (0 : Fin 2) * 128 + 1 * k.val = k.val; omega
    | ⟨1, _⟩ => show win3_4.index t (1 : Fin 2) * 128 + 1 * q.val = win3_9.index t (1 : Fin 2) * 128 + 1 * q.val; omega
  have hw : ∀ k : Fin 128, ((cfg3.win 5).blk t).view.emb (ix2 k q) = ix2 k ((((cfg3.win 9).blk t).view.emb (ix2 p q)) 1) := fun k => by
    funext a; apply Fin.ext
    match a with
    | ⟨0, _⟩ => show win3_5.index t (0 : Fin 2) * 128 + 1 * k.val = k.val; omega
    | ⟨1, _⟩ => show win3_5.index t (1 : Fin 2) * 128 + 1 * q.val = win3_9.index t (1 : Fin 2) * 128 + 1 * q.val; omega
  have hb : ((cfg3.win 6).blk t).view.emb (ix2 (0 : Fin 1) q) = ix2 (0 : Fin 1) ((((cfg3.win 9).blk t).view.emb (ix2 p q)) 1) := by
    funext a; apply Fin.ext
    match a with
    | ⟨0, _⟩ => show win3_6.index t (0 : Fin 2) * 1 + 1 * 0 = 0; omega
    | ⟨1, _⟩ => show win3_6.index t (1 : Fin 2) * 128 + 1 * q.val = win3_9.index t (1 : Fin 2) * 128 + 1 * q.val; omega
  exact Cert.Proj.masked_congr (n := 1000) (n' := 5000) (k := 128) (d := 128) (iblk3 V c 0 t) (iblk3 V c 1 t) (iblk3 V c 2 t) (iblk3 V c 3 t) (iblk3 V c 4 t) (iblk3 V c 5 t) (iblk3 V c 6 t)
    (V c main_v81) (V c main_v3) (V c main_v7) (V c main_arg40) (V c main_arg41) (V c main_arg36) (V c main_v86) p q (((cfg3.win 9).blk t).view.emb (ix2 p q))
    (fun k => congrArg (V c main_v81) (hx k)) (congrArg (V c main_v3) hpos) (congrArg (V c main_v7) hneg)
    (fun k => congrArg (V c main_arg40) (hc k)) (fun k => congrArg (V c main_arg41) (hn k)) (fun k => congrArg (V c main_arg36) (hw k)) (congrArg (V c main_v86) hb)

/-- An index of the output array is in point t's block iff each coordinate is in the block's range on its axis. -/
theorem mem_block9 (t : Fin cfg3.N) (i : S5000x128.Idx) :
    i ∈ ((cfg3.win 9).blk t).view.set ↔ ∀ a : Fin 2, win3_9.index t a * S1000x128.size a ≤ (i a).val ∧ (i a).val < win3_9.index t a * S1000x128.size a + S1000x128.size a := by
  show i ∈ ((View.whole main_v88_0).slice (win3_9.rect t)).set ↔ _
  rw [View.set_slice_whole, Rect.mem_set_unit]
  exact Iff.rfl

/-- Row r of the output lies in the block of the point whose block row is r / 1000: the tiles cover the array. -/
theorem cover9 (i : S5000x128.Idx) : ∃ t : Fin cfg3.N, (cfg3.win 9).flush t = true ∧ i ∈ ((cfg3.win 9).blk t).view.set := by
  have hi0 : (i 0).val < 5000 := (i 0).isLt
  have hi1 : (i 1).val < 128 := (i 1).isLt
  obtain ⟨t, ht⟩ := block_row_onto9 ⟨(i 0).val / 1000, by omega⟩
  have q0 : win3_9.index t (0 : Fin 2) = (i 0).val / 1000 := congrFun ht 0
  have q1 : win3_9.index t (1 : Fin 2) = 0 := congrFun ht 1
  refine ⟨t, flush3_9 t, ?_⟩
  rw [mem_block9]
  intro a
  match a with
  | ⟨0, _⟩ => show win3_9.index t (0 : Fin 2) * 1000 ≤ (i 0).val ∧ (i 0).val < win3_9.index t (0 : Fin 2) * 1000 + 1000; omega
  | ⟨1, _⟩ => show win3_9.index t (1 : Fin 2) * 128 ≤ (i 1).val ∧ (i 1).val < win3_9.index t (1 : Fin 2) * 128 + 128; omega

/-- The output array after the region: the masked projection of the arrays the region was entered with. -/
theorem array9 (c : Dev nD) :
    (dat3 V c).arrAt 9 cfg3.N = Cert.Proj.masked (V c main_v81) (V c main_v3) (V c main_v7) (V c main_arg40) (V c main_arg41) (V c main_arg36) (V c main_v86) :=
  (dat3 V c).arrAt_eq_of_cover 9 _ (fun t _ => flushed9 V c t) (cover9)

/-! ## Output window 10 -/

/-- Every block row is some point's. -/
theorem block_row_onto10 : ∀ r : Fin 5, ∃ t : Fin cfg3.N, win3_10.index t = ![r.val, 0] :=
  (by decide +kernel : ∀ r : Fin 5, ∃ t : Fin grid3.N, win3_10.index t = ![r.val, 0])

/-- The tile's output at an entry is the masked projection of the tile: its dense part plus its masked term. -/
theorem tile10 (x0 : Vec Ideal S1000x128 .f32) (x1 x2 : Vec Ideal S1000x1 .f32) (x3 x4 xw : Vec Ideal S128x128 .f32) (xb : Vec Ideal S1x128 .f32)
    (p : Fin 1000) (q : Fin 128) :
    k3_pay1 (k3_pay4 x0 x1 x2 x3 x4) (k3_pay6 x0 xw) (k3_pay7 xb) (ix2 p q) = Cert.Proj.masked x0 x1 x2 x3 x4 xw xb (ix2 p q) := by
  unfold k3_pay1 k3_pay4 k3_pay6 k3_pay7 k3_pay3 k3_pay2
  rw [addf_apply]
  refine (congrArg₂ (· + ·)
    (Cert.Proj.tile_dense_apply dot_S1000x128_S128x128_S1000x128_1_0_0_1_n_n rfl none (shapeCast S1000x128 x0 shapeCasts_S1000x128_S1000x128) xw xb bitsLt_bf16_f32 shapeCasts_S1x128_S1x128 broadcasts_S1x128_S1000x128 p q)
    (Cert.Proj.tile_extra_apply dot_S1000x128_S128x128_S1000x128_1_0_0_1_n_n rfl none (shapeCast S1000x128 x0 shapeCasts_S1000x128_S1000x128) x1 x2 x3 x4 bitsLt_bf16_f32 shapeCasts_S1000x1_S1000x1 broadcasts_S1000x1_S1000x128 p q)).trans ?_
  rw [shapeCast_self]
  rfl

/-- What point t writes back is its block of the masked projection of the whole arrays. -/
theorem flushed10 (c : Dev nD) (t : Fin cfg3.N) :
    (dat3 V c).flushed 10 t = ((cfg3.win 10).blk t).view.read (Elt Ideal)
      (Cert.Proj.masked (V c main_v81) (V c main_v3) (V c main_v7) (V c main_arg40) (V c main_arg41) (V c main_arg38) (V c main_v87)) := by
  show (cfg3.win 10).cut (grid3.coords t) ((dat3 V c).after 10 t) = _
  rw [after3_10]
  unfold out3_10
  rw [View.canon_unit_zero origin]
  simp only [View.ld_unit_zero (S := S1000x128) origin, View.ld_unit_zero (S := S1000x1) origin, View.ld_unit_zero (S := S128x128) origin, View.ld_unit_zero (S := S1x128) origin]
  obtain ⟨e0, e1, e2, e3, e4, e5, e6, e7, e8, e9, e10, e11, e12, e13, e14, e15, e16, e17, e18, e19, e20⟩ := block_rows t
  funext j
  obtain ⟨p, q, rfl⟩ : ∃ (p : Fin 1000) (q : Fin 128), j = ix2 p q := ⟨j 0, j 1, eq_ix2 j⟩
  refine (tile10 (iblk3 V c 0 t) (iblk3 V c 1 t) (iblk3 V c 2 t) (iblk3 V c 3 t) (iblk3 V c 4 t) (iblk3 V c 7 t) (iblk3 V c 8 t) p q).trans ?_
  have hx : ∀ k : Fin 128, ((cfg3.win 0).blk t).view.emb (ix2 p k) = ix2 ((((cfg3.win 10).blk t).view.emb (ix2 p q)) 0) k := fun k => by
    funext a; apply Fin.ext
    match a with
    | ⟨0, _⟩ => show win3_0.index t (0 : Fin 2) * 1000 + 1 * p.val = win3_10.index t (0 : Fin 2) * 1000 + 1 * p.val; omega
    | ⟨1, _⟩ => show win3_0.index t (1 : Fin 2) * 128 + 1 * k.val = k.val; omega
  have hpos : ((cfg3.win 1).blk t).view.emb (ix2 p (0 : Fin 1)) = ix2 ((((cfg3.win 10).blk t).view.emb (ix2 p q)) 0) (0 : Fin 1) := by
    funext a; apply Fin.ext
    match a with
    | ⟨0, _⟩ => show win3_1.index t (0 : Fin 2) * 1000 + 1 * p.val = win3_10.index t (0 : Fin 2) * 1000 + 1 * p.val; omega
    | ⟨1, _⟩ => show win3_1.index t (1 : Fin 2) * 1 + 1 * 0 = 0; omega
  have hneg : ((cfg3.win 2).blk t).view.emb (ix2 p (0 : Fin 1)) = ix2 ((((cfg3.win 10).blk t).view.emb (ix2 p q)) 0) (0 : Fin 1) := by
    funext a; apply Fin.ext
    match a with
    | ⟨0, _⟩ => show win3_2.index t (0 : Fin 2) * 1000 + 1 * p.val = win3_10.index t (0 : Fin 2) * 1000 + 1 * p.val; omega
    | ⟨1, _⟩ => show win3_2.index t (1 : Fin 2) * 1 + 1 * 0 = 0; omega
  have hc : ∀ k : Fin 128, ((cfg3.win 3).blk t).view.emb (ix2 k q) = ix2 k ((((cfg3.win 10).blk t).view.emb (ix2 p q)) 1) := fun k => by
    funext a; apply Fin.ext
    match a with
    | ⟨0, _⟩ => show win3_3.index t (0 : Fin 2) * 128 + 1 * k.val = k.val; omega
    | ⟨1, _⟩ => show win3_3.index t (1 : Fin 2) * 128 + 1 * q.val = win3_10.index t (1 : Fin 2) * 128 + 1 * q.val; omega
  have hn : ∀ k : Fin 128, ((cfg3.win 4).blk t).view.emb (ix2 k q) = ix2 k ((((cfg3.win 10).blk t).view.emb (ix2 p q)) 1) := fun k => by
    funext a; apply Fin.ext
    match a with
    | ⟨0, _⟩ => show win3_4.index t (0 : Fin 2) * 128 + 1 * k.val = k.val; omega
    | ⟨1, _⟩ => show win3_4.index t (1 : Fin 2) * 128 + 1 * q.val = win3_10.index t (1 : Fin 2) * 128 + 1 * q.val; omega
  have hw : ∀ k : Fin 128, ((cfg3.win 7).blk t).view.emb (ix2 k q) = ix2 k ((((cfg3.win 10).blk t).view.emb (ix2 p q)) 1) := fun k => by
    funext a; apply Fin.ext
    match a with
    | ⟨0, _⟩ => show win3_7.index t (0 : Fin 2) * 128 + 1 * k.val = k.val; omega
    | ⟨1, _⟩ => show win3_7.index t (1 : Fin 2) * 128 + 1 * q.val = win3_10.index t (1 : Fin 2) * 128 + 1 * q.val; omega
  have hb : ((cfg3.win 8).blk t).view.emb (ix2 (0 : Fin 1) q) = ix2 (0 : Fin 1) ((((cfg3.win 10).blk t).view.emb (ix2 p q)) 1) := by
    funext a; apply Fin.ext
    match a with
    | ⟨0, _⟩ => show win3_8.index t (0 : Fin 2) * 1 + 1 * 0 = 0; omega
    | ⟨1, _⟩ => show win3_8.index t (1 : Fin 2) * 128 + 1 * q.val = win3_10.index t (1 : Fin 2) * 128 + 1 * q.val; omega
  exact Cert.Proj.masked_congr (n := 1000) (n' := 5000) (k := 128) (d := 128) (iblk3 V c 0 t) (iblk3 V c 1 t) (iblk3 V c 2 t) (iblk3 V c 3 t) (iblk3 V c 4 t) (iblk3 V c 7 t) (iblk3 V c 8 t)
    (V c main_v81) (V c main_v3) (V c main_v7) (V c main_arg40) (V c main_arg41) (V c main_arg38) (V c main_v87) p q (((cfg3.win 10).blk t).view.emb (ix2 p q))
    (fun k => congrArg (V c main_v81) (hx k)) (congrArg (V c main_v3) hpos) (congrArg (V c main_v7) hneg)
    (fun k => congrArg (V c main_arg40) (hc k)) (fun k => congrArg (V c main_arg41) (hn k)) (fun k => congrArg (V c main_arg38) (hw k)) (congrArg (V c main_v87) hb)

/-- An index of the output array is in point t's block iff each coordinate is in the block's range on its axis. -/
theorem mem_block10 (t : Fin cfg3.N) (i : S5000x128.Idx) :
    i ∈ ((cfg3.win 10).blk t).view.set ↔ ∀ a : Fin 2, win3_10.index t a * S1000x128.size a ≤ (i a).val ∧ (i a).val < win3_10.index t a * S1000x128.size a + S1000x128.size a := by
  show i ∈ ((View.whole main_v88_1).slice (win3_10.rect t)).set ↔ _
  rw [View.set_slice_whole, Rect.mem_set_unit]
  exact Iff.rfl

/-- Row r of the output lies in the block of the point whose block row is r / 1000: the tiles cover the array. -/
theorem cover10 (i : S5000x128.Idx) : ∃ t : Fin cfg3.N, (cfg3.win 10).flush t = true ∧ i ∈ ((cfg3.win 10).blk t).view.set := by
  have hi0 : (i 0).val < 5000 := (i 0).isLt
  have hi1 : (i 1).val < 128 := (i 1).isLt
  obtain ⟨t, ht⟩ := block_row_onto10 ⟨(i 0).val / 1000, by omega⟩
  have q0 : win3_10.index t (0 : Fin 2) = (i 0).val / 1000 := congrFun ht 0
  have q1 : win3_10.index t (1 : Fin 2) = 0 := congrFun ht 1
  refine ⟨t, flush3_10 t, ?_⟩
  rw [mem_block10]
  intro a
  match a with
  | ⟨0, _⟩ => show win3_10.index t (0 : Fin 2) * 1000 ≤ (i 0).val ∧ (i 0).val < win3_10.index t (0 : Fin 2) * 1000 + 1000; omega
  | ⟨1, _⟩ => show win3_10.index t (1 : Fin 2) * 128 ≤ (i 1).val ∧ (i 1).val < win3_10.index t (1 : Fin 2) * 128 + 128; omega

/-- The output array after the region: the masked projection of the arrays the region was entered with. -/
theorem array10 (c : Dev nD) :
    (dat3 V c).arrAt 10 cfg3.N = Cert.Proj.masked (V c main_v81) (V c main_v3) (V c main_v7) (V c main_arg40) (V c main_arg41) (V c main_arg38) (V c main_v87) :=
  (dat3 V c).arrAt_eq_of_cover 10 _ (fun t _ => flushed10 V c t) (cover10)

end Cert.KernelIdeal.TopicTiles2

end
-- ==== Proof.WordTiles1.lean ====
/-
  Region 0 of the kernel: the word rows' dense projections, one grid point per tile of 2000 rows.

  Point t stages rows 2000·t … 2000·t + 1999 of the row matrix, the weight matrices and bias rows whole, computes each
  projection of the tile from the tile's own rows, and writes it back to the same rows of its output. A dense
  projection's row p depends on row p of its input alone, so what point t writes back is rows 2000·t … of the dense
  projection of the whole matrix; the 25 tiles cover all 50000 rows, so each output array ends as that
  projection of the arrays the region was entered with.
-/
import proofs.«111394_j56581899157988_1_alg».proof.Proof.Gen.KernelIdeal.Frame
import proofs.«111394_j56581899157988_1_alg».proof.Proof.Proj

set_option maxRecDepth 16384

noncomputable section

open scoped BigOperators

namespace Cert.KernelIdeal.WordTiles1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row matrix's and the outputs' blocks in one block row, every
    weight matrix and bias row at the origin (decided over the 25 points). -/
theorem block_rows : ∀ t : Fin cfg0.N,
    win0_0.index t (0 : Fin 2) = win0_5.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_6.index t (0 : Fin 2) = win0_5.index t (0 : Fin 2)
    ∧ win0_5.index t (1 : Fin 2) = 0
    ∧ win0_6.index t (1 : Fin 2) = 0 :=
  (by decide +kernel : ∀ t : Fin grid0.N, _)

/-! ## Output window 5 -/

/-- Every block row is some point's. -/
theorem block_row_onto5 : ∀ r : Fin 25, ∃ t : Fin cfg0.N, win0_5.index t = ![r.val, 0] :=
  (by decide +kernel : ∀ r : Fin 25, ∃ t : Fin grid0.N, win0_5.index t = ![r.val, 0])

/-- The tile's projection at an entry is the dense projection of the tile. -/
theorem tile5 (x0 : Vec Ideal S2000x256 .f32) (x1 : Vec Ideal S256x128 .f32) (x2 : Vec Ideal S1x128 .f32) (p : Fin 2000) (q : Fin 128) :
    k0_pay2 x0 x1 x2 (ix2 p q) = Cert.Proj.dense x0 x1 x2 (ix2 p q) := by
  unfold k0_pay2 k0_pay1
  exact Cert.Proj.tile_dense_apply dot_S2000x256_S256x128_S2000x128_1_0_0_1_n_n rfl none x0 x1 x2 bitsLt_bf16_f32 shapeCasts_S1x128_S1x128 broadcasts_S1x128_S2000x128 p q

/-- What point t writes back is its block of the dense projection of the whole arrays. -/
theorem flushed5 (c : Dev nD) (t : Fin cfg0.N) :
    (dat0 V c).flushed 5 t = ((cfg0.win 5).blk t).view.read (Elt Ideal)
      (Cert.Proj.dense (V c main_arg0) (V c main_arg18) (V c main_v8)) := by
  show (cfg0.win 5).cut (grid0.coords t) ((dat0 V c).after 5 t) = _
  rw [after0_5]
  unfold out0_5
  rw [View.canon_unit_zero origin]
  simp only [View.ld_unit_zero (S := S2000x256) origin, View.ld_unit_zero (S := S256x128) origin, View.ld_unit_zero (S := S1x128) origin]
  obtain ⟨e0, e1, e2, e3, e4, e5, e6, e7, e8, e9, e10, e11, e12⟩ := block_rows t
  funext j
  obtain ⟨p, q, rfl⟩ : ∃ (p : Fin 2000) (q : Fin 128), j = ix2 p q := ⟨j 0, j 1, eq_ix2 j⟩
  refine (tile5 (iblk0 V c 0 t) (iblk0 V c 1 t) (iblk0 V c 2 t) p q).trans ?_
  have hx : ∀ k : Fin 256, ((cfg0.win 0).blk t).view.emb (ix2 p k) = ix2 ((((cfg0.win 5).blk t).view.emb (ix2 p q)) 0) k := fun k => by
    funext a; apply Fin.ext
    match a with
    | ⟨0, _⟩ => show win0_0.index t (0 : Fin 2) * 2000 + 1 * p.val = win0_5.index t (0 : Fin 2) * 2000 + 1 * p.val; omega
    | ⟨1, _⟩ => show win0_0.index t (1 : Fin 2) * 256 + 1 * k.val = k.val; omega
  have hw : ∀ k : Fin 256, ((cfg0.win 1).blk t).view.emb (ix2 k q) = ix2 k ((((cfg0.win 5).blk t).view.emb (ix2 p q)) 1) := fun k => by
    funext a; apply Fin.ext
    match a with
    | ⟨0, _⟩ => show win0_1.index t (0 : Fin 2) * 256 + 1 * k.val = k.val; omega
    | ⟨1, _⟩ => show win0_1.index t (1 : Fin 2) * 128 + 1 * q.val = win0_5.index t (1 : Fin 2) * 128 + 1 * q.val; omega
  have hb : ((cfg0.win 2).blk t).view.emb (ix2 (0 : Fin 1) q) = ix2 (0 : Fin 1) ((((cfg0.win 5).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_5.index t (1 : Fin 2) * 128 + 1 * q.val; omega
  exact Cert.Proj.dense_congr (n := 2000) (n' := 50000) (k := 256) (d := 128) (iblk0 V c 0 t) (iblk0 V c 1 t) (iblk0 V c 2 t)
    (V c main_arg0) (V c main_arg18) (V c main_v8) p q (((cfg0.win 5).blk t).view.emb (ix2 p q))
    (fun k => congrArg (V c main_arg0) (hx k)) (fun k => congrArg (V c main_arg18) (hw k)) (congrArg (V c main_v8) hb)

/-- An index of the output array is in point t's block iff each coordinate is in the block's range on its axis. -/
theorem mem_block5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v10_0).slice (win0_5.rect t)).set ↔ _
  rw [View.set_slice_whole, Rect.mem_set_unit]
  exact Iff.rfl

/-- Row r of the output lies in the block of the point whose block row is r / 2000: the tiles cover the array. -/
theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := block_row_onto5 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the region: the dense projection of the arrays the region was entered with. -/
theorem array5 (c : Dev nD) :
    (dat0 V c).arrAt 5 cfg0.N = Cert.Proj.dense (V c main_arg0) (V c main_arg18) (V c main_v8) :=
  (dat0 V c).arrAt_eq_of_cover 5 _ (fun t _ => flushed5 V c t) (cover5)

/-! ## Output window 6 -/

/-- Every block row is some point's. -/
theorem block_row_onto6 : ∀ r : Fin 25, ∃ t : Fin cfg0.N, win0_6.index t = ![r.val, 0] :=
  (by decide +kernel : ∀ r : Fin 25, ∃ t : Fin grid0.N, win0_6.index t = ![r.val, 0])

/-- The tile's projection at an entry is the dense projection of the tile. -/
theorem tile6 (x0 : Vec Ideal S2000x256 .f32) (x1 : Vec Ideal S256x128 .f32) (x2 : Vec Ideal S1x128 .f32) (p : Fin 2000) (q : Fin 128) :
    k0_pay3 x0 x1 x2 (ix2 p q) = Cert.Proj.dense x0 x1 x2 (ix2 p q) := by
  unfold k0_pay3 k0_pay1
  exact Cert.Proj.tile_dense_apply dot_S2000x256_S256x128_S2000x128_1_0_0_1_n_n rfl none x0 x1 x2 bitsLt_bf16_f32 shapeCasts_S1x128_S1x128 broadcasts_S1x128_S2000x128 p q

/-- What point t writes back is its block of the dense projection of the whole arrays. -/
theorem flushed6 (c : Dev nD) (t : Fin cfg0.N) :
    (dat0 V c).flushed 6 t = ((cfg0.win 6).blk t).view.read (Elt Ideal)
      (Cert.Proj.dense (V c main_arg0) (V c main_arg20) (V c main_v9)) := by
  show (cfg0.win 6).cut (grid0.coords t) ((dat0 V c).after 6 t) = _
  rw [after0_6]
  unfold out0_6
  rw [View.canon_unit_zero origin]
  simp only [View.ld_unit_zero (S := S2000x256) origin, View.ld_unit_zero (S := S256x128) origin, View.ld_unit_zero (S := S1x128) origin]
  obtain ⟨e0, e1, e2, e3, e4, e5, e6, e7, e8, e9, e10, e11, e12⟩ := block_rows t
  funext j
  obtain ⟨p, q, rfl⟩ : ∃ (p : Fin 2000) (q : Fin 128), j = ix2 p q := ⟨j 0, j 1, eq_ix2 j⟩
  refine (tile6 (iblk0 V c 0 t) (iblk0 V c 3 t) (iblk0 V c 4 t) p q).trans ?_
  have hx : ∀ k : Fin 256, ((cfg0.win 0).blk t).view.emb (ix2 p k) = ix2 ((((cfg0.win 6).blk t).view.emb (ix2 p q)) 0) k := fun k => by
    funext a; apply Fin.ext
    match a with
    | ⟨0, _⟩ => show win0_0.index t (0 : Fin 2) * 2000 + 1 * p.val = win0_6.index t (0 : Fin 2) * 2000 + 1 * p.val; omega
    | ⟨1, _⟩ => show win0_0.index t (1 : Fin 2) * 256 + 1 * k.val = k.val; omega
  have hw : ∀ k : Fin 256, ((cfg0.win 3).blk t).view.emb (ix2 k q) = ix2 k ((((cfg0.win 6).blk t).view.emb (ix2 p q)) 1) := fun k => by
    funext a; apply Fin.ext
    match a with
    | ⟨0, _⟩ => show win0_3.index t (0 : Fin 2) * 256 + 1 * k.val = k.val; omega
    | ⟨1, _⟩ => show win0_3.index t (1 : Fin 2) * 128 + 1 * q.val = win0_6.index t (1 : Fin 2) * 128 + 1 * q.val; omega
  have hb : ((cfg0.win 4).blk t).view.emb (ix2 (0 : Fin 1) q) = ix2 (0 : Fin 1) ((((cfg0.win 6).blk t).view.emb (ix2 p q)) 1) := by
    funext a; apply Fin.ext
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega
  exact Cert.Proj.dense_congr (n := 2000) (n' := 50000) (k := 256) (d := 128) (iblk0 V c 0 t) (iblk0 V c 3 t) (iblk0 V c 4 t)
    (V c main_arg0) (V c main_arg20) (V c main_v9) p q (((cfg0.win 6).blk t).view.emb (ix2 p q))
    (fun k => congrArg (V c main_arg0) (hx k)) (fun k => congrArg (V c main_arg20) (hw k)) (congrArg (V c main_v9) hb)

/-- An index of the output array is in point t's block iff each coordinate is in the block's range on its axis. -/
theorem mem_block6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v10_1).slice (win0_6.rect t)).set ↔ _
  rw [View.set_slice_whole, Rect.mem_set_unit]
  exact Iff.rfl

/-- Row r of the output lies in the block of the point whose block row is r / 2000: the tiles cover the array. -/
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := block_row_onto6 ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_block6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after the region: the dense projection of the arrays the region was entered with. -/
theorem array6 (c : Dev nD) :
    (dat0 V c).arrAt 6 cfg0.N = Cert.Proj.dense (V c main_arg0) (V c main_arg20) (V c main_v9) :=
  (dat0 V c).arrAt_eq_of_cover 6 _ (fun t _ => flushed6 V c t) (cover6)

end Cert.KernelIdeal.WordTiles1

end
-- ==== Proof.TopicTiles1.lean ====
/-
  Region 1 of the kernel: the topic rows' masked projections, one grid point per tile of 1000 rows.

  Point t stages rows 1000·t … 1000·t + 999 of the row matrix and of the two one-column arrays of row weights, and every
  weight matrix and bias row whole. Each output's tile is the dense projection of the tile plus the masked term, in
  which row p is scaled by its own two weights before the two products: both depend on row p of the staged tile
  alone. So what point t writes back is rows 1000·t … of the masked projection of the whole arrays, and the 5 tiles
  cover all 5000 rows: each output array ends as that projection of the arrays the region was entered with.
-/
import proofs.«111394_j56581899157988_1_alg».proof.Proof.Gen.KernelIdeal.Frame
import proofs.«111394_j56581899157988_1_alg».proof.Proof.Proj

set_option maxRecDepth 16384

noncomputable section

open scoped BigOperators

namespace Cert.KernelIdeal.TopicTiles1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row matrix's, the row weights' and the outputs' blocks in one block
    row, every weight matrix and bias row at the origin (decided over the 5 points). -/
theorem block_rows : ∀ t : Fin cfg1.N,
    win1_0.index t (0 : Fin 2) = win1_7.index t (0 : Fin 2)
    ∧ win1_0.index t (1 : Fin 2) = 0
    ∧ win1_1.index t (0 : Fin 2) = win1_7.index t (0 : Fin 2)
    ∧ win1_1.index t (1 : Fin 2) = 0
    ∧ win1_2.index t (0 : Fin 2) = win1_7.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (1 : Fin 2) = 0 :=
  (by decide +kernel : ∀ t : Fin grid1.N, _)

/-! ## Output window 7 -/

/-- Every block row is some point's. -/
theorem block_row_onto7 : ∀ r : Fin 5, ∃ t : Fin cfg1.N, win1_7.index t = ![r.val, 0] :=
  (by decide +kernel : ∀ r : Fin 5, ∃ t : Fin grid1.N, win1_7.index t = ![r.val, 0])

/-- The tile's output at an entry is the masked projection of the tile: its dense part plus its masked term. -/
theorem tile7 (x0 : Vec Ideal S1000x128 .f32) (x1 x2 : Vec Ideal S1000x1 .f32) (x3 x4 xw : Vec Ideal S128x128 .f32) (xb : Vec Ideal S1x128 .f32)
    (p : Fin 1000) (q : Fin 128) :
    k1_pay1 x0 x1 x2 x3 x4 xw xb (ix2 p q) = Cert.Proj.masked x0 x1 x2 x3 x4 xw xb (ix2 p q) := by
  unfold k1_pay1
  rw [addf_apply]
  refine (congrArg₂ (· + ·)
    (Cert.Proj.tile_dense_apply dot_S1000x128_S128x128_S1000x128_1_0_0_1_n_n rfl none x0 xw xb bitsLt_bf16_f32 shapeCasts_S1x128_S1x128 broadcasts_S1x128_S1000x128 p q)
    (Cert.Proj.tile_extra_apply dot_S1000x128_S128x128_S1000x128_1_0_0_1_n_n rfl none x0 x1 x2 x3 x4 bitsLt_bf16_f32 shapeCasts_S1000x1_S1000x1 broadcasts_S1000x1_S1000x128 p q)).trans ?_
  rfl

/-- What point t writes back is its block of the masked projection of the whole arrays. -/
theorem flushed7 (c : Dev nD) (t : Fin cfg1.N) :
    (dat1 V c).flushed 7 t = ((cfg1.win 7).blk t).view.read (Elt Ideal)
      (Cert.Proj.masked (V c main_arg1) (V c main_v3) (V c main_v7) (V c main_arg28) (V c main_arg29) (V c main_arg24) (V c main_v11)) := by
  show (cfg1.win 7).cut (grid1.coords t) ((dat1 V c).after 7 t) = _
  rw [after1_7]
  unfold out1_7
  rw [View.canon_unit_zero origin]
  simp only [View.ld_unit_zero (S := S1000x128) origin, View.ld_unit_zero (S := S1000x1) origin, View.ld_unit_zero (S := S128x128) origin, View.ld_unit_zero (S := S1x128) origin]
  obtain ⟨e0, e1, e2, e3, e4, e5, e6, e7, e8, e9, e10, e11, e12, e13, e14⟩ := block_rows t
  funext j
  obtain ⟨p, q, rfl⟩ : ∃ (p : Fin 1000) (q : Fin 128), j = ix2 p q := ⟨j 0, j 1, eq_ix2 j⟩
  refine (tile7 (iblk1 V c 0 t) (iblk1 V c 1 t) (iblk1 V c 2 t) (iblk1 V c 3 t) (iblk1 V c 4 t) (iblk1 V c 5 t) (iblk1 V c 6 t) p q).trans ?_
  have hx : ∀ k : Fin 128, ((cfg1.win 0).blk t).view.emb (ix2 p k) = ix2 ((((cfg1.win 7).blk t).view.emb (ix2 p q)) 0) k := fun k => by
    funext a; apply Fin.ext
    match a with
    | ⟨0, _⟩ => show win1_0.index t (0 : Fin 2) * 1000 + 1 * p.val = win1_7.index t (0 : Fin 2) * 1000 + 1 * p.val; omega
    | ⟨1, _⟩ => show win1_0.index t (1 : Fin 2) * 128 + 1 * k.val = k.val; omega
  have hpos : ((cfg1.win 1).blk t).view.emb (ix2 p (0 : Fin 1)) = ix2 ((((cfg1.win 7).blk t).view.emb (ix2 p q)) 0) (0 : Fin 1) := by
    funext a; apply Fin.ext
    match a with
    | ⟨0, _⟩ => show win1_1.index t (0 : Fin 2) * 1000 + 1 * p.val = win1_7.index t (0 : Fin 2) * 1000 + 1 * p.val; omega
    | ⟨1, _⟩ => show win1_1.index t (1 : Fin 2) * 1 + 1 * 0 = 0; omega
  have hneg : ((cfg1.win 2).blk t).view.emb (ix2 p (0 : Fin 1)) = ix2 ((((cfg1.win 7).blk t).view.emb (ix2 p q)) 0) (0 : Fin 1) := by
    funext a; apply Fin.ext
    match a with
    | ⟨0, _⟩ => show win1_2.index t (0 : Fin 2) * 1000 + 1 * p.val = win1_7.index t (0 : Fin 2) * 1000 + 1 * p.val; omega
    | ⟨1, _⟩ => show win1_2.index t (1 : Fin 2) * 1 + 1 * 0 = 0; omega
  have hc : ∀ k : Fin 128, ((cfg1.win 3).blk t).view.emb (ix2 k q) = ix2 k ((((cfg1.win 7).blk t).view.emb (ix2 p q)) 1) := fun k => by
    funext a; apply Fin.ext
    match a with
    | ⟨0, _⟩ => show win1_3.index t (0 : Fin 2) * 128 + 1 * k.val = k.val; omega
    | ⟨1, _⟩ => show win1_3.index t (1 : Fin 2) * 128 + 1 * q.val = win1_7.index t (1 : Fin 2) * 128 + 1 * q.val; omega
  have hn : ∀ k : Fin 128, ((cfg1.win 4).blk t).view.emb (ix2 k q) = ix2 k ((((cfg1.win 7).blk t).view.emb (ix2 p q)) 1) := fun k => by
    funext a; apply Fin.ext
    match a with
    | ⟨0, _⟩ => show win1_4.index t (0 : Fin 2) * 128 + 1 * k.val = k.val; omega
    | ⟨1, _⟩ => show win1_4.index t (1 : Fin 2) * 128 + 1 * q.val = win1_7.index t (1 : Fin 2) * 128 + 1 * q.val; omega
  have hw : ∀ k : Fin 128, ((cfg1.win 5).blk t).view.emb (ix2 k q) = ix2 k ((((cfg1.win 7).blk t).view.emb (ix2 p q)) 1) := fun k => by
    funext a; apply Fin.ext
    match a with
    | ⟨0, _⟩ => show win1_5.index t (0 : Fin 2) * 128 + 1 * k.val = k.val; omega
    | ⟨1, _⟩ => show win1_5.index t (1 : Fin 2) * 128 + 1 * q.val = win1_7.index t (1 : Fin 2) * 128 + 1 * q.val; omega
  have hb : ((cfg1.win 6).blk t).view.emb (ix2 (0 : Fin 1) q) = ix2 (0 : Fin 1) ((((cfg1.win 7).blk t).view.emb (ix2 p q)) 1) := by
    funext a; apply Fin.ext
    match a with
    | ⟨0, _⟩ => show win1_6.index t (0 : Fin 2) * 1 + 1 * 0 = 0; omega
    | ⟨1, _⟩ => show win1_6.index t (1 : Fin 2) * 128 + 1 * q.val = win1_7.index t (1 : Fin 2) * 128 + 1 * q.val; omega
  exact Cert.Proj.masked_congr (n := 1000) (n' := 5000) (k := 128) (d := 128) (iblk1 V c 0 t) (iblk1 V c 1 t) (iblk1 V c 2 t) (iblk1 V c 3 t) (iblk1 V c 4 t) (iblk1 V c 5 t) (iblk1 V c 6 t)
    (V c main_arg1) (V c main_v3) (V c main_v7) (V c main_arg28) (V c main_arg29) (V c main_arg24) (V c main_v11) p q (((cfg1.win 7).blk t).view.emb (ix2 p q))
    (fun k => congrArg (V c main_arg1) (hx k)) (congrArg (V c main_v3) hpos) (congrArg (V c main_v7) hneg)
    (fun k => congrArg (V c main_arg28) (hc k)) (fun k => congrArg (V c main_arg29) (hn k)) (fun k => congrArg (V c main_arg24) (hw k)) (congrArg (V c main_v11) hb)

/-- An index of the output array is in point t's block iff each coordinate is in the block's range on its axis. -/
theorem mem_block7 (t : Fin cfg1.N) (i : S5000x128.Idx) :
    i ∈ ((cfg1.win 7).blk t).view.set ↔ ∀ a : Fin 2, win1_7.index t a * S1000x128.size a ≤ (i a).val ∧ (i a).val < win1_7.index t a * S1000x128.size a + S1000x128.size a := by
  show i ∈ ((View.whole main_v12).slice (win1_7.rect t)).set ↔ _
  rw [View.set_slice_whole, Rect.mem_set_unit]
  exact Iff.rfl

/-- Row r of the output lies in the block of the point whose block row is r / 1000: the tiles cover the array. -/
theorem cover7 (i : S5000x128.Idx) : ∃ t : Fin cfg1.N, (cfg1.win 7).flush t = true ∧ i ∈ ((cfg1.win 7).blk t).view.set := by
  have hi0 : (i 0).val < 5000 := (i 0).isLt
  have hi1 : (i 1).val < 128 := (i 1).isLt
  obtain ⟨t, ht⟩ := block_row_onto7 ⟨(i 0).val / 1000, by omega⟩
  have q0 : win1_7.index t (0 : Fin 2) = (i 0).val / 1000 := congrFun ht 0
  have q1 : win1_7.index t (1 : Fin 2) = 0 := congrFun ht 1
  refine ⟨t, flush1_7 t, ?_⟩
  rw [mem_block7]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 128 ≤ (i 1).val ∧ (i 1).val < win1_7.index t (1 : Fin 2) * 128 + 128; omega

/-- The output array after the region: the masked projection of the arrays the region was entered with. -/
theorem array7 (c : Dev nD) :
    (dat1 V c).arrAt 7 cfg1.N = Cert.Proj.masked (V c main_arg1) (V c main_v3) (V c main_v7) (V c main_arg28) (V c main_arg29) (V c main_arg24) (V c main_v11) :=
  (dat1 V c).arrAt_eq_of_cover 7 _ (fun t _ => flushed7 V c t) (cover7)

end Cert.KernelIdeal.TopicTiles1

end
-- ==== Proof.Layer1.lean ====
/-
  What the first layer leaves in the kernel's buffers.

  Before the first region the host computes the two indicator columns of the effect's sign and recasts two biases to
  rows; region 0 leaves the two dense projections of the word rows; after one more recast, region 1 leaves the masked
  projection of the topic rows; the host then aggregates along the word–word edges into the word rows and along the
  word–topic and topic–topic edges into the topic rows, and clips both at zero. Each buffer is read where it was
  written: a host result is its operation of its operands, a region's output is the projection of the arrays the
  region was entered with, and everything else is carried from where it was last written. The host's aggregation
  stretch is the reference's, operation for operation, so it is the stage function aggW, resp. aggT, of the projections.
-/
import proofs.«111394_j56581899157988_1_alg».proof.Proof.Gen.KernelIdeal.Frame
import proofs.«111394_j56581899157988_1_alg».proof.Proof.LibHostKeeps
import proofs.«111394_j56581899157988_1_alg».proof.Proof.LibReadLine
import proofs.«111394_j56581899157988_1_alg».proof.Proof.Keep
import proofs.«111394_j56581899157988_1_alg».proof.Proof.Spec
import proofs.«111394_j56581899157988_1_alg».proof.Proof.SpecAt
import proofs.«111394_j56581899157988_1_alg».proof.Proof.WordTiles1
import proofs.«111394_j56581899157988_1_alg».proof.Proof.TopicTiles1

set_option maxRecDepth 16384

noncomputable section

namespace Cert.KernelIdeal.Layer1

open Cert.KernelIdeal Cert.KernelIdeal.Gen Cert.LibHostKeeps
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The indicator column of a positive effect, at region 0's entry. -/
theorem pos_at1 (c : Dev nD) : W1 m ρ c (Proc.devRef .tc main_v3) = Cert.Spec.posOf (m ((c : Thread nD τ).loc main_arg2)) := by
  show StableHlo.after hostOps0 (W0 m ρ c) (Proc.devRef .tc main_v3) = _
  read_line
  rfl

/-- The indicator column of a negative effect, at region 0's entry. -/
theorem neg_at1 (c : Dev nD) : W1 m ρ c (Proc.devRef .tc main_v7) = Cert.Spec.negOf (m ((c : Thread nD τ).loc main_arg2)) := by
  show StableHlo.after hostOps0 (W0 m ρ c) (Proc.devRef .tc main_v7) = _
  read_line
  rfl

/-- The bias recast to one row. -/
theorem bias19_at1 (c : Dev nD) : W1 m ρ c (Proc.devRef .tc main_v8) = shapeCast S1x128 (m ((c : Thread nD τ).loc main_arg19)) shapeCasts_S128_S1x128 := by
  show StableHlo.after hostOps0 (W0 m ρ c) (Proc.devRef .tc main_v8) = _
  read_line
  rfl

/-- The bias recast to one row. -/
theorem bias21_at1 (c : Dev nD) : W1 m ρ c (Proc.devRef .tc main_v9) = shapeCast S1x128 (m ((c : Thread nD τ).loc main_arg21)) shapeCasts_S128_S1x128 := by
  show StableHlo.after hostOps0 (W0 m ρ c) (Proc.devRef .tc main_v9) = _
  read_line
  rfl

/-- The bias recast to one row. -/
theorem bias25_at3 (c : Dev nD) : W3 m ρ c (Proc.devRef .tc main_v11) = shapeCast S1x128 (m ((c : Thread nD τ).loc main_arg25)) shapeCasts_S128_S1x128 := by
  show StableHlo.after hostOps1 (W2 m ρ c) (Proc.devRef .tc main_v11) = _
  read_line
  rw [Keep.arg25_at2 m ρ c]
  rfl

/-- Region 0's first output: the word rows' projection for the word–word edges. -/
theorem ww1 (c : Dev nD) : W2 m ρ c (Proc.devRef .tc main_v10_0) = Cert.Spec.denseW1 (m ((c : Thread nD τ).loc main_arg0)) (m ((c : Thread nD τ).loc main_arg18)) (m ((c : Thread nD τ).loc main_arg19)) := by
  refine (W2_arr m ρ c 5).trans ((Cert.KernelIdeal.WordTiles1.array5 (V1 m ρ) c).trans ?_)
  show Cert.Proj.dense (W1 m ρ c (Proc.devRef .tc main_arg0)) (W1 m ρ c (Proc.devRef .tc main_arg18)) (W1 m ρ c (Proc.devRef .tc main_v8)) = _
  rw [Keep.arg0_at1 m ρ c, Keep.arg18_at1 m ρ c, bias19_at1 m ρ c]
  exact (Cert.SpecAt.denseW1_eq _ _ _ _).symm

/-- Region 0's second output: the word rows' projection for the word–topic edges. -/
theorem wt1 (c : Dev nD) : W2 m ρ c (Proc.devRef .tc main_v10_1) = Cert.Spec.denseW1 (m ((c : Thread nD τ).loc main_arg0)) (m ((c : Thread nD τ).loc main_arg20)) (m ((c : Thread nD τ).loc main_arg21)) := by
  refine (W2_arr m ρ c 6).trans ((Cert.KernelIdeal.WordTiles1.array6 (V1 m ρ) c).trans ?_)
  show Cert.Proj.dense (W1 m ρ c (Proc.devRef .tc main_arg0)) (W1 m ρ c (Proc.devRef .tc main_arg20)) (W1 m ρ c (Proc.devRef .tc main_v9)) = _
  rw [Keep.arg0_at1 m ρ c, Keep.arg20_at1 m ρ c, bias21_at1 m ρ c]
  exact (Cert.SpecAt.denseW1_eq _ _ _ _).symm

/-- Region 1's output: the topic rows' masked projection for the topic–topic edges. -/
theorem tt1 (c : Dev nD) : W4 m ρ c (Proc.devRef .tc main_v12)
    = Cert.Spec.topicP (m ((c : Thread nD τ).loc main_arg1)) (Cert.Spec.posOf (m ((c : Thread nD τ).loc main_arg2))) (Cert.Spec.negOf (m ((c : Thread nD τ).loc main_arg2))) (m ((c : Thread nD τ).loc main_arg28)) (m ((c : Thread nD τ).loc main_arg29)) (m ((c : Thread nD τ).loc main_arg24)) (m ((c : Thread nD τ).loc main_arg25)) := by
  refine (W4_arr m ρ c 7).trans ((Cert.KernelIdeal.TopicTiles1.array7 (V3 m ρ) c).trans ?_)
  show Cert.Proj.masked (W3 m ρ c (Proc.devRef .tc main_arg1)) (W3 m ρ c (Proc.devRef .tc main_v3)) (W3 m ρ c (Proc.devRef .tc main_v7))
      (W3 m ρ c (Proc.devRef .tc main_arg28)) (W3 m ρ c (Proc.devRef .tc main_arg29)) (W3 m ρ c (Proc.devRef .tc main_arg24)) (W3 m ρ c (Proc.devRef .tc main_v11)) = _
  rw [Keep.arg1_at3 m ρ c, Keep.v3_at3_from1 m ρ c, Keep.v7_at3_from1 m ρ c, pos_at1 m ρ c, neg_at1 m ρ c,
    Keep.arg28_at3 m ρ c, Keep.arg29_at3 m ρ c, Keep.arg24_at3 m ρ c, bias25_at3 m ρ c]
  exact (Cert.SpecAt.topicP_eq _ _ _ _ _ _ _ _).symm

set_option maxHeartbeats 4000000 in
/-- The word–word mean of the first layer's projection, before clipping: the host's stretch is the reference's. -/
theorem mean_w1 (c : Dev nD) : W5 m ρ c (Proc.devRef .tc main_v34) = Cert.Spec.meanW (W4 m ρ c (Proc.devRef .tc main_v10_0)) (W4 m ρ c (Proc.devRef .tc main_arg3)) (W4 m ρ c (Proc.devRef .tc main_arg4)) (W4 m ρ c (Proc.devRef .tc main_arg5)) := by
  show StableHlo.after hostOps2 (W4 m ρ c) (Proc.devRef .tc main_v34) = _
  read_line
  rfl

/-- The clip at zero of the word rows. -/
theorem relu_w1 (c : Dev nD) : W6 m ρ c (Proc.devRef .tc main_v80) = maximumf (W5 m ρ c (Proc.devRef .tc main_v34)) (broadcastInDim S50000x128 ![] bcast_S_S50000x128 (constant (F := Ideal) S_ .f32 0x00000000#32)) := by
  show StableHlo.after hostOps2_1 (W5 m ρ c) (Proc.devRef .tc main_v80)
    = maximumf (W5 m ρ c (Proc.devRef .tc main_v34)) (broadcastInDim S50000x128 ![] bcast_S_S50000x128 (constant (F := Ideal) S_ .f32 0x00000000#32))
  generalize W5 m ρ c = Wv
  read_line
  simp only [StableHlo.TRef.toBuf, StableHlo.TRef.ofBuf]
  refine eq_of_heq ((cast_heq _ _).trans (heq_of_eq ?_))
  refine congrArg₂ maximumf (eq_of_heq (cast_heq _ _)) ?_
  refine eq_of_heq ((cast_heq _ _).trans ((cast_heq _ _).trans (heq_of_eq ?_)))
  exact congrArg _ (eq_of_heq ((cast_heq _ _).trans (cast_heq _ _)))

/-- The word rows after the first layer: the word–word aggregation of their projection, clipped at zero. -/
theorem hw (c : Dev nD) : W8 m ρ c (Proc.devRef .tc main_v80) = Cert.Spec.aggW (Cert.Spec.denseW1 (m ((c : Thread nD τ).loc main_arg0)) (m ((c : Thread nD τ).loc main_arg18)) (m ((c : Thread nD τ).loc main_arg19))) (m ((c : Thread nD τ).loc main_arg3)) (m ((c : Thread nD τ).loc main_arg4)) (m ((c : Thread nD τ).loc main_arg5)) := by
  rw [Keep.v80_at8_from6 m ρ c, relu_w1 m ρ c, mean_w1 m ρ c, Keep.v10_0_at4_from2 m ρ c, ww1 m ρ c, Keep.arg3_at4 m ρ c, Keep.arg4_at4 m ρ c, Keep.arg5_at4 m ρ c]
  rfl

set_option maxHeartbeats 4000000 in
/-- The word–topic and topic–topic means of the first layer's projections, summed, before clipping. -/
theorem mean_t1 (c : Dev nD) : W5 m ρ c (Proc.devRef .tc main_v79) = Cert.Spec.meanT (W4 m ρ c (Proc.devRef .tc main_v10_1)) (W4 m ρ c (Proc.devRef .tc main_v12)) (W4 m ρ c (Proc.devRef .tc main_arg6)) (W4 m ρ c (Proc.devRef .tc main_arg7)) (W4 m ρ c (Proc.devRef .tc main_arg8)) (W4 m ρ c (Proc.devRef .tc main_arg12)) (W4 m ρ c (Proc.devRef .tc main_arg13)) (W4 m ρ c (Proc.devRef .tc main_arg14)) := by
  show StableHlo.after hostOps2 (W4 m ρ c) (Proc.devRef .tc main_v79) = _
  read_line
  rfl

/-- The clip at zero of the topic rows. -/
theorem relu_t1 (c : Dev nD) : W7 m ρ c (Proc.devRef .tc main_v81) = maximumf (W6 m ρ c (Proc.devRef .tc main_v79)) (broadcastInDim S5000x128 ![] bcast_S_S5000x128 (constant (F := Ideal) S_ .f32 0x00000000#32)) := by
  show StableHlo.after hostOps2_2 (W6 m ρ c) (Proc.devRef .tc main_v81)
    = maximumf (W6 m ρ c (Proc.devRef .tc main_v79)) (broadcastInDim S5000x128 ![] bcast_S_S5000x128 (constant (F := Ideal) S_ .f32 0x00000000#32))
  generalize W6 m ρ c = Wv
  read_line
  simp only [StableHlo.TRef.toBuf, StableHlo.TRef.ofBuf]
  refine eq_of_heq ((cast_heq _ _).trans (heq_of_eq ?_))
  refine congrArg₂ maximumf (eq_of_heq (cast_heq _ _)) ?_
  refine eq_of_heq ((cast_heq _ _).trans ((cast_heq _ _).trans (heq_of_eq ?_)))
  exact congrArg _ (eq_of_heq ((cast_heq _ _).trans (cast_heq _ _)))

/-- The topic rows after the first layer: the two aggregations of the two projections, summed, clipped at zero. -/
theorem ht (c : Dev nD) : W8 m ρ c (Proc.devRef .tc main_v81) = Cert.Spec.aggT (Cert.Spec.denseW1 (m ((c : Thread nD τ).loc main_arg0)) (m ((c : Thread nD τ).loc main_arg20)) (m ((c : Thread nD τ).loc main_arg21))) (Cert.Spec.topicP (m ((c : Thread nD τ).loc main_arg1)) (Cert.Spec.posOf (m ((c : Thread nD τ).loc main_arg2))) (Cert.Spec.negOf (m ((c : Thread nD τ).loc main_arg2))) (m ((c : Thread nD τ).loc main_arg28)) (m ((c : Thread nD τ).loc main_arg29)) (m ((c : Thread nD τ).loc main_arg24)) (m ((c : Thread nD τ).loc main_arg25))) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) := by
  rw [Keep.v81_at8_from7 m ρ c, relu_t1 m ρ c, Keep.v79_at6_from5 m ρ c, mean_t1 m ρ c, Keep.v10_1_at4_from2 m ρ c, wt1 m ρ c, tt1 m ρ c, Keep.arg6_at4 m ρ c, Keep.arg7_at4 m ρ c, Keep.arg8_at4 m ρ c, Keep.arg12_at4 m ρ c, Keep.arg13_at4 m ρ c, Keep.arg14_at4 m ρ c]
  rfl

/-- The bias recast to one row. -/
theorem bias31_at8 (c : Dev nD) : W8 m ρ c (Proc.devRef .tc main_v82) = shapeCast S1x128 (m ((c : Thread nD τ).loc main_arg31)) shapeCasts_S128_S1x128 := by
  show StableHlo.after hostOps2_3 (W7 m ρ c) (Proc.devRef .tc main_v82) = _
  read_line
  rw [Keep.arg31_at4 m ρ c]
  rfl

/-- The bias recast to one row. -/
theorem bias33_at8 (c : Dev nD) : W8 m ρ c (Proc.devRef .tc main_v83) = shapeCast S1x128 (m ((c : Thread nD τ).loc main_arg33)) shapeCasts_S128_S1x128 := by
  show StableHlo.after hostOps2_3 (W7 m ρ c) (Proc.devRef .tc main_v83) = _
  read_line
  rw [Keep.arg33_at4 m ρ c]
  rfl

/-- The bias recast to one row. -/
theorem bias35_at8 (c : Dev nD) : W8 m ρ c (Proc.devRef .tc main_v84) = shapeCast S1x128 (m ((c : Thread nD τ).loc main_arg35)) shapeCasts_S128_S1x128 := by
  show StableHlo.after hostOps2_3 (W7 m ρ c) (Proc.devRef .tc main_v84) = _
  read_line
  rw [Keep.arg35_at4 m ρ c]
  rfl

end Cert.KernelIdeal.Layer1

end
-- ==== Proof.Layer2.lean ====
/-
  What the second layer leaves, and the kernel's three results.

  Region 2 leaves the three dense projections of the first layer's word rows, region 3 the two masked projections of
  its topic rows (their biases recast to rows by the host in between); the last host stretch aggregates along the five
  kinds of edges and clips at zero. Its operations are the reference's aggregation, operation for operation, so each
  result is the stage function of the projections that feed it: aggW for the word rows, aggT for the topic rows, aggD
  for the document rows.
-/
import proofs.«111394_j56581899157988_1_alg».proof.Proof.Gen.KernelIdeal.Frame
import proofs.«111394_j56581899157988_1_alg».proof.Proof.LibHostKeeps
import proofs.«111394_j56581899157988_1_alg».proof.Proof.LibReadLine
import proofs.«111394_j56581899157988_1_alg».proof.Proof.Keep
import proofs.«111394_j56581899157988_1_alg».proof.Proof.Spec
import proofs.«111394_j56581899157988_1_alg».proof.Proof.SpecAt
import proofs.«111394_j56581899157988_1_alg».proof.Proof.WordTiles2
import proofs.«111394_j56581899157988_1_alg».proof.Proof.TopicTiles2
import proofs.«111394_j56581899157988_1_alg».proof.Proof.Layer1

set_option maxRecDepth 16384

noncomputable section

namespace Cert.KernelIdeal.Layer2

open Cert.KernelIdeal Cert.KernelIdeal.Gen Cert.LibHostKeeps
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- Region 2's first output: the projection for the word–word edges. -/
theorem ww2 (c : Dev nD) : W9 m ρ c (Proc.devRef .tc main_v85_0) = Cert.Spec.denseW2 (Cert.Spec.aggW (Cert.Spec.denseW1 (m ((c : Thread nD τ).loc main_arg0)) (m ((c : Thread nD τ).loc main_arg18)) (m ((c : Thread nD τ).loc main_arg19))) (m ((c : Thread nD τ).loc main_arg3)) (m ((c : Thread nD τ).loc main_arg4)) (m ((c : Thread nD τ).loc main_arg5))) (m ((c : Thread nD τ).loc main_arg30)) (m ((c : Thread nD τ).loc main_arg31)) := by
  refine (W9_arr m ρ c 7).trans ((Cert.KernelIdeal.WordTiles2.array7 (V8 m ρ) c).trans ?_)
  show Cert.Proj.dense (W8 m ρ c (Proc.devRef .tc main_v80)) (W8 m ρ c (Proc.devRef .tc main_arg30)) (W8 m ρ c (Proc.devRef .tc main_v82)) = _
  rw [Layer1.hw m ρ c, Keep.arg30_at8 m ρ c, Layer1.bias31_at8 m ρ c]
  exact (Cert.SpecAt.denseW2_eq _ _ _ _).symm

/-- Region 2's second output: the projection for the word–topic edges. -/
theorem wt2 (c : Dev nD) : W9 m ρ c (Proc.devRef .tc main_v85_1) = Cert.Spec.denseW2 (Cert.Spec.aggW (Cert.Spec.denseW1 (m ((c : Thread nD τ).loc main_arg0)) (m ((c : Thread nD τ).loc main_arg18)) (m ((c : Thread nD τ).loc main_arg19))) (m ((c : Thread nD τ).loc main_arg3)) (m ((c : Thread nD τ).loc main_arg4)) (m ((c : Thread nD τ).loc main_arg5))) (m ((c : Thread nD τ).loc main_arg32)) (m ((c : Thread nD τ).loc main_arg33)) := by
  refine (W9_arr m ρ c 8).trans ((Cert.KernelIdeal.WordTiles2.array8 (V8 m ρ) c).trans ?_)
  show Cert.Proj.dense (W8 m ρ c (Proc.devRef .tc main_v80)) (W8 m ρ c (Proc.devRef .tc main_arg32)) (W8 m ρ c (Proc.devRef .tc main_v83)) = _
  rw [Layer1.hw m ρ c, Keep.arg32_at8 m ρ c, Layer1.bias33_at8 m ρ c]
  exact (Cert.SpecAt.denseW2_eq _ _ _ _).symm

/-- Region 2's third output: the projection for the word–document edges. -/
theorem wd2 (c : Dev nD) : W9 m ρ c (Proc.devRef .tc main_v85_2) = Cert.Spec.denseW2 (Cert.Spec.aggW (Cert.Spec.denseW1 (m ((c : Thread nD τ).loc main_arg0)) (m ((c : Thread nD τ).loc main_arg18)) (m ((c : Thread nD τ).loc main_arg19))) (m ((c : Thread nD τ).loc main_arg3)) (m ((c : Thread nD τ).loc main_arg4)) (m ((c : Thread nD τ).loc main_arg5))) (m ((c : Thread nD τ).loc main_arg34)) (m ((c : Thread nD τ).loc main_arg35)) := by
  refine (W9_arr m ρ c 9).trans ((Cert.KernelIdeal.WordTiles2.array9 (V8 m ρ) c).trans ?_)
  show Cert.Proj.dense (W8 m ρ c (Proc.devRef .tc main_v80)) (W8 m ρ c (Proc.devRef .tc main_arg34)) (W8 m ρ c (Proc.devRef .tc main_v84)) = _
  rw [Layer1.hw m ρ c, Keep.arg34_at8 m ρ c, Layer1.bias35_at8 m ρ c]
  exact (Cert.SpecAt.denseW2_eq _ _ _ _).symm

/-- The two topic biases recast to rows, at region 3's entry. -/
theorem bias37_at10 (c : Dev nD) : W10 m ρ c (Proc.devRef .tc main_v86) = shapeCast S1x128 (m ((c : Thread nD τ).loc main_arg37)) shapeCasts_S128_S1x128 := by
  show StableHlo.after hostOps3 (W9 m ρ c) (Proc.devRef .tc main_v86) = _
  read_line
  rw [Keep.arg37_at9 m ρ c]
  rfl
theorem bias39_at10 (c : Dev nD) : W10 m ρ c (Proc.devRef .tc main_v87) = shapeCast S1x128 (m ((c : Thread nD τ).loc main_arg39)) shapeCasts_S128_S1x128 := by
  show StableHlo.after hostOps3 (W9 m ρ c) (Proc.devRef .tc main_v87) = _
  read_line
  rw [Keep.arg39_at9 m ρ c]
  rfl

/-- Region 3's first output: the masked projection for the topic–topic edges. -/
theorem tt2 (c : Dev nD) : W11 m ρ c (Proc.devRef .tc main_v88_0) = Cert.Spec.topicP (Cert.Spec.aggT (Cert.Spec.denseW1 (m ((c : Thread nD τ).loc main_arg0)) (m ((c : Thread nD τ).loc main_arg20)) (m ((c : Thread nD τ).loc main_arg21))) (Cert.Spec.topicP (m ((c : Thread nD τ).loc main_arg1)) (Cert.Spec.posOf (m ((c : Thread nD τ).loc main_arg2))) (Cert.Spec.negOf (m ((c : Thread nD τ).loc main_arg2))) (m ((c : Thread nD τ).loc main_arg28)) (m ((c : Thread nD τ).loc main_arg29)) (m ((c : Thread nD τ).loc main_arg24)) (m ((c : Thread nD τ).loc main_arg25))) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))) (Cert.Spec.posOf (m ((c : Thread nD τ).loc main_arg2))) (Cert.Spec.negOf (m ((c : Thread nD τ).loc main_arg2))) (m ((c : Thread nD τ).loc main_arg40)) (m ((c : Thread nD τ).loc main_arg41)) (m ((c : Thread nD τ).loc main_arg36)) (m ((c : Thread nD τ).loc main_arg37)) := by
  refine (W11_arr m ρ c 9).trans ((Cert.KernelIdeal.TopicTiles2.array9 (V10 m ρ) c).trans ?_)
  show Cert.Proj.masked (W10 m ρ c (Proc.devRef .tc main_v81)) (W10 m ρ c (Proc.devRef .tc main_v3)) (W10 m ρ c (Proc.devRef .tc main_v7))
      (W10 m ρ c (Proc.devRef .tc main_arg40)) (W10 m ρ c (Proc.devRef .tc main_arg41)) (W10 m ρ c (Proc.devRef .tc main_arg36)) (W10 m ρ c (Proc.devRef .tc main_v86)) = _
  rw [Keep.v81_at10_from8 m ρ c, Layer1.ht m ρ c, Keep.v3_at10_from1 m ρ c, Keep.v7_at10_from1 m ρ c, Layer1.pos_at1 m ρ c, Layer1.neg_at1 m ρ c,
    Keep.arg40_at10 m ρ c, Keep.arg41_at10 m ρ c, Keep.arg36_at10 m ρ c, bias37_at10 m ρ c]
  exact (Cert.SpecAt.topicP_eq _ _ _ _ _ _ _ _).symm

/-- Region 3's second output: the masked projection for the topic–document edges. -/
theorem td2 (c : Dev nD) : W11 m ρ c (Proc.devRef .tc main_v88_1) = Cert.Spec.topicP (Cert.Spec.aggT (Cert.Spec.denseW1 (m ((c : Thread nD τ).loc main_arg0)) (m ((c : Thread nD τ).loc main_arg20)) (m ((c : Thread nD τ).loc main_arg21))) (Cert.Spec.topicP (m ((c : Thread nD τ).loc main_arg1)) (Cert.Spec.posOf (m ((c : Thread nD τ).loc main_arg2))) (Cert.Spec.negOf (m ((c : Thread nD τ).loc main_arg2))) (m ((c : Thread nD τ).loc main_arg28)) (m ((c : Thread nD τ).loc main_arg29)) (m ((c : Thread nD τ).loc main_arg24)) (m ((c : Thread nD τ).loc main_arg25))) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))) (Cert.Spec.posOf (m ((c : Thread nD τ).loc main_arg2))) (Cert.Spec.negOf (m ((c : Thread nD τ).loc main_arg2))) (m ((c : Thread nD τ).loc main_arg40)) (m ((c : Thread nD τ).loc main_arg41)) (m ((c : Thread nD τ).loc main_arg38)) (m ((c : Thread nD τ).loc main_arg39)) := by
  refine (W11_arr m ρ c 10).trans ((Cert.KernelIdeal.TopicTiles2.array10 (V10 m ρ) c).trans ?_)
  show Cert.Proj.masked (W10 m ρ c (Proc.devRef .tc main_v81)) (W10 m ρ c (Proc.devRef .tc main_v3)) (W10 m ρ c (Proc.devRef .tc main_v7))
      (W10 m ρ c (Proc.devRef .tc main_arg40)) (W10 m ρ c (Proc.devRef .tc main_arg41)) (W10 m ρ c (Proc.devRef .tc main_arg38)) (W10 m ρ c (Proc.devRef .tc main_v87)) = _
  rw [Keep.v81_at10_from8 m ρ c, Layer1.ht m ρ c, Keep.v3_at10_from1 m ρ c, Keep.v7_at10_from1 m ρ c, Layer1.pos_at1 m ρ c, Layer1.neg_at1 m ρ c,
    Keep.arg40_at10 m ρ c, Keep.arg41_at10 m ρ c, Keep.arg38_at10 m ρ c, bias39_at10 m ρ c]
  exact (Cert.SpecAt.topicP_eq _ _ _ _ _ _ _ _).symm

set_option maxHeartbeats 4000000 in
/-- The word–word mean of the second layer's projection, before clipping. -/
theorem mean_w2 (c : Dev nD) : W12 m ρ c (Proc.devRef .tc main_v110) = Cert.Spec.meanW (W11 m ρ c (Proc.devRef .tc main_v85_0)) (W11 m ρ c (Proc.devRef .tc main_arg3)) (W11 m ρ c (Proc.devRef .tc main_arg4)) (W11 m ρ c (Proc.devRef .tc main_arg5)) := by
  show StableHlo.after hostOps4 (W11 m ρ c) (Proc.devRef .tc main_v110) = _
  read_line
  rfl

/-- The clip at zero of the word rows. -/
theorem relu_w2 (c : Dev nD) : W13 m ρ c (Proc.devRef .tc main_v201) = maximumf (W12 m ρ c (Proc.devRef .tc main_v110)) (broadcastInDim S50000x128 ![] bcast_S_S50000x128 (constant (F := Ideal) S_ .f32 0x00000000#32)) := by
  show StableHlo.after hostOps4_1 (W12 m ρ c) (Proc.devRef .tc main_v201)
    = maximumf (W12 m ρ c (Proc.devRef .tc main_v110)) (broadcastInDim S50000x128 ![] bcast_S_S50000x128 (constant (F := Ideal) S_ .f32 0x00000000#32))
  generalize W12 m ρ c = Wv
  read_line
  simp only [StableHlo.TRef.toBuf, StableHlo.TRef.ofBuf]
  refine eq_of_heq ((cast_heq _ _).trans (heq_of_eq ?_))
  refine congrArg₂ maximumf (eq_of_heq (cast_heq _ _)) ?_
  refine eq_of_heq ((cast_heq _ _).trans ((cast_heq _ _).trans (heq_of_eq ?_)))
  exact congrArg _ (eq_of_heq ((cast_heq _ _).trans (cast_heq _ _)))

/-- The first result: the word rows. -/
theorem out0 (c : Dev nD) : W15 m ρ c (Proc.devRef .tc main_v201) = Cert.Spec.aggW (Cert.Spec.denseW2 (Cert.Spec.aggW (Cert.Spec.denseW1 (m ((c : Thread nD τ).loc main_arg0)) (m ((c : Thread nD τ).loc main_arg18)) (m ((c : Thread nD τ).loc main_arg19))) (m ((c : Thread nD τ).loc main_arg3)) (m ((c : Thread nD τ).loc main_arg4)) (m ((c : Thread nD τ).loc main_arg5))) (m ((c : Thread nD τ).loc main_arg30)) (m ((c : Thread nD τ).loc main_arg31))) (m ((c : Thread nD τ).loc main_arg3)) (m ((c : Thread nD τ).loc main_arg4)) (m ((c : Thread nD τ).loc main_arg5)) := by
  rw [Keep.v201_at15_from13 m ρ c, relu_w2 m ρ c, mean_w2 m ρ c, Keep.v85_0_at11_from9 m ρ c, ww2 m ρ c, Keep.arg3_at11 m ρ c, Keep.arg4_at11 m ρ c, Keep.arg5_at11 m ρ c]
  rfl

set_option maxHeartbeats 4000000 in
/-- The word–topic and topic–topic means of the second layer's projections, summed, before clipping. -/
theorem mean_t2 (c : Dev nD) : W12 m ρ c (Proc.devRef .tc main_v155) = Cert.Spec.meanT (W11 m ρ c (Proc.devRef .tc main_v85_1)) (W11 m ρ c (Proc.devRef .tc main_v88_0)) (W11 m ρ c (Proc.devRef .tc main_arg6)) (W11 m ρ c (Proc.devRef .tc main_arg7)) (W11 m ρ c (Proc.devRef .tc main_arg8)) (W11 m ρ c (Proc.devRef .tc main_arg12)) (W11 m ρ c (Proc.devRef .tc main_arg13)) (W11 m ρ c (Proc.devRef .tc main_arg14)) := by
  show StableHlo.after hostOps4 (W11 m ρ c) (Proc.devRef .tc main_v155) = _
  read_line
  rfl

/-- The clip at zero of the topic rows. -/
theorem relu_t2 (c : Dev nD) : W14 m ρ c (Proc.devRef .tc main_v202) = maximumf (W13 m ρ c (Proc.devRef .tc main_v155)) (broadcastInDim S5000x128 ![] bcast_S_S5000x128 (constant (F := Ideal) S_ .f32 0x00000000#32)) := by
  show StableHlo.after hostOps4_2 (W13 m ρ c) (Proc.devRef .tc main_v202)
    = maximumf (W13 m ρ c (Proc.devRef .tc main_v155)) (broadcastInDim S5000x128 ![] bcast_S_S5000x128 (constant (F := Ideal) S_ .f32 0x00000000#32))
  generalize W13 m ρ c = Wv
  read_line
  simp only [StableHlo.TRef.toBuf, StableHlo.TRef.ofBuf]
  refine eq_of_heq ((cast_heq _ _).trans (heq_of_eq ?_))
  refine congrArg₂ maximumf (eq_of_heq (cast_heq _ _)) ?_
  refine eq_of_heq ((cast_heq _ _).trans ((cast_heq _ _).trans (heq_of_eq ?_)))
  exact congrArg _ (eq_of_heq ((cast_heq _ _).trans (cast_heq _ _)))

/-- The second result: the topic rows. -/
theorem out1 (c : Dev nD) : W15 m ρ c (Proc.devRef .tc main_v202) = Cert.Spec.aggT (Cert.Spec.denseW2 (Cert.Spec.aggW (Cert.Spec.denseW1 (m ((c : Thread nD τ).loc main_arg0)) (m ((c : Thread nD τ).loc main_arg18)) (m ((c : Thread nD τ).loc main_arg19))) (m ((c : Thread nD τ).loc main_arg3)) (m ((c : Thread nD τ).loc main_arg4)) (m ((c : Thread nD τ).loc main_arg5))) (m ((c : Thread nD τ).loc main_arg32)) (m ((c : Thread nD τ).loc main_arg33))) (Cert.Spec.topicP (Cert.Spec.aggT (Cert.Spec.denseW1 (m ((c : Thread nD τ).loc main_arg0)) (m ((c : Thread nD τ).loc main_arg20)) (m ((c : Thread nD τ).loc main_arg21))) (Cert.Spec.topicP (m ((c : Thread nD τ).loc main_arg1)) (Cert.Spec.posOf (m ((c : Thread nD τ).loc main_arg2))) (Cert.Spec.negOf (m ((c : Thread nD τ).loc main_arg2))) (m ((c : Thread nD τ).loc main_arg28)) (m ((c : Thread nD τ).loc main_arg29)) (m ((c : Thread nD τ).loc main_arg24)) (m ((c : Thread nD τ).loc main_arg25))) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))) (Cert.Spec.posOf (m ((c : Thread nD τ).loc main_arg2))) (Cert.Spec.negOf (m ((c : Thread nD τ).loc main_arg2))) (m ((c : Thread nD τ).loc main_arg40)) (m ((c : Thread nD τ).loc main_arg41)) (m ((c : Thread nD τ).loc main_arg36)) (m ((c : Thread nD τ).loc main_arg37))) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) := by
  rw [Keep.v202_at15_from14 m ρ c, relu_t2 m ρ c, Keep.v155_at13_from12 m ρ c, mean_t2 m ρ c, Keep.v85_1_at11_from9 m ρ c, wt2 m ρ c, tt2 m ρ c, Keep.arg6_at11 m ρ c, Keep.arg7_at11 m ρ c, Keep.arg8_at11 m ρ c, Keep.arg12_at11 m ρ c, Keep.arg13_at11 m ρ c, Keep.arg14_at11 m ρ c]
  rfl

set_option maxHeartbeats 4000000 in
/-- The word–document and topic–document means of the second layer's projections, summed, before clipping. -/
theorem mean_d2 (c : Dev nD) : W12 m ρ c (Proc.devRef .tc main_v200) = Cert.Spec.meanD (W11 m ρ c (Proc.devRef .tc main_v85_2)) (W11 m ρ c (Proc.devRef .tc main_v88_1)) (W11 m ρ c (Proc.devRef .tc main_arg9)) (W11 m ρ c (Proc.devRef .tc main_arg10)) (W11 m ρ c (Proc.devRef .tc main_arg11)) (W11 m ρ c (Proc.devRef .tc main_arg15)) (W11 m ρ c (Proc.devRef .tc main_arg16)) (W11 m ρ c (Proc.devRef .tc main_arg17)) := by
  show StableHlo.after hostOps4 (W11 m ρ c) (Proc.devRef .tc main_v200) = _
  read_line
  rfl

/-- The clip at zero of the document rows. -/
theorem relu_d2 (c : Dev nD) : W15 m ρ c (Proc.devRef .tc main_v203) = maximumf (W14 m ρ c (Proc.devRef .tc main_v200)) (broadcastInDim S50000x128 ![] bcast_S_S50000x128 (constant (F := Ideal) S_ .f32 0x00000000#32)) := by
  show StableHlo.after hostOps4_3 (W14 m ρ c) (Proc.devRef .tc main_v203)
    = maximumf (W14 m ρ c (Proc.devRef .tc main_v200)) (broadcastInDim S50000x128 ![] bcast_S_S50000x128 (constant (F := Ideal) S_ .f32 0x00000000#32))
  generalize W14 m ρ c = Wv
  read_line
  simp only [StableHlo.TRef.toBuf, StableHlo.TRef.ofBuf]
  refine eq_of_heq ((cast_heq _ _).trans (heq_of_eq ?_))
  refine congrArg₂ maximumf (eq_of_heq (cast_heq _ _)) ?_
  refine eq_of_heq ((cast_heq _ _).trans ((cast_heq _ _).trans (heq_of_eq ?_)))
  exact congrArg _ (eq_of_heq ((cast_heq _ _).trans (cast_heq _ _)))

/-- The third result: the document rows. -/
theorem out2 (c : Dev nD) : W15 m ρ c (Proc.devRef .tc main_v203) = Cert.Spec.aggD (Cert.Spec.denseW2 (Cert.Spec.aggW (Cert.Spec.denseW1 (m ((c : Thread nD τ).loc main_arg0)) (m ((c : Thread nD τ).loc main_arg18)) (m ((c : Thread nD τ).loc main_arg19))) (m ((c : Thread nD τ).loc main_arg3)) (m ((c : Thread nD τ).loc main_arg4)) (m ((c : Thread nD τ).loc main_arg5))) (m ((c : Thread nD τ).loc main_arg34)) (m ((c : Thread nD τ).loc main_arg35))) (Cert.Spec.topicP (Cert.Spec.aggT (Cert.Spec.denseW1 (m ((c : Thread nD τ).loc main_arg0)) (m ((c : Thread nD τ).loc main_arg20)) (m ((c : Thread nD τ).loc main_arg21))) (Cert.Spec.topicP (m ((c : Thread nD τ).loc main_arg1)) (Cert.Spec.posOf (m ((c : Thread nD τ).loc main_arg2))) (Cert.Spec.negOf (m ((c : Thread nD τ).loc main_arg2))) (m ((c : Thread nD τ).loc main_arg28)) (m ((c : Thread nD τ).loc main_arg29)) (m ((c : Thread nD τ).loc main_arg24)) (m ((c : Thread nD τ).loc main_arg25))) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14))) (Cert.Spec.posOf (m ((c : Thread nD τ).loc main_arg2))) (Cert.Spec.negOf (m ((c : Thread nD τ).loc main_arg2))) (m ((c : Thread nD τ).loc main_arg40)) (m ((c : Thread nD τ).loc main_arg41)) (m ((c : Thread nD τ).loc main_arg38)) (m ((c : Thread nD τ).loc main_arg39))) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := by
  rw [relu_d2 m ρ c, Keep.v200_at14_from12 m ρ c, mean_d2 m ρ c, Keep.v85_2_at11_from9 m ρ c, wd2 m ρ c, td2 m ρ c, Keep.arg9_at11 m ρ c, Keep.arg10_at11 m ρ c, Keep.arg11_at11 m ρ c, Keep.arg15_at11 m ρ c, Keep.arg16_at11 m ρ c, Keep.arg17_at11 m ρ c]
  rfl

end Cert.KernelIdeal.Layer2

end
-- ==== Proof.lean ====
/-
  The proof of `Cert.Claim` for the two-layer aggregation over word, topic and document rows.

  The kernel computes the dense projections of each layer inside four kernel regions — the word rows tiled by 2000
  rows, the topic rows by 1000 — and the aggregations along the edges on the host; the reference computes everything
  on the host. Over the extended reals a tile's projection is the same rows of the whole matrix's projection, because
  a projection's row depends on that row of its input alone, and a product into the zero accumulator and a host
  dot_general are the same sum; the host's aggregation stretches are the reference's operation for operation. So each
  of the kernel's three results is the model's composition (Spec: aggW, aggT, aggD of the second layer's projections
  of the first layer's aggregations) of the launch arrays, and the reference's three results are that composition by
  definition. No law of arithmetic is used, and the precondition is not opened.

  The three frames are the generated frame certificates (the reference's is its run with the results dropped); the
  ideal pass recorded no rewrite, so the preservation claim is trivial.
-/
import proofs.«111394_j56581899157988_1_alg».proof.Defs
import proofs.«111394_j56581899157988_1_alg».proof.Proof.Gen.Kernel
import proofs.«111394_j56581899157988_1_alg».proof.Proof.Gen.Kernel.Frame
import proofs.«111394_j56581899157988_1_alg».proof.Proof.Gen.KernelIdeal
import proofs.«111394_j56581899157988_1_alg».proof.Proof.Gen.KernelIdeal.Frame
import proofs.«111394_j56581899157988_1_alg».proof.Proof.Gen.ReferenceIdeal
import proofs.«111394_j56581899157988_1_alg».proof.Proof.Gen.Pre_finite_inputs
import proofs.«111394_j56581899157988_1_alg».proof.Proof.KRun
import proofs.«111394_j56581899157988_1_alg».proof.Proof.RefRun
import proofs.«111394_j56581899157988_1_alg».proof.Proof.Spec
import proofs.«111394_j56581899157988_1_alg».proof.Proof.Layer2
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- Both programs end with the model's three compositions of the launch arrays: the kernel's results are read off its
    run (Layer2), the reference's are the composition by definition, and the arguments agree. -/
theorem algebraic : Cert.algebraic_KernelIdeal_ReferenceIdeal := by
  intro m ρ m' ρ' _ hagree
  refine ⟨fun c => Cert.KernelIdeal.Gen.W15 m ρ c (Proc.devRef .tc Cert.KernelIdeal.main_v201),
    fun c => Cert.KernelIdeal.Gen.W15 m ρ c (Proc.devRef .tc Cert.KernelIdeal.main_v202),
    fun c => Cert.KernelIdeal.Gen.W15 m ρ c (Proc.devRef .tc Cert.KernelIdeal.main_v203),
    Cert.KernelIdeal.GenP.run_all (F := Ideal) m ρ, ?_⟩
  refine (θ_run Cert.ReferenceIdeal.defs _ _).mono (fun r h c => ?_) (Cert.ReferenceIdeal.ValueP.run (F := Ideal) m' ρ')
  obtain ⟨h0, h1, h2, hargs⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41⟩ := hagree c
  refine ⟨h0.trans ?_, h1.trans ?_, h2.trans ?_, hargs⟩
  · show _ = Cert.KernelIdeal.Gen.W15 m ρ c (Proc.devRef .tc Cert.KernelIdeal.main_v201)
    rw [Cert.KernelIdeal.Layer2.out0 m ρ c, ← a0, ← a18, ← a19, ← a3, ← a4, ← a5, ← a30, ← a31]
    unfold Cert.Spec.aggW Cert.Spec.meanW Cert.Spec.denseW2 Cert.Spec.denseW1
    rfl
  · show _ = Cert.KernelIdeal.Gen.W15 m ρ c (Proc.devRef .tc Cert.KernelIdeal.main_v202)
    rw [Cert.KernelIdeal.Layer2.out1 m ρ c, ← a0, ← a18, ← a19, ← a3, ← a4, ← a5, ← a32, ← a33, ← a20, ← a21, ← a1, ← a2, ← a28, ← a29, ← a24, ← a25, ← a6, ← a7, ← a8, ← a12, ← a13, ← a14, ← a40, ← a41, ← a36, ← a37]
    unfold Cert.ReferenceIdeal.ValueP.res_main_v293 Cert.Spec.aggT Cert.Spec.meanT Cert.Spec.aggW Cert.Spec.meanW Cert.Spec.topicP Cert.Spec.posOf Cert.Spec.negOf Cert.Spec.denseW2 Cert.Spec.denseW1
    rfl
  · show _ = Cert.KernelIdeal.Gen.W15 m ρ c (Proc.devRef .tc Cert.KernelIdeal.main_v203)
    rw [Cert.KernelIdeal.Layer2.out2 m ρ c, ← a0, ← a18, ← a19, ← a3, ← a4, ← a5, ← a34, ← a35, ← a20, ← a21, ← a1, ← a2, ← a28, ← a29, ← a24, ← a25, ← a6, ← a7, ← a8, ← a12, ← a13, ← a14, ← a40, ← a41, ← a38, ← a39, ← a9, ← a10, ← a11, ← a15, ← a16, ← a17]
    unfold Cert.ReferenceIdeal.ValueP.res_main_v294 Cert.Spec.aggD Cert.Spec.meanD Cert.Spec.aggT Cert.Spec.meanT Cert.Spec.aggW Cert.Spec.meanW Cert.Spec.topicP Cert.Spec.posOf Cert.Spec.negOf Cert.Spec.denseW2 Cert.Spec.denseW1
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
